-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v49)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v49) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v66) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S128x128 : Shape := ⟨2, ![128, 128]⟩
abbrev S128x4 : Shape := ⟨2, ![128, 4]⟩
abbrev S128 : Shape := ⟨1, ![128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128x4 : S_.BroadcastsInDim S128x4 (![] : Fin 0 → Fin S128x4.rank)
  reducesTo_S128x4_S_d0_1 : S128x4.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg5 : FVec F S128 .f32) (main_arg6 : FVec F S128 .f32) (main_v13 : IVec S_ 1) (main_v16 : IVec S128x4 1) : IVec S_ 1 :=
  let main_c_5 : IVec S_ 1 := constantI S_ 1 1#1
  let main_v17 : IVec S_ 1 := (fun x v => Host.reduce IntOp.andi x v reducesTo_S128x4_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  main_v28

def fn {F : FTy → Type} [FloatOps F] (main_arg0 : FVec F S50000x128 .f32) (main_arg1 : IVec S2x800000 32) (main_arg2 : FVec F S128x128 .f32) (main_arg3 : FVec F S128x128 .f32) (main_arg4 : FVec F S128x4 .f32) (main_arg5 : FVec F S128 .f32) (main_arg6 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128x128 .f32 := Host.absf main_arg3
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128x4 .f32 := Host.absf main_arg4
  let main_cst_4 : FVec F S_ .f32 := constant S_ .f32 0x7F800000#32
  let main_v15 : FVec F S128x4 .f32 := broadcastInDim S128x4 ![] bcast_S_S128x4 main_cst_4
  let main_v16 : IVec S128x4 1 := cmpf .olt main_v14 main_v15
  fn_part1 (F := F) main_arg5 main_arg6 main_v13 main_v16
-- ==== Kernel.lean ====
abbrev S50000x128 : Shape := ⟨2, ![50000, 128]⟩
abbrev S2x800000 : Shape := ⟨2, ![2, 800000]⟩
abbrev S128x128 : Shape := ⟨2, ![128, 128]⟩
abbrev S128x4 : Shape := ⟨2, ![128, 4]⟩
abbrev S128 : Shape := ⟨1, ![128]⟩
abbrev S1x800000 : Shape := ⟨2, ![1, 800000]⟩
abbrev S800000 : Shape := ⟨1, ![800000]⟩
abbrev S2000x128 : Shape := ⟨2, ![2000, 128]⟩
abbrev S_ : Shape := ⟨0, ![]⟩
abbrev S800000x1 : Shape := ⟨2, ![800000, 1]⟩
abbrev S800000x128 : Shape := ⟨2, ![800000, 128]⟩
abbrev S800000x4 : Shape := ⟨2, ![800000, 4]⟩
abbrev S4000x128 : Shape := ⟨2, ![4000, 128]⟩
abbrev S4000x4 : Shape := ⟨2, ![4000, 4]⟩
abbrev S50000x4 : Shape := ⟨2, ![50000, 4]⟩
abbrev S4 : Shape := ⟨1, ![4]⟩
abbrev S4x1 : Shape := ⟨2, ![4, 1]⟩
abbrev S1x128 : Shape := ⟨2, ![1, 128]⟩
abbrev S4x128 : Shape := ⟨2, ![4, 128]⟩
abbrev S2000 : Shape := ⟨1, ![2000]⟩
abbrev S2000x1 : Shape := ⟨2, ![2000, 1]⟩

abbrev nBuf : Space → Nat
  | .hbm => 84
  | .vmem => 32
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x128, .f32⟩
  | .hbm, ⟨3, _⟩ => ⟨S128x128, .f32⟩
  | .hbm, ⟨4, _⟩ => ⟨S128x4, .f32⟩
  | .hbm, ⟨5, _⟩ => ⟨S128, .f32⟩
  | .hbm, ⟨6, _⟩ => ⟨S128, .f32⟩
  | .hbm, ⟨7, _⟩ => ⟨S1x800000, .i32⟩
  | .hbm, ⟨8, _⟩ => ⟨S800000, .i32⟩
  | .hbm, ⟨9, _⟩ => ⟨S1x800000, .i32⟩
  | .hbm, ⟨10, _⟩ => ⟨S800000, .i32⟩
  | .hbm, ⟨11, _⟩ => ⟨S50000x128, .f32⟩
  | .hbm, ⟨12, _⟩ => ⟨S50000x128, .f32⟩
  | .hbm, ⟨13, _⟩ => ⟨S_, .i32⟩
  | .hbm, ⟨14, _⟩ => ⟨S800000, .i32⟩
  | .hbm, ⟨15, _⟩ => ⟨S800000, .i1⟩
  | .hbm, ⟨16, _⟩ => ⟨S_, .i32⟩
  | .hbm, ⟨17, _⟩ => ⟨S800000, .i32⟩
  | .hbm, ⟨18, _⟩ => ⟨S800000, .i32⟩
  | .hbm, ⟨19, _⟩ => ⟨S800000, .i32⟩
  | .hbm, ⟨20, _⟩ => ⟨S800000x1, .i32⟩
  | .hbm, ⟨21, _⟩ => ⟨S800000x128, .f32⟩
  | .hbm, ⟨22, _⟩ => ⟨S_, .i32⟩
  | .hbm, ⟨23, _⟩ => ⟨S800000, .i32⟩
  | .hbm, ⟨24, _⟩ => ⟨S800000, .i1⟩
  | .hbm, ⟨25, _⟩ => ⟨S_, .i32⟩
  | .hbm, ⟨26, _⟩ => ⟨S800000, .i32⟩
  | .hbm, ⟨27, _⟩ => ⟨S800000, .i32⟩
  | .hbm, ⟨28, _⟩ => ⟨S800000, .i32⟩
  | .hbm, ⟨29, _⟩ => ⟨S800000x1, .i32⟩
  | .hbm, ⟨30, _⟩ => ⟨S800000x128, .f32⟩
  | .hbm, ⟨31, _⟩ => ⟨S800000x4, .f32⟩
  | .hbm, ⟨32, _⟩ => ⟨S_, .f32⟩
  | .hbm, ⟨33, _⟩ => ⟨S_, .f32⟩
  | .hbm, ⟨34, _⟩ => ⟨S800000x4, .f32⟩
  | .hbm, ⟨35, _⟩ => ⟨S800000x4, .f32⟩
  | .hbm, ⟨36, _⟩ => ⟨S800000x4, .f32⟩
  | .hbm, ⟨37, _⟩ => ⟨S_, .f32⟩
  | .hbm, ⟨38, _⟩ => ⟨S50000x4, .f32⟩
  | .hbm, ⟨39, _⟩ => ⟨S800000x1, .i32⟩
  | .hbm, ⟨40, _⟩ => ⟨S50000x4, .f32⟩
  | .hbm, ⟨41, _⟩ => ⟨S_, .i32⟩
  | .hbm, ⟨42, _⟩ => ⟨S800000, .i32⟩
  | .hbm, ⟨43, _⟩ => ⟨S800000, .i1⟩
  | .hbm, ⟨44, _⟩ => ⟨S_, .i32⟩
  | .hbm, ⟨45, _⟩ => ⟨S800000, .i32⟩
  | .hbm, ⟨46, _⟩ => ⟨S800000, .i32⟩
  | .hbm, ⟨47, _⟩ => ⟨S800000, .i32⟩
  | .hbm, ⟨48, _⟩ => ⟨S800000x1, .i32⟩
  | .hbm, ⟨49, _⟩ => ⟨S800000x4, .f32⟩
  | .hbm, ⟨50, _⟩ => ⟨S4, .i32⟩
  | .hbm, ⟨51, _⟩ => ⟨S4x1, .i32⟩
  | .hbm, ⟨52, _⟩ => ⟨S128, .i32⟩
  | .hbm, ⟨53, _⟩ => ⟨S1x128, .i32⟩
  | .hbm, ⟨54, _⟩ => ⟨S_, .i32⟩
  | .hbm, ⟨55, _⟩ => ⟨S_, .i32⟩
  | .hbm, ⟨56, _⟩ => ⟨S1x128, .i32⟩
  | .hbm, ⟨57, _⟩ => ⟨S1x128, .i32⟩
  | .hbm, ⟨58, _⟩ => ⟨S1x128, .i32⟩
  | .hbm, ⟨59, _⟩ => ⟨S_, .i32⟩
  | .hbm, ⟨60, _⟩ => ⟨S1x128, .i32⟩
  | .hbm, ⟨61, _⟩ => ⟨S1x128, .i1⟩
  | .hbm, ⟨62, _⟩ => ⟨S1x128, .i32⟩
  | .hbm, ⟨63, _⟩ => ⟨S1x128, .i32⟩
  | .hbm, ⟨64, _⟩ => ⟨S_, .i32⟩
  | .hbm, ⟨65, _⟩ => ⟨S1x128, .i32⟩
  | .hbm, ⟨66, _⟩ => ⟨S1x128, .i1⟩
  | .hbm, ⟨67, _⟩ => ⟨S1x128, .i1⟩
  | .hbm, ⟨68, _⟩ => ⟨S_, .i32⟩
  | .hbm, ⟨69, _⟩ => ⟨S1x128, .i32⟩
  | .hbm, ⟨70, _⟩ => ⟨S1x128, .i32⟩
  | .hbm, ⟨71, _⟩ => ⟨S1x128, .i32⟩
  | .hbm, ⟨72, _⟩ => ⟨S4x128, .i32⟩
  | .hbm, ⟨73, _⟩ => ⟨S4x128, .i32⟩
  | .hbm, ⟨74, _⟩ => ⟨S4x128, .i1⟩
  | .hbm, ⟨75, _⟩ => ⟨S4x128, .f32⟩
  | .hbm, ⟨76, _⟩ => ⟨S800000x128, .f32⟩
  | .hbm, ⟨77, _⟩ => ⟨S_, .f32⟩
  | .hbm, ⟨78, _⟩ => ⟨S50000x128, .f32⟩
  | .hbm, ⟨79, _⟩ => ⟨S800000x1, .i32⟩
  | .hbm, ⟨80, _⟩ => ⟨S50000x128, .f32⟩
  | .hbm, ⟨81, _⟩ => ⟨S1x128, .f32⟩
  | .hbm, ⟨82, _⟩ => ⟨S1x128, .f32⟩
  | .hbm, ⟨83, _⟩ => ⟨S50000x128, .f32⟩
  | .local _ .vmem, ⟨0, _⟩ => ⟨S2000x128, .f32⟩
  | .local _ .vmem, ⟨1, _⟩ => ⟨S2000x128, .f32⟩
  | .local _ .vmem, ⟨2, _⟩ => ⟨S128x128, .f32⟩
  | .local _ .vmem, ⟨3, _⟩ => ⟨S128x128, .f32⟩
  | .local _ .vmem, ⟨4, _⟩ => ⟨S2000x128, .f32⟩
  | .local _ .vmem, ⟨5, _⟩ => ⟨S2000x128, .f32⟩
  | .local _ .vmem, ⟨6, _⟩ => ⟨S2000x128, .f32⟩
  | .local _ .vmem, ⟨7, _⟩ => ⟨S2000x128, .f32⟩
  | .local _ .vmem, ⟨8, _⟩ => ⟨S4000x128, .f32⟩
  | .local _ .vmem, ⟨9, _⟩ => ⟨S4000x128, .f32⟩
  | .local _ .vmem, ⟨10, _⟩ => ⟨S4000x128, .f32⟩
  | .local _ .vmem, ⟨11, _⟩ => ⟨S4000x128, .f32⟩
  | .local _ .vmem, ⟨12, _⟩ => ⟨S128x4, .f32⟩
  | .local _ .vmem, ⟨13, _⟩ => ⟨S4000x4, .f32⟩
  | .local _ .vmem, ⟨14, _⟩ => ⟨S4000x4, .f32⟩
  | .local _ .vmem, ⟨15, _⟩ => ⟨S4000x128, .f32⟩
  | .local _ .vmem, ⟨16, _⟩ => ⟨S4000x128, .f32⟩
  | .local _ .vmem, ⟨17, _⟩ => ⟨S4000x4, .f32⟩
  | .local _ .vmem, ⟨18, _⟩ => ⟨S4000x4, .f32⟩
  | .local _ .vmem, ⟨19, _⟩ => ⟨S4000x4, .f32⟩
  | .local _ .vmem, ⟨20, _⟩ => ⟨S4000x4, .f32⟩
  | .local _ .vmem, ⟨21, _⟩ => ⟨S4x128, .f32⟩
  | .local _ .vmem, ⟨22, _⟩ => ⟨S4000x128, .f32⟩
  | .local _ .vmem, ⟨23, _⟩ => ⟨S4000x128, .f32⟩
  | .local _ .vmem, ⟨24, _⟩ => ⟨S2000x128, .f32⟩
  | .local _ .vmem, ⟨25, _⟩ => ⟨S2000x128, .f32⟩
  | .local _ .vmem, ⟨26, _⟩ => ⟨S2000x128, .f32⟩
  | .local _ .vmem, ⟨27, _⟩ => ⟨S2000x128, .f32⟩
  | .local _ .vmem, ⟨28, _⟩ => ⟨S1x128, .f32⟩
  | .local _ .vmem, ⟨29, _⟩ => ⟨S1x128, .f32⟩
  | .local _ .vmem, ⟨30, _⟩ => ⟨S2000x128, .f32⟩
  | .local _ .vmem, ⟨31, _⟩ => ⟨S2000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4_0 : Ref sig .tc := ⟨.hbm, 11, rfl⟩
abbrev main_v4_1 : Ref sig .tc := ⟨.hbm, 12, rfl⟩
abbrev main_c : Ref sig .tc := ⟨.hbm, 13, rfl⟩
abbrev main_v5 : Ref sig .tc := ⟨.hbm, 14, rfl⟩
abbrev main_v6 : Ref sig .tc := ⟨.hbm, 15, rfl⟩
abbrev main_c_0 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_c_1 : Ref sig .tc := ⟨.hbm, 22, rfl⟩
abbrev main_v12 : Ref sig .tc := ⟨.hbm, 23, rfl⟩
abbrev main_v13 : Ref sig .tc := ⟨.hbm, 24, rfl⟩
abbrev main_c_2 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_3 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_c_4 : Ref sig .tc := ⟨.hbm, 41, rfl⟩
abbrev main_v27 : Ref sig .tc := ⟨.hbm, 42, rfl⟩
abbrev main_v28 : Ref sig .tc := ⟨.hbm, 43, rfl⟩
abbrev main_c_5 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_c_6 : Ref sig .tc := ⟨.hbm, 54, rfl⟩
abbrev main_call0_v0 : Ref sig .tc := ⟨.hbm, 55, rfl⟩
abbrev main_call0_v1 : Ref sig .tc := ⟨.hbm, 56, rfl⟩
abbrev main_call0_v2 : Ref sig .tc := ⟨.hbm, 57, rfl⟩
abbrev main_call0_v3 : Ref sig .tc := ⟨.hbm, 58, rfl⟩
abbrev main_call0_v4 : Ref sig .tc := ⟨.hbm, 59, rfl⟩
abbrev main_call0_v5 : Ref sig .tc := ⟨.hbm, 60, rfl⟩
abbrev main_call0_v6 : Ref sig .tc := ⟨.hbm, 61, rfl⟩
abbrev main_call0_v7 : Ref sig .tc := ⟨.hbm, 62, rfl⟩
abbrev main_call0_v8 : Ref sig .tc := ⟨.hbm, 63, rfl⟩
abbrev main_call0_c : Ref sig .tc := ⟨.hbm, 64, rfl⟩
abbrev main_call0_v9 : Ref sig .tc := ⟨.hbm, 65, rfl⟩
abbrev main_call0_v10 : Ref sig .tc := ⟨.hbm, 66, rfl⟩
abbrev main_call0_v11 : Ref sig .tc := ⟨.hbm, 67, rfl⟩
abbrev main_call0_c_0 : Ref sig .tc := ⟨.hbm, 68, rfl⟩
abbrev main_call0_v12 : Ref sig .tc := ⟨.hbm, 69, rfl⟩
abbrev main_call0_v13 : Ref sig .tc := ⟨.hbm, 70, rfl⟩
abbrev main_v38 : Ref sig .tc := ⟨.hbm, 71, rfl⟩
abbrev main_v39 : Ref sig .tc := ⟨.hbm, 72, rfl⟩
abbrev main_v40 : Ref sig .tc := ⟨.hbm, 73, rfl⟩
abbrev main_v41 : Ref sig .tc := ⟨.hbm, 74, rfl⟩
abbrev main_v42 : Ref sig .tc := ⟨.hbm, 75, rfl⟩
abbrev main_v43 : Ref sig .tc := ⟨.hbm, 76, rfl⟩
abbrev main_cst_7 : Ref sig .tc := ⟨.hbm, 77, rfl⟩
abbrev main_v44 : Ref sig .tc := ⟨.hbm, 78, rfl⟩
abbrev main_v45 : Ref sig .tc := ⟨.hbm, 79, rfl⟩
abbrev main_v46 : Ref sig .tc := ⟨.hbm, 80, rfl⟩
abbrev main_v47 : Ref sig .tc := ⟨.hbm, 81, rfl⟩
abbrev main_v48 : Ref sig .tc := ⟨.hbm, 82, rfl⟩
abbrev main_v49 : Ref sig .tc := ⟨.hbm, 83, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg3_1 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg1_1 : Ref sig .tc := ⟨.vmem, 18, rfl⟩
abbrev cc2_stg2_0 : Ref sig .tc := ⟨.vmem, 19, rfl⟩
abbrev cc2_stg2_1 : Ref sig .tc := ⟨.vmem, 20, rfl⟩
abbrev cc2_stg3_0 : Ref sig .tc := ⟨.vmem, 21, rfl⟩
abbrev cc2_stg4_0 : Ref sig .tc := ⟨.vmem, 22, rfl⟩
abbrev cc2_stg4_1 : Ref sig .tc := ⟨.vmem, 23, rfl⟩
abbrev cc3_stg0_0 : Ref sig .tc := ⟨.vmem, 24, rfl⟩
abbrev cc3_stg0_1 : Ref sig .tc := ⟨.vmem, 25, rfl⟩
abbrev cc3_stg1_0 : Ref sig .tc := ⟨.vmem, 26, rfl⟩
abbrev cc3_stg1_1 : Ref sig .tc := ⟨.vmem, 27, rfl⟩
abbrev cc3_stg2_0 : Ref sig .tc := ⟨.vmem, 28, rfl⟩
abbrev cc3_stg3_0 : Ref sig .tc := ⟨.vmem, 29, rfl⟩
abbrev cc3_stg4_0 : Ref sig .tc := ⟨.vmem, 30, rfl⟩
abbrev cc3_stg4_1 : Ref sig .tc := ⟨.vmem, 31, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem3_0 : DmaSem sig := 13
abbrev cc1_sem3_1 : DmaSem sig := 14
abbrev cc2_sem0_0 : DmaSem sig := 15
abbrev cc2_sem0_1 : DmaSem sig := 16
abbrev cc2_sem1_0 : DmaSem sig := 17
abbrev cc2_sem1_1 : DmaSem sig := 18
abbrev cc2_sem2_0 : DmaSem sig := 19
abbrev cc2_sem2_1 : DmaSem sig := 20
abbrev cc2_sem3_0 : DmaSem sig := 21
abbrev cc2_sem4_0 : DmaSem sig := 22
abbrev cc2_sem4_1 : DmaSem sig := 23
abbrev cc3_sem0_0 : DmaSem sig := 24
abbrev cc3_sem0_1 : DmaSem sig := 25
abbrev cc3_sem1_0 : DmaSem sig := 26
abbrev cc3_sem1_1 : DmaSem sig := 27
abbrev cc3_sem2_0 : DmaSem sig := 28
abbrev cc3_sem3_0 : DmaSem sig := 29
abbrev cc3_sem4_0 : DmaSem sig := 30
abbrev cc3_sem4_1 : DmaSem sig := 31

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2000x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![200], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x4 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S4000x4 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![200], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S4000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S4000x4 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S4000x4 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S4x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S4000x128 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S2000x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S1x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S2000x128 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  inb_S2000x128_S2000x128_0_0 : ∀ a, (![0, 0] : Fin 2 → Nat) a + S2000x128.size a ≤ S2000x128.size a
  h_S2000x128 : 0 < S2000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S_S800000 : S_.BroadcastsInDim S800000 (![] : Fin 0 → Fin S800000.rank)
  bcast_S800000_S800000x1_0 : S800000.BroadcastsInDim S800000x1 (![0] : Fin 1 → Fin S800000x1.rank)
  inb_S4000x128_S4000x128_0_0 : ∀ a, (![0, 0] : Fin 2 → Nat) a + S4000x128.size a ≤ S4000x128.size a
  h_S4000x128 : 0 < S4000x128.numel
  shapeCasts_S4000x128_S4000x128 : S4000x128.ShapeCasts S4000x128
  inb_S128x4_S128x4_0_0 : ∀ a, (![0, 0] : Fin 2 → Nat) a + S128x4.size a ≤ S128x4.size a
  h_S128x4 : 0 < S128x4.numel
  inb_S4000x4_S4000x4_0_0 : ∀ a, (![0, 0] : Fin 2 → Nat) a + S4000x4.size a ≤ S4000x4.size a
  h_S4000x4 : 0 < S4000x4.numel
  reducesTo_S800000x4_S_d0_1 : S800000x4.ReducesTo [0, 1] S_
  h_S_ : 0 < S_.numel
  bcast_S_S800000x4 : S_.BroadcastsInDim S800000x4 (![] : Fin 0 → Fin S800000x4.rank)
  bcast_S_S50000x4 : S_.BroadcastsInDim S50000x4 (![] : Fin 0 → Fin S50000x4.rank)
  bcast_S4_S4x1_0 : S4.BroadcastsInDim S4x1 (![0] : Fin 1 → Fin S4x1.rank)
  bcast_S128_S1x128_1 : S128.BroadcastsInDim S1x128 (![1] : Fin 1 → Fin S1x128.rank)
  bcast_S_S1x128 : S_.BroadcastsInDim S1x128 (![] : Fin 0 → Fin S1x128.rank)
  bcast_S1x128_S4x128_0_1 : S1x128.BroadcastsInDim S4x128 (![0, 1] : Fin 2 → Fin S4x128.rank)
  bcast_S4x1_S4x128_0_1 : S4x1.BroadcastsInDim S4x128 (![0, 1] : Fin 2 → Fin S4x128.rank)
  shapeCasts_S4000x4_S4000x4 : S4000x4.ShapeCasts S4000x4
  inb_S4x128_S4x128_0_0 : ∀ a, (![0, 0] : Fin 2 → Nat) a + S4x128.size a ≤ S4x128.size a
  h_S4x128 : 0 < S4x128.numel
  shapeCasts_S4x128_S4x128 : S4x128.ShapeCasts S4x128
  bcast_S_S50000x128 : S_.BroadcastsInDim S50000x128 (![] : Fin 0 → Fin S50000x128.rank)
  shapeCasts_S128_S1x128 : S128.ShapeCasts S1x128
  shapeCasts_S2000x128_S2000x128 : S2000x128.ShapeCasts S2000x128
  reduces_S2000x128_S2000 : S2000x128.Reduces [1] S2000
  shapeCasts_S2000_S2000x1 : S2000.ShapeCasts S2000x1
  broadcasts_S2000x1_S2000x128 : S2000x1.Broadcasts S2000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  dot_S2000x128_S128x128_S2000x128_1_0_0_1_n_n_wf : DotDims.WF S2000x128 S128x128 S2000x128 [1] [0] [0] [1] [] []
  gather_S50000x128_S800000x1_S800000x128_1_0_n_n_0_1_1128_wf : GatherDims.WF S50000x128 S800000x1 S800000x128 [1] [0] [] [0] [] 1 ![1, 128]
  dot_S4000x128_S128x4_S4000x4_1_0_0_1_n_n_wf : DotDims.WF S4000x128 S128x4 S4000x4 [1] [0] [0] [1] [] []
  scatter_S50000x4_S800000x1_S800000x4_1_0_0_1_wf : ScatterDims.WF S50000x4 S800000x1 S800000x4 [1] [0] [0] 1
  gather_S50000x4_S800000x1_S800000x4_1_0_n_n_0_1_14_wf : GatherDims.WF S50000x4 S800000x1 S800000x4 [1] [0] [] [0] [] 1 ![1, 4]
  dot_S4000x4_S4x128_S4000x128_1_0_0_1_n_n_wf : DotDims.WF S4000x4 S4x128 S4000x128 [1] [0] [0] [1] [] []
  scatter_S50000x128_S800000x1_S800000x128_1_0_0_1_wf : ScatterDims.WF S50000x128 S800000x1 S800000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x128.size a ≤ S50000x128.size a
  hwx0_3 : ∀ i : grid0.Coords, EltTy.bits .f32 = 32 ∨ (Rect.block (s := S50000x128) S2000x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2000x128.size a ≤ S50000x128.size a
  hwx0_4 : ∀ i : grid0.Coords, EltTy.bits .f32 = 32 ∨ (Rect.block (s := S50000x128) S2000x128.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x128.size a ≤ S800000x128.size a
  hwx1_0 : ∀ i : grid1.Coords, EltTy.bits .f32 = 32 ∨ (Rect.block (s := S800000x128) S4000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4000x128.size a ≤ S800000x128.size a
  hwx1_1 : ∀ i : grid1.Coords, EltTy.bits .f32 = 32 ∨ (Rect.block (s := S800000x128) S4000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x4.size a ≤ S128x4.size a
  hwx1_2 : ∀ i : grid1.Coords, EltTy.bits .f32 = 32 ∨ (Rect.block (s := S128x4) S128x4.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S4000x4.size a ≤ S800000x4.size a
  hwx1_3 : ∀ i : grid1.Coords, EltTy.bits .f32 = 32 ∨ (Rect.block (s := S800000x4) S4000x4.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S4000x128.size a ≤ S800000x128.size a
  hwx2_0 : ∀ i : grid2.Coords, EltTy.bits .f32 = 32 ∨ (Rect.block (s := S800000x128) S4000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S4000x4.size a ≤ S800000x4.size a
  hwx2_1 : ∀ i : grid2.Coords, EltTy.bits .f32 = 32 ∨ (Rect.block (s := S800000x4) S4000x4.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S4000x4.size a ≤ S800000x4.size a
  hwx2_2 : ∀ i : grid2.Coords, EltTy.bits .f32 = 32 ∨ (Rect.block (s := S800000x4) S4000x4.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S4x128.size a ≤ S4x128.size a
  hwx2_3 : ∀ i : grid2.Coords, EltTy.bits .f32 = 32 ∨ (Rect.block (s := S4x128) S4x128.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S4000x128.size a ≤ S800000x128.size a
  hwx2_4 : ∀ i : grid2.Coords, EltTy.bits .f32 = 32 ∨ (Rect.block (s := S800000x128) S4000x128.size (cc2_transform_4 i) (hinb2_4 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x128.size a ≤ S50000x128.size a
  hwx3_0 : ∀ i : grid3.Coords, EltTy.bits .f32 = 32 ∨ (Rect.block (s := S50000x128) S2000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S2000x128.size a ≤ S50000x128.size a
  hwx3_1 : ∀ i : grid3.Coords, EltTy.bits .f32 = 32 ∨ (Rect.block (s := S50000x128) S2000x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x128.size a ≤ S1x128.size a
  hwx3_2 : ∀ i : grid3.Coords, EltTy.bits .f32 = 32 ∨ (Rect.block (s := S1x128) S1x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x128.size a ≤ S1x128.size a
  hwx3_3 : ∀ i : grid3.Coords, EltTy.bits .f32 = 32 ∨ (Rect.block (s := S1x128) S1x128.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S2000x128.size a ≤ S50000x128.size a
  hwx3_4 : ∀ i : grid3.Coords, EltTy.bits .f32 = 32 ∨ (Rect.block (s := S50000x128) S2000x128.size (cc3_transform_4 i) (hinb3_4 i)).WholeWords (EltTy.packing .f32)

variable [Facts₀]

def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def dot_S4000x128_S128x4_S4000x4_1_0_0_1_n_n : DotDims S4000x128 S128x4 S4000x4 where
  lhsContracting := [1]
  rhsContracting := [0]
  lhsNonContracting := [0]
  rhsNonContracting := [1]
  lhsBatch := []
  rhsBatch := []
  wf := dot_S4000x128_S128x4_S4000x4_1_0_0_1_n_n_wf
def scatter_S50000x4_S800000x1_S800000x4_1_0_0_1 : ScatterDims S50000x4 S800000x1 S800000x4 where
  updateWindowDims := [1]
  insertedWindowDims := [0]
  scatterDimsToOperandDims := [0]
  indexVectorDim := 1
  wf := scatter_S50000x4_S800000x1_S800000x4_1_0_0_1_wf
def gather_S50000x4_S800000x1_S800000x4_1_0_n_n_0_1_14 : GatherDims S50000x4 S800000x1 S800000x4 where
  offsetDims := [1]
  collapsedSliceDims := [0]
  operandBatchingDims := []
  startIndicesBatchingDims := []
  startIndexMap := [0]
  indexVectorDim := 1
  sliceSizes := ![1, 4]
  wf := gather_S50000x4_S800000x1_S800000x4_1_0_n_n_0_1_14_wf
def dot_S4000x4_S4x128_S4000x128_1_0_0_1_n_n : DotDims S4000x4 S4x128 S4000x128 where
  lhsContracting := [1]
  rhsContracting := [0]
  lhsNonContracting := [0]
  rhsNonContracting := [1]
  lhsBatch := []
  rhsBatch := []
  wf := dot_S4000x4_S4x128_S4000x128_1_0_0_1_n_n_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v4_0) S2000x128.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v4_1) S2000x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v11) S4000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v18) S4000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg4) S128x4.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v19) S4000x4.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v11) S4000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v23) S4000x4.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v33) S4000x4.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v42) S4x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v43) S4000x128.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

abbrev win3_0 : Pipeline.Window sig grid3 :=
  Pipeline.Window.ofSpec (Memref.whole main_v46) S2000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v4_1) S2000x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v47) S1x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v48) S1x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v49) S2000x128.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S128x128 : Shape := ⟨2, ![128, 128]⟩
abbrev S128x4 : Shape := ⟨2, ![128, 4]⟩
abbrev S128 : Shape := ⟨1, ![128]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S800000x4 : Shape := ⟨2, ![800000, 4]⟩
abbrev S50000x4 : Shape := ⟨2, ![50000, 4]⟩
abbrev S800000x4x32 : Shape := ⟨3, ![800000, 4, 32]⟩
abbrev S800000x4x1 : Shape := ⟨3, ![800000, 4, 1]⟩
abbrev S50000x4x32 : Shape := ⟨3, ![50000, 4, 32]⟩
abbrev S50000 : Shape := ⟨1, ![50000]⟩
abbrev S50000x1 : Shape := ⟨2, ![50000, 1]⟩
abbrev S1x128 : Shape := ⟨2, ![1, 128]⟩

abbrev nBuf : Space → Nat
  | .hbm => 117
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x128, .f32⟩
  | .hbm, ⟨3, _⟩ => ⟨S128x128, .f32⟩
  | .hbm, ⟨4, _⟩ => ⟨S128x4, .f32⟩
  | .hbm, ⟨5, _⟩ => ⟨S128, .f32⟩
  | .hbm, ⟨6, _⟩ => ⟨S128, .f32⟩
  | .hbm, ⟨7, _⟩ => ⟨S1x800000, .i32⟩
  | .hbm, ⟨8, _⟩ => ⟨S800000, .i32⟩
  | .hbm, ⟨9, _⟩ => ⟨S1x800000, .i32⟩
  | .hbm, ⟨10, _⟩ => ⟨S800000, .i32⟩
  | .hbm, ⟨11, _⟩ => ⟨S50000x128, .f32⟩
  | .hbm, ⟨12, _⟩ => ⟨S50000x128, .f32⟩
  | .hbm, ⟨13, _⟩ => ⟨S_, .i32⟩
  | .hbm, ⟨14, _⟩ => ⟨S800000, .i32⟩
  | .hbm, ⟨15, _⟩ => ⟨S800000, .i1⟩
  | .hbm, ⟨16, _⟩ => ⟨S_, .i32⟩
  | .hbm, ⟨17, _⟩ => ⟨S800000, .i32⟩
  | .hbm, ⟨18, _⟩ => ⟨S800000, .i32⟩
  | .hbm, ⟨19, _⟩ => ⟨S800000, .i32⟩
  | .hbm, ⟨20, _⟩ => ⟨S800000x1, .i32⟩
  | .hbm, ⟨21, _⟩ => ⟨S800000x128, .f32⟩
  | .hbm, ⟨22, _⟩ => ⟨S_, .i32⟩
  | .hbm, ⟨23, _⟩ => ⟨S800000, .i32⟩
  | .hbm, ⟨24, _⟩ => ⟨S800000, .i1⟩
  | .hbm, ⟨25, _⟩ => ⟨S_, .i32⟩
  | .hbm, ⟨26, _⟩ => ⟨S800000, .i32⟩
  | .hbm, ⟨27, _⟩ => ⟨S800000, .i32⟩
  | .hbm, ⟨28, _⟩ => ⟨S800000, .i32⟩
  | .hbm, ⟨29, _⟩ => ⟨S800000x1, .i32⟩
  | .hbm, ⟨30, _⟩ => ⟨S800000x128, .f32⟩
  | .hbm, ⟨31, _⟩ => ⟨S800000x128, .f32⟩
  | .hbm, ⟨32, _⟩ => ⟨S_, .f32⟩
  | .hbm, ⟨33, _⟩ => ⟨S_, .f32⟩
  | .hbm, ⟨34, _⟩ => ⟨S800000x128, .f32⟩
  | .hbm, ⟨35, _⟩ => ⟨S800000x128, .i1⟩
  | .hbm, ⟨36, _⟩ => ⟨S_, .f32⟩
  | .hbm, ⟨37, _⟩ => ⟨S800000x128, .f32⟩
  | .hbm, ⟨38, _⟩ => ⟨S800000x128, .f32⟩
  | .hbm, ⟨39, _⟩ => ⟨S800000x128, .f32⟩
  | .hbm, ⟨40, _⟩ => ⟨S800000x4, .f32⟩
  | .hbm, ⟨41, _⟩ => ⟨S_, .f32⟩
  | .hbm, ⟨42, _⟩ => ⟨S_, .f32⟩
  | .hbm, ⟨43, _⟩ => ⟨S800000x4, .f32⟩
  | .hbm, ⟨44, _⟩ => ⟨S800000x4, .f32⟩
  | .hbm, ⟨45, _⟩ => ⟨S800000x4, .f32⟩
  | .hbm, ⟨46, _⟩ => ⟨S_, .f32⟩
  | .hbm, ⟨47, _⟩ => ⟨S50000x4, .f32⟩
  | .hbm, ⟨48, _⟩ => ⟨S800000x1, .i32⟩
  | .hbm, ⟨49, _⟩ => ⟨S50000x4, .f32⟩
  | .hbm, ⟨50, _⟩ => ⟨S_, .i32⟩
  | .hbm, ⟨51, _⟩ => ⟨S800000, .i32⟩
  | .hbm, ⟨52, _⟩ => ⟨S800000, .i1⟩
  | .hbm, ⟨53, _⟩ => ⟨S_, .i32⟩
  | .hbm, ⟨54, _⟩ => ⟨S800000, .i32⟩
  | .hbm, ⟨55, _⟩ => ⟨S800000, .i32⟩
  | .hbm, ⟨56, _⟩ => ⟨S800000, .i32⟩
  | .hbm, ⟨57, _⟩ => ⟨S800000x1, .i32⟩
  | .hbm, ⟨58, _⟩ => ⟨S800000x4, .f32⟩
  | .hbm, ⟨59, _⟩ => ⟨S_, .f32⟩
  | .hbm, ⟨60, _⟩ => ⟨S800000x4, .f32⟩
  | .hbm, ⟨61, _⟩ => ⟨S800000x4, .f32⟩
  | .hbm, ⟨62, _⟩ => ⟨S800000x4, .f32⟩
  | .hbm, ⟨63, _⟩ => ⟨S800000x4x32, .f32⟩
  | .hbm, ⟨64, _⟩ => ⟨S800000x4x1, .f32⟩
  | .hbm, ⟨65, _⟩ => ⟨S800000x4x32, .f32⟩
  | .hbm, ⟨66, _⟩ => ⟨S800000x4x32, .f32⟩
  | .hbm, ⟨67, _⟩ => ⟨S_, .f32⟩
  | .hbm, ⟨68, _⟩ => ⟨S50000x4x32, .f32⟩
  | .hbm, ⟨69, _⟩ => ⟨S800000x1, .i32⟩
  | .hbm, ⟨70, _⟩ => ⟨S50000x4x32, .f32⟩
  | .hbm, ⟨71, _⟩ => ⟨S50000x128, .f32⟩
  | .hbm, ⟨72, _⟩ => ⟨S50000x128, .f32⟩
  | .hbm, ⟨73, _⟩ => ⟨S_, .f32⟩
  | .hbm, ⟨74, _⟩ => ⟨S50000, .f32⟩
  | .hbm, ⟨75, _⟩ => ⟨S50000x1, .f32⟩
  | .hbm, ⟨76, _⟩ => ⟨S_, .f32⟩
  | .hbm, ⟨77, _⟩ => ⟨S50000x1, .f32⟩
  | .hbm, ⟨78, _⟩ => ⟨S50000x1, .f32⟩
  | .hbm, ⟨79, _⟩ => ⟨S_, .i32⟩
  | .hbm, ⟨80, _⟩ => ⟨S_, .f32⟩
  | .hbm, ⟨81, _⟩ => ⟨S50000, .f32⟩
  | .hbm, ⟨82, _⟩ => ⟨S50000x1, .f32⟩
  | .hbm, ⟨83, _⟩ => ⟨S_, .f32⟩
  | .hbm, ⟨84, _⟩ => ⟨S50000x1, .f32⟩
  | .hbm, ⟨85, _⟩ => ⟨S50000x1, .f32⟩
  | .hbm, ⟨86, _⟩ => ⟨S50000x128, .f32⟩
  | .hbm, ⟨87, _⟩ => ⟨S50000x128, .f32⟩
  | .hbm, ⟨88, _⟩ => ⟨S50000x128, .f32⟩
  | .hbm, ⟨89, _⟩ => ⟨S_, .f32⟩
  | .hbm, ⟨90, _⟩ => ⟨S_, .f32⟩
  | .hbm, ⟨91, _⟩ => ⟨S_, .f32⟩
  | .hbm, ⟨92, _⟩ => ⟨S_, .f32⟩
  | .hbm, ⟨93, _⟩ => ⟨S50000, .f32⟩
  | .hbm, ⟨94, _⟩ => ⟨S50000x1, .f32⟩
  | .hbm, ⟨95, _⟩ => ⟨S50000x1, .f32⟩
  | .hbm, ⟨96, _⟩ => ⟨S50000x1, .f32⟩
  | .hbm, ⟨97, _⟩ => ⟨S_, .f32⟩
  | .hbm, ⟨98, _⟩ => ⟨S_, .i1⟩
  | .hbm, ⟨99, _⟩ => ⟨S_, .f32⟩
  | .hbm, ⟨100, _⟩ => ⟨S_, .f32⟩
  | .hbm, ⟨101, _⟩ => ⟨S50000x1, .f32⟩
  | .hbm, ⟨102, _⟩ => ⟨S50000x1, .f32⟩
  | .hbm, ⟨103, _⟩ => ⟨S50000x128, .f32⟩
  | .hbm, ⟨104, _⟩ => ⟨S50000x128, .f32⟩
  | .hbm, ⟨105, _⟩ => ⟨S_, .f32⟩
  | .hbm, ⟨106, _⟩ => ⟨S50000x1, .f32⟩
  | .hbm, ⟨107, _⟩ => ⟨S50000x1, .f32⟩
  | .hbm, ⟨108, _⟩ => ⟨S50000x1, .f32⟩
  | .hbm, ⟨109, _⟩ => ⟨S50000x128, .f32⟩
  | .hbm, ⟨110, _⟩ => ⟨S50000x128, .f32⟩
  | .hbm, ⟨111, _⟩ => ⟨S1x128, .f32⟩
  | .hbm, ⟨112, _⟩ => ⟨S50000x128, .f32⟩
  | .hbm, ⟨113, _⟩ => ⟨S50000x128, .f32⟩
  | .hbm, ⟨114, _⟩ => ⟨S1x128, .f32⟩
  | .hbm, ⟨115, _⟩ => ⟨S50000x128, .f32⟩
  | .hbm, ⟨116, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_c : Ref sig .tc := ⟨.hbm, 13, rfl⟩
abbrev main_v6 : Ref sig .tc := ⟨.hbm, 14, rfl⟩
abbrev main_v7 : Ref sig .tc := ⟨.hbm, 15, rfl⟩
abbrev main_c_0 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_c_1 : Ref sig .tc := ⟨.hbm, 22, rfl⟩
abbrev main_v13 : Ref sig .tc := ⟨.hbm, 23, rfl⟩
abbrev main_v14 : Ref sig .tc := ⟨.hbm, 24, rfl⟩
abbrev main_c_2 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst : Ref sig .tc := ⟨.hbm, 32, rfl⟩
abbrev main_call0_cst : Ref sig .tc := ⟨.hbm, 33, rfl⟩
abbrev main_call0_v0 : Ref sig .tc := ⟨.hbm, 34, rfl⟩
abbrev main_call0_v1 : Ref sig .tc := ⟨.hbm, 35, rfl⟩
abbrev main_call0_v2 : Ref sig .tc := ⟨.hbm, 36, rfl⟩
abbrev main_call0_v3 : Ref sig .tc := ⟨.hbm, 37, rfl⟩
abbrev main_call0_v4 : Ref sig .tc := ⟨.hbm, 38, rfl⟩
abbrev main_v21 : Ref sig .tc := ⟨.hbm, 39, rfl⟩
abbrev main_v22 : Ref sig .tc := ⟨.hbm, 40, rfl⟩
abbrev main_cst_3 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_cst_4 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_c_5 : Ref sig .tc := ⟨.hbm, 50, rfl⟩
abbrev main_v30 : Ref sig .tc := ⟨.hbm, 51, rfl⟩
abbrev main_v31 : Ref sig .tc := ⟨.hbm, 52, rfl⟩
abbrev main_c_6 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_cst_7 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_cst_8 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_cst_9 : Ref sig .tc := ⟨.hbm, 73, rfl⟩
abbrev main_v49 : Ref sig .tc := ⟨.hbm, 74, rfl⟩
abbrev main_v50 : Ref sig .tc := ⟨.hbm, 75, rfl⟩
abbrev main_cst_10 : Ref sig .tc := ⟨.hbm, 76, rfl⟩
abbrev main_v51 : Ref sig .tc := ⟨.hbm, 77, rfl⟩
abbrev main_v52 : Ref sig .tc := ⟨.hbm, 78, rfl⟩
abbrev main_c_11 : Ref sig .tc := ⟨.hbm, 79, rfl⟩
abbrev main_call1_cst : Ref sig .tc := ⟨.hbm, 80, rfl⟩
abbrev main_call1_v0 : Ref sig .tc := ⟨.hbm, 81, rfl⟩
abbrev main_call1_v1 : Ref sig .tc := ⟨.hbm, 82, rfl⟩
abbrev main_call1_cst_0 : Ref sig .tc := ⟨.hbm, 83, rfl⟩
abbrev main_call1_v2 : Ref sig .tc := ⟨.hbm, 84, rfl⟩
abbrev main_call1_v3 : Ref sig .tc := ⟨.hbm, 85, rfl⟩
abbrev main_call1_v4 : Ref sig .tc := ⟨.hbm, 86, rfl⟩
abbrev main_call1_v5 : Ref sig .tc := ⟨.hbm, 87, rfl⟩
abbrev main_call1_v6 : Ref sig .tc := ⟨.hbm, 88, rfl⟩
abbrev main_call1_v7 : Ref sig .tc := ⟨.hbm, 89, rfl⟩
abbrev main_call1_cst_1 : Ref sig .tc := ⟨.hbm, 90, rfl⟩
abbrev main_call1_v8 : Ref sig .tc := ⟨.hbm, 91, rfl⟩
abbrev main_call1_cst_2 : Ref sig .tc := ⟨.hbm, 92, rfl⟩
abbrev main_call1_v9 : Ref sig .tc := ⟨.hbm, 93, rfl⟩
abbrev main_call1_v10 : Ref sig .tc := ⟨.hbm, 94, rfl⟩
abbrev main_call1_v11 : Ref sig .tc := ⟨.hbm, 95, rfl⟩
abbrev main_call1_v12 : Ref sig .tc := ⟨.hbm, 96, rfl⟩
abbrev main_call1_cst_3 : Ref sig .tc := ⟨.hbm, 97, rfl⟩
abbrev main_call1_v13 : Ref sig .tc := ⟨.hbm, 98, rfl⟩
abbrev main_call1_cst_4 : Ref sig .tc := ⟨.hbm, 99, rfl⟩
abbrev main_call1_call0_v0 : Ref sig .tc := ⟨.hbm, 100, rfl⟩
abbrev main_call1_call0_v1 : Ref sig .tc := ⟨.hbm, 101, rfl⟩
abbrev main_v53 : Ref sig .tc := ⟨.hbm, 102, rfl⟩
abbrev main_v54 : Ref sig .tc := ⟨.hbm, 103, rfl⟩
abbrev main_v55 : Ref sig .tc := ⟨.hbm, 104, rfl⟩
abbrev main_cst_12 : Ref sig .tc := ⟨.hbm, 105, rfl⟩
abbrev main_v56 : Ref sig .tc := ⟨.hbm, 106, rfl⟩
abbrev main_v57 : Ref sig .tc := ⟨.hbm, 107, rfl⟩
abbrev main_v58 : Ref sig .tc := ⟨.hbm, 108, rfl⟩
abbrev main_v59 : Ref sig .tc := ⟨.hbm, 109, rfl⟩
abbrev main_v60 : Ref sig .tc := ⟨.hbm, 110, rfl⟩
abbrev main_v61 : Ref sig .tc := ⟨.hbm, 111, rfl⟩
abbrev main_v62 : Ref sig .tc := ⟨.hbm, 112, rfl⟩
abbrev main_v63 : Ref sig .tc := ⟨.hbm, 113, rfl⟩
abbrev main_v64 : Ref sig .tc := ⟨.hbm, 114, rfl⟩
abbrev main_v65 : Ref sig .tc := ⟨.hbm, 115, rfl⟩
abbrev main_v66 : Ref sig .tc := ⟨.hbm, 116, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S800000x128 : S_.BroadcastsInDim S800000x128 (![] : Fin 0 → Fin S800000x128.rank)
  reducesTo_S800000x4_S_d0_1 : S800000x4.ReducesTo [0, 1] S_
  h_S_ : 0 < S_.numel
  bcast_S_S800000x4 : S_.BroadcastsInDim S800000x4 (![] : Fin 0 → Fin S800000x4.rank)
  bcast_S_S50000x4 : S_.BroadcastsInDim S50000x4 (![] : Fin 0 → Fin S50000x4.rank)
  shapeCasts_S800000x128_S800000x4x32 : S800000x128.ShapeCasts S800000x4x32
  bcast_S800000x4_S800000x4x1_0_1 : S800000x4.BroadcastsInDim S800000x4x1 (![0, 1] : Fin 2 → Fin S800000x4x1.rank)
  bcast_S800000x4x1_S800000x4x32_0_1_2 : S800000x4x1.BroadcastsInDim S800000x4x32 (![0, 1, 2] : Fin 3 → Fin S800000x4x32.rank)
  bcast_S_S50000x4x32 : S_.BroadcastsInDim S50000x4x32 (![] : Fin 0 → Fin S50000x4x32.rank)
  shapeCasts_S50000x4x32_S50000x128 : S50000x4x32.ShapeCasts S50000x128
  reducesTo_S50000x128_S50000_d1 : S50000x128.ReducesTo [1] S50000
  bcast_S50000_S50000x1_0 : S50000.BroadcastsInDim S50000x1 (![0] : Fin 1 → Fin S50000x1.rank)
  bcast_S_S50000x1 : S_.BroadcastsInDim S50000x1 (![] : Fin 0 → Fin S50000x1.rank)
  bcast_S50000x1_S50000x128_0_1 : S50000x1.BroadcastsInDim S50000x128 (![0, 1] : Fin 2 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  dot_S50000x128_S128x128_S50000x128_1_0_0_1_n_n_wf : DotDims.WF S50000x128 S128x128 S50000x128 [1] [0] [0] [1] [] []
  gather_S50000x128_S800000x1_S800000x128_1_0_n_n_0_1_1128_wf : GatherDims.WF S50000x128 S800000x1 S800000x128 [1] [0] [] [0] [] 1 ![1, 128]
  dot_S800000x128_S128x4_S800000x4_1_0_0_1_n_n_wf : DotDims.WF S800000x128 S128x4 S800000x4 [1] [0] [0] [1] [] []
  scatter_S50000x4_S800000x1_S800000x4_1_0_0_1_wf : ScatterDims.WF S50000x4 S800000x1 S800000x4 [1] [0] [0] 1
  gather_S50000x4_S800000x1_S800000x4_1_0_n_n_0_1_14_wf : GatherDims.WF S50000x4 S800000x1 S800000x4 [1] [0] [] [0] [] 1 ![1, 4]
  scatter_S50000x4x32_S800000x1_S800000x4x32_12_0_0_1_wf : ScatterDims.WF S50000x4x32 S800000x1 S800000x4x32 [1, 2] [0] [0] 1

variable [Facts₀]

def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def dot_S800000x128_S128x4_S800000x4_1_0_0_1_n_n : DotDims S800000x128 S128x4 S800000x4 where
  lhsContracting := [1]
  rhsContracting := [0]
  lhsNonContracting := [0]
  rhsNonContracting := [1]
  lhsBatch := []
  rhsBatch := []
  wf := dot_S800000x128_S128x4_S800000x4_1_0_0_1_n_n_wf
def scatter_S50000x4_S800000x1_S800000x4_1_0_0_1 : ScatterDims S50000x4 S800000x1 S800000x4 where
  updateWindowDims := [1]
  insertedWindowDims := [0]
  scatterDimsToOperandDims := [0]
  indexVectorDim := 1
  wf := scatter_S50000x4_S800000x1_S800000x4_1_0_0_1_wf
def gather_S50000x4_S800000x1_S800000x4_1_0_n_n_0_1_14 : GatherDims S50000x4 S800000x1 S800000x4 where
  offsetDims := [1]
  collapsedSliceDims := [0]
  operandBatchingDims := []
  startIndicesBatchingDims := []
  startIndexMap := [0]
  indexVectorDim := 1
  sliceSizes := ![1, 4]
  wf := gather_S50000x4_S800000x1_S800000x4_1_0_n_n_0_1_14_wf
def scatter_S50000x4x32_S800000x1_S800000x4x32_12_0_0_1 : ScatterDims S50000x4x32 S800000x1 S800000x4x32 where
  updateWindowDims := [1, 2]
  insertedWindowDims := [0]
  scatterDimsToOperandDims := [0]
  indexVectorDim := 1
  wf := scatter_S50000x4x32_S800000x1_S800000x4x32_12_0_0_1_wf

class Facts : Prop extends Facts₀ where

variable [Facts]
-- ==== Proof.KernelRun.lean ====
/-
  The idealized kernel's run, read at its end.

  The program is four pipelined regions among stretches of host operations. Run as that list of segments
  from any launch memory, every weakly fair execution terminates without a fault, and at the end every
  buffer that is not scoped to a region holds what the fold of the segments leaves there: the host
  stretches apply their operations in order, and each region replaces its arrays by what its write-backs
  leave. The result array and the seven argument arrays are among those buffers, so their final contents
  are read off that fold.
-/
import proofs.«109523_j20693152432941_1_alg».proof.Proof.Gen.KernelIdeal.Frame

set_option maxRecDepth 16384

noncomputable section

namespace Cert.KernelIdeal.HandRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting, and every buffer not scoped to a
    region ends at the contents the fold of the ten segments leaves it. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W10 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m ρ c b)
    (hfin := fun c s' => by
      iintro ⟨⟨Hh, -⟩, HSI⟩
      unfold StableHlo.held
      imodintro
      iapply (pointsTo_read_all (Pipeline.ucRefs τ sig) (fun b => (((c : Thread nD τ)).1, b)) (W10 m ρ c) s')
      isplitl [Hh] <;> iassumption)
    (hQ := fun s h => h)

/-- The run with the result array and the seven argument arrays read: the result at the final fold's contents,
    each argument as launched. -/
theorem run_out : θ_run defs (onTc (τ := τ) (main (F := F))) ⟨m, fun _ => 0, ρ⟩ (fun r => ∀ c : Dev nD,
      r.2.mem ((c.tc : Thread nD τ).loc main_v49) = W10 m ρ c (Proc.devRef .tc main_v49)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c =>
      ⟨h c _ (mem_uc main_v49 (by decide)),
       (h c _ (mem_uc main_arg0 (by decide))).trans (W10_main_arg0 m ρ c),
       (h c _ (mem_uc main_arg1 (by decide))).trans (W10_main_arg1 m ρ c),
       (h c _ (mem_uc main_arg2 (by decide))).trans (W10_main_arg2 m ρ c),
       (h c _ (mem_uc main_arg3 (by decide))).trans (W10_main_arg3 m ρ c),
       (h c _ (mem_uc main_arg4 (by decide))).trans (W10_main_arg4 m ρ c),
       (h c _ (mem_uc main_arg5 (by decide))).trans (W10_main_arg5 m ρ c),
       (h c _ (mem_uc main_arg6 (by decide))).trans (W10_main_arg6 m ρ c)⟩)
    (run_all m ρ)

end Cert.KernelIdeal.HandRun

end
-- ==== Proof.RefRun.lean ====
/- The reference program's run: @main's 110 host operations as one list (the two outlined functions' bodies
   listed at their call sites, over the buffers each call names), the program equal to that straight line, and
   its run read back: every weakly fair execution terminates with the result buffer at the
   fold of the operations over the launch contents and the seven arguments unchanged. -/
import proofs.«109523_j20693152432941_1_alg».proof.Proof.Gen.ReferenceIdeal
import Idealize.ShloMosaic.Lib.StableHlo.Run

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]

/-- @main's 110 operations, in order, the calls unfolded: the leaky rectifier's six and its select after the
    twenty-sixth operation, the variance's twenty and its scalar-predicate select (three) after the seventy-third. -/
abbrev ops : List (HloOp τ sig (Elt F)) :=
  [ StableHlo.unary main_arg1 main_v0 ((extractStridedSlice S1x800000 ![0, 0] · slices_S2x800000_S1x800000_0_0) : (⟨S2x800000, .i32⟩ : BufTy).Contents (Elt F) → (⟨S1x800000, .i32⟩ : BufTy).Contents (Elt F)),
    StableHlo.reshape main_v0 main_v1 rfl shapeCasts_S1x800000_S800000,
    StableHlo.unary main_arg1 main_v2 ((extractStridedSlice S1x800000 ![1, 0] · slices_S2x800000_S1x800000_1_0) : (⟨S2x800000, .i32⟩ : BufTy).Contents (Elt F) → (⟨S1x800000, .i32⟩ : BufTy).Contents (Elt F)),
    StableHlo.reshape main_v2 main_v3 rfl shapeCasts_S1x800000_S800000,
    StableHlo.binary main_arg0 main_arg2 main_v4 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.binary main_arg0 main_arg3 main_v5 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.nullary main_c (constantI S_ 32 0#32),
    StableHlo.unary main_c main_v6 (broadcastInDim S800000 ![] bcast_S_S800000 : (⟨S_, .i32⟩ : BufTy).Contents (Elt F) → (⟨S800000, .i32⟩ : BufTy).Contents (Elt F)),
    StableHlo.binary main_v1 main_v6 main_v7 (cmpi .slt : (⟨S800000, .i32⟩ : BufTy).Contents (Elt F) → (⟨S800000, .i32⟩ : BufTy).Contents (Elt F) → (⟨S800000, .i1⟩ : BufTy).Contents (Elt F)),
    StableHlo.nullary main_c_0 (constantI S_ 32 50000#32),
    StableHlo.unary main_c_0 main_v8 (broadcastInDim S800000 ![] bcast_S_S800000 : (⟨S_, .i32⟩ : BufTy).Contents (Elt F) → (⟨S800000, .i32⟩ : BufTy).Contents (Elt F)),
    StableHlo.binary main_v1 main_v8 main_v9 (addi : (⟨S800000, .i32⟩ : BufTy).Contents (Elt F) → (⟨S800000, .i32⟩ : BufTy).Contents (Elt F) → (⟨S800000, .i32⟩ : BufTy).Contents (Elt F)),
    StableHlo.ternary main_v7 main_v9 main_v1 main_v10 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v10 main_v11 (broadcastInDim S800000x1 ![0] bcast_S800000_S800000x1_0 : (⟨S800000, .i32⟩ : BufTy).Contents (Elt F) → (⟨S800000x1, .i32⟩ : BufTy).Contents (Elt F)),
    StableHlo.binary main_v4 main_v11 main_v12 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    StableHlo.nullary main_c_1 (constantI S_ 32 0#32),
    StableHlo.unary main_c_1 main_v13 (broadcastInDim S800000 ![] bcast_S_S800000 : (⟨S_, .i32⟩ : BufTy).Contents (Elt F) → (⟨S800000, .i32⟩ : BufTy).Contents (Elt F)),
    StableHlo.binary main_v3 main_v13 main_v14 (cmpi .slt : (⟨S800000, .i32⟩ : BufTy).Contents (Elt F) → (⟨S800000, .i32⟩ : BufTy).Contents (Elt F) → (⟨S800000, .i1⟩ : BufTy).Contents (Elt F)),
    StableHlo.nullary main_c_2 (constantI S_ 32 50000#32),
    StableHlo.unary main_c_2 main_v15 (broadcastInDim S800000 ![] bcast_S_S800000 : (⟨S_, .i32⟩ : BufTy).Contents (Elt F) → (⟨S800000, .i32⟩ : BufTy).Contents (Elt F)),
    StableHlo.binary main_v3 main_v15 main_v16 (addi : (⟨S800000, .i32⟩ : BufTy).Contents (Elt F) → (⟨S800000, .i32⟩ : BufTy).Contents (Elt F) → (⟨S800000, .i32⟩ : BufTy).Contents (Elt F)),
    StableHlo.ternary main_v14 main_v16 main_v3 main_v17 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v17 main_v18 (broadcastInDim S800000x1 ![0] bcast_S800000_S800000x1_0 : (⟨S800000, .i32⟩ : BufTy).Contents (Elt F) → (⟨S800000x1, .i32⟩ : BufTy).Contents (Elt F)),
    StableHlo.binary main_v5 main_v18 main_v19 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    StableHlo.binary main_v12 main_v19 main_v20 (addf : (⟨S800000x128, .f32⟩ : BufTy).Contents (Elt F) → (⟨S800000x128, .f32⟩ : BufTy).Contents (Elt F) → (⟨S800000x128, .f32⟩ : BufTy).Contents (Elt F)),
    StableHlo.nullary main_cst (constant S_ .f32 0x3E4CCCCD#32),
    StableHlo.TRef.nullary main_call0.cst (constant S_ .f32 0x00000000#32),
    StableHlo.TRef.unary main_call0.cst main_call0.v0 (broadcastInDim S800000x128 ![] bcast_S_S800000x128),
    StableHlo.TRef.binary (.of main_v20 : StableHlo.TRef sig ⟨S800000x128, .f32⟩) main_call0.v0 main_call0.v1 (cmpf .oge),
    StableHlo.TRef.unary (.of main_cst : StableHlo.TRef sig ⟨S_, .f32⟩) main_call0.v2 id,
    StableHlo.TRef.unary main_call0.v2 main_call0.v3 (broadcastInDim S800000x128 ![] bcast_S_S800000x128),
    StableHlo.TRef.binary main_call0.v3 (.of main_v20 : StableHlo.TRef sig ⟨S800000x128, .f32⟩) main_call0.v4 mulf,
    StableHlo.TRef.ternary main_call0.v1 (.of main_v20 : StableHlo.TRef sig ⟨S800000x128, .f32⟩) main_call0.v4 main_call0.call0.v0 select,
    StableHlo.binary main_v21 main_arg4 main_v22 ((fun l r => Host.dotGeneral dot_S800000x128_S128x4_S800000x4_1_0_0_1_n_n none l r) : (⟨S800000x128, .f32⟩ : BufTy).Contents (Elt F) → (⟨S128x4, .f32⟩ : BufTy).Contents (Elt F) → (⟨S800000x4, .f32⟩ : BufTy).Contents (Elt F)),
    StableHlo.nullary main_cst_3 (constant S_ .f32 0xFF800000#32),
    StableHlo.binary main_v22 main_cst_3 main_v23 ((fun x v => Host.reduce FloatOps.maximumf x v reducesTo_S800000x4_S_d0_1 h_S_) : (⟨S800000x4, .f32⟩ : BufTy).Contents (Elt F) → (⟨S_, .f32⟩ : BufTy).Contents (Elt F) → (⟨S_, .f32⟩ : BufTy).Contents (Elt F)),
    StableHlo.unary main_v23 main_v24 (broadcastInDim S800000x4 ![] bcast_S_S800000x4 : (⟨S_, .f32⟩ : BufTy).Contents (Elt F) → (⟨S800000x4, .f32⟩ : BufTy).Contents (Elt F)),
    StableHlo.binary main_v22 main_v24 main_v25 (subf : (⟨S800000x4, .f32⟩ : BufTy).Contents (Elt F) → (⟨S800000x4, .f32⟩ : BufTy).Contents (Elt F) → (⟨S800000x4, .f32⟩ : BufTy).Contents (Elt F)),
    StableHlo.unary main_v25 main_v26 (Host.exp : (⟨S800000x4, .f32⟩ : BufTy).Contents (Elt F) → (⟨S800000x4, .f32⟩ : BufTy).Contents (Elt F)),
    StableHlo.nullary main_cst_4 (constant S_ .f32 0x00000000#32),
    StableHlo.unary main_cst_4 main_v27 (broadcastInDim S50000x4 ![] bcast_S_S50000x4 : (⟨S_, .f32⟩ : BufTy).Contents (Elt F) → (⟨S50000x4, .f32⟩ : BufTy).Contents (Elt F)),
    StableHlo.unary main_v3 main_v28 (broadcastInDim S800000x1 ![0] bcast_S800000_S800000x1_0 : (⟨S800000, .i32⟩ : BufTy).Contents (Elt F) → (⟨S800000x1, .i32⟩ : BufTy).Contents (Elt F)),
    StableHlo.ternary main_v27 main_v28 main_v26 main_v29 ((fun x i u => Host.scatterAdd scatter_S50000x4_S800000x1_S800000x4_1_0_0_1 x i u) : (⟨S50000x4, .f32⟩ : BufTy).Contents (Elt F) → (⟨S800000x1, .i32⟩ : BufTy).Contents (Elt F) → (⟨S800000x4, .f32⟩ : BufTy).Contents (Elt F) → (⟨S50000x4, .f32⟩ : BufTy).Contents (Elt F)),
    StableHlo.nullary main_c_5 (constantI S_ 32 0#32),
    StableHlo.unary main_c_5 main_v30 (broadcastInDim S800000 ![] bcast_S_S800000 : (⟨S_, .i32⟩ : BufTy).Contents (Elt F) → (⟨S800000, .i32⟩ : BufTy).Contents (Elt F)),
    StableHlo.binary main_v3 main_v30 main_v31 (cmpi .slt : (⟨S800000, .i32⟩ : BufTy).Contents (Elt F) → (⟨S800000, .i32⟩ : BufTy).Contents (Elt F) → (⟨S800000, .i1⟩ : BufTy).Contents (Elt F)),
    StableHlo.nullary main_c_6 (constantI S_ 32 50000#32),
    StableHlo.unary main_c_6 main_v32 (broadcastInDim S800000 ![] bcast_S_S800000 : (⟨S_, .i32⟩ : BufTy).Contents (Elt F) → (⟨S800000, .i32⟩ : BufTy).Contents (Elt F)),
    StableHlo.binary main_v3 main_v32 main_v33 (addi : (⟨S800000, .i32⟩ : BufTy).Contents (Elt F) → (⟨S800000, .i32⟩ : BufTy).Contents (Elt F) → (⟨S800000, .i32⟩ : BufTy).Contents (Elt F)),
    StableHlo.ternary main_v31 main_v33 main_v3 main_v34 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v34 main_v35 (broadcastInDim S800000x1 ![0] bcast_S800000_S800000x1_0 : (⟨S800000, .i32⟩ : BufTy).Contents (Elt F) → (⟨S800000x1, .i32⟩ : BufTy).Contents (Elt F)),
    StableHlo.binary main_v29 main_v35 main_v36 ((fun x i => Host.gather gather_S50000x4_S800000x1_S800000x4_1_0_n_n_0_1_14 x i) : (⟨S50000x4, .f32⟩ : BufTy).Contents (Elt F) → (⟨S800000x1, .i32⟩ : BufTy).Contents (Elt F) → (⟨S800000x4, .f32⟩ : BufTy).Contents (Elt F)),
    StableHlo.nullary main_cst_7 (constant S_ .f32 0x3089705F#32),
    StableHlo.unary main_cst_7 main_v37 (broadcastInDim S800000x4 ![] bcast_S_S800000x4 : (⟨S_, .f32⟩ : BufTy).Contents (Elt F) → (⟨S800000x4, .f32⟩ : BufTy).Contents (Elt F)),
    StableHlo.binary main_v36 main_v37 main_v38 (addf : (⟨S800000x4, .f32⟩ : BufTy).Contents (Elt F) → (⟨S800000x4, .f32⟩ : BufTy).Contents (Elt F) → (⟨S800000x4, .f32⟩ : BufTy).Contents (Elt F)),
    StableHlo.binary main_v26 main_v38 main_v39 (Host.divf : (⟨S800000x4, .f32⟩ : BufTy).Contents (Elt F) → (⟨S800000x4, .f32⟩ : BufTy).Contents (Elt F) → (⟨S800000x4, .f32⟩ : BufTy).Contents (Elt F)),
    StableHlo.reshape main_v12 main_v40 rfl shapeCasts_S800000x128_S800000x4x32,
    StableHlo.unary main_v39 main_v41 (broadcastInDim S800000x4x1 ![0, 1] bcast_S800000x4_S800000x4x1_0_1 : (⟨S800000x4, .f32⟩ : BufTy).Contents (Elt F) → (⟨S800000x4x1, .f32⟩ : BufTy).Contents (Elt F)),
    StableHlo.unary main_v41 main_v42 (broadcastInDim S800000x4x32 ![0, 1, 2] bcast_S800000x4x1_S800000x4x32_0_1_2 : (⟨S800000x4x1, .f32⟩ : BufTy).Contents (Elt F) → (⟨S800000x4x32, .f32⟩ : BufTy).Contents (Elt F)),
    StableHlo.binary main_v40 main_v42 main_v43 (mulf : (⟨S800000x4x32, .f32⟩ : BufTy).Contents (Elt F) → (⟨S800000x4x32, .f32⟩ : BufTy).Contents (Elt F) → (⟨S800000x4x32, .f32⟩ : BufTy).Contents (Elt F)),
    StableHlo.nullary main_cst_8 (constant S_ .f32 0x00000000#32),
    StableHlo.unary main_cst_8 main_v44 (broadcastInDim S50000x4x32 ![] bcast_S_S50000x4x32 : (⟨S_, .f32⟩ : BufTy).Contents (Elt F) → (⟨S50000x4x32, .f32⟩ : BufTy).Contents (Elt F)),
    StableHlo.unary main_v3 main_v45 (broadcastInDim S800000x1 ![0] bcast_S800000_S800000x1_0 : (⟨S800000, .i32⟩ : BufTy).Contents (Elt F) → (⟨S800000x1, .i32⟩ : BufTy).Contents (Elt F)),
    StableHlo.ternary main_v44 main_v45 main_v43 main_v46 ((fun x i u => Host.scatterAdd scatter_S50000x4x32_S800000x1_S800000x4x32_12_0_0_1 x i u) : (⟨S50000x4x32, .f32⟩ : BufTy).Contents (Elt F) → (⟨S800000x1, .i32⟩ : BufTy).Contents (Elt F) → (⟨S800000x4x32, .f32⟩ : BufTy).Contents (Elt F) → (⟨S50000x4x32, .f32⟩ : BufTy).Contents (Elt F)),
    StableHlo.reshape main_v46 main_v47 rfl shapeCasts_S50000x4x32_S50000x128,
    StableHlo.binary main_v47 main_v5 main_v48 (addf : (⟨S50000x128, .f32⟩ : BufTy).Contents (Elt F) → (⟨S50000x128, .f32⟩ : BufTy).Contents (Elt F) → (⟨S50000x128, .f32⟩ : BufTy).Contents (Elt F)),
    StableHlo.nullary main_cst_9 (constant S_ .f32 0x00000000#32),
    StableHlo.binary main_v48 main_cst_9 main_v49 ((fun x v => Host.reduceAdd x v reducesTo_S50000x128_S50000_d1 h_S_) : (⟨S50000x128, .f32⟩ : BufTy).Contents (Elt F) → (⟨S_, .f32⟩ : BufTy).Contents (Elt F) → (⟨S50000, .f32⟩ : BufTy).Contents (Elt F)),
    StableHlo.unary main_v49 main_v50 (broadcastInDim S50000x1 ![0] bcast_S50000_S50000x1_0 : (⟨S50000, .f32⟩ : BufTy).Contents (Elt F) → (⟨S50000x1, .f32⟩ : BufTy).Contents (Elt F)),
    StableHlo.nullary main_cst_10 (constant S_ .f32 0x43000000#32),
    StableHlo.unary main_cst_10 main_v51 (broadcastInDim S50000x1 ![] bcast_S_S50000x1 : (⟨S_, .f32⟩ : BufTy).Contents (Elt F) → (⟨S50000x1, .f32⟩ : BufTy).Contents (Elt F)),
    StableHlo.binary main_v50 main_v51 main_v52 (Host.divf : (⟨S50000x1, .f32⟩ : BufTy).Contents (Elt F) → (⟨S50000x1, .f32⟩ : BufTy).Contents (Elt F) → (⟨S50000x1, .f32⟩ : BufTy).Contents (Elt F)),
    StableHlo.nullary main_c_11 (constantI S_ 32 0#32),
    StableHlo.TRef.nullary main_call1.cst (constant S_ .f32 0x00000000#32),
    StableHlo.TRef.binary (.of main_v48 : StableHlo.TRef sig ⟨S50000x128, .f32⟩) main_call1.cst main_call1.v0 (fun x v => Host.reduceAdd x v reducesTo_S50000x128_S50000_d1 h_S_),
    StableHlo.TRef.unary main_call1.v0 main_call1.v1 (broadcastInDim S50000x1 ![0] bcast_S50000_S50000x1_0),
    StableHlo.TRef.nullary main_call1.cst_0 (constant S_ .f32 0x43000000#32),
    StableHlo.TRef.unary main_call1.cst_0 main_call1.v2 (broadcastInDim S50000x1 ![] bcast_S_S50000x1),
    StableHlo.TRef.binary main_call1.v1 main_call1.v2 main_call1.v3 Host.divf,
    StableHlo.TRef.unary main_call1.v3 main_call1.v4 (broadcastInDim S50000x128 ![0, 1] bcast_S50000x1_S50000x128_0_1),
    StableHlo.TRef.binary (.of main_v48 : StableHlo.TRef sig ⟨S50000x128, .f32⟩) main_call1.v4 main_call1.v5 subf,
    StableHlo.TRef.binary main_call1.v5 main_call1.v5 main_call1.v6 mulf,
    StableHlo.TRef.unary (.of main_c_11 : StableHlo.TRef sig ⟨S_, .i32⟩) main_call1.v7 (sitofp .f32),
    StableHlo.TRef.nullary main_call1.cst_1 (constant S_ .f32 0x43000000#32),
    StableHlo.TRef.binary main_call1.cst_1 main_call1.v7 main_call1.v8 subf,
    StableHlo.TRef.nullary main_call1.cst_2 (constant S_ .f32 0x00000000#32),
    StableHlo.TRef.binary main_call1.v6 main_call1.cst_2 main_call1.v9 (fun x v => Host.reduceAdd x v reducesTo_S50000x128_S50000_d1 h_S_),
    StableHlo.TRef.unary main_call1.v9 main_call1.v10 (broadcastInDim S50000x1 ![0] bcast_S50000_S50000x1_0),
    StableHlo.TRef.unary main_call1.v8 main_call1.v11 (broadcastInDim S50000x1 ![] bcast_S_S50000x1),
    StableHlo.TRef.binary main_call1.v10 main_call1.v11 main_call1.v12 Host.divf,
    StableHlo.TRef.nullary main_call1.cst_3 (constant S_ .f32 0x00000000#32),
    StableHlo.TRef.binary main_call1.v8 main_call1.cst_3 main_call1.v13 (cmpf .ogt),
    StableHlo.TRef.nullary main_call1.cst_4 (constant S_ .f32 0x7FC00000#32),
    StableHlo.TRef.unary main_call1.cst_4 main_call1.call0.v0 id,
    StableHlo.TRef.unary main_call1.call0.v0 main_call1.call0.v1 (broadcastInDim S50000x1 ![] bcast_S_S50000x1),
    StableHlo.TRef.ternary main_call1.v13 main_call1.v12 main_call1.call0.v1 main_call1.call0.v2 (fun p a b => select (broadcastInDim S50000x1 ![] bcast_S_S50000x1 p) a b),
    StableHlo.unary main_v52 main_v54 (broadcastInDim S50000x128 ![0, 1] bcast_S50000x1_S50000x128_0_1 : (⟨S50000x1, .f32⟩ : BufTy).Contents (Elt F) → (⟨S50000x128, .f32⟩ : BufTy).Contents (Elt F)),
    StableHlo.binary main_v48 main_v54 main_v55 (subf : (⟨S50000x128, .f32⟩ : BufTy).Contents (Elt F) → (⟨S50000x128, .f32⟩ : BufTy).Contents (Elt F) → (⟨S50000x128, .f32⟩ : BufTy).Contents (Elt F)),
    StableHlo.nullary main_cst_12 (constant S_ .f32 0x3727C5AC#32),
    StableHlo.unary main_cst_12 main_v56 (broadcastInDim S50000x1 ![] bcast_S_S50000x1 : (⟨S_, .f32⟩ : BufTy).Contents (Elt F) → (⟨S50000x1, .f32⟩ : BufTy).Contents (Elt F)),
    StableHlo.binary main_v53 main_v56 main_v57 (addf : (⟨S50000x1, .f32⟩ : BufTy).Contents (Elt F) → (⟨S50000x1, .f32⟩ : BufTy).Contents (Elt F) → (⟨S50000x1, .f32⟩ : BufTy).Contents (Elt F)),
    StableHlo.unary main_v57 main_v58 (Host.rsqrt : (⟨S50000x1, .f32⟩ : BufTy).Contents (Elt F) → (⟨S50000x1, .f32⟩ : BufTy).Contents (Elt F)),
    StableHlo.unary main_v58 main_v59 (broadcastInDim S50000x128 ![0, 1] bcast_S50000x1_S50000x128_0_1 : (⟨S50000x1, .f32⟩ : BufTy).Contents (Elt F) → (⟨S50000x128, .f32⟩ : BufTy).Contents (Elt F)),
    StableHlo.binary main_v55 main_v59 main_v60 (mulf : (⟨S50000x128, .f32⟩ : BufTy).Contents (Elt F) → (⟨S50000x128, .f32⟩ : BufTy).Contents (Elt F) → (⟨S50000x128, .f32⟩ : BufTy).Contents (Elt F)),
    StableHlo.unary main_arg5 main_v61 (broadcastInDim S1x128 ![1] bcast_S128_S1x128_1 : (⟨S128, .f32⟩ : BufTy).Contents (Elt F) → (⟨S1x128, .f32⟩ : BufTy).Contents (Elt F)),
    StableHlo.unary main_v61 main_v62 (broadcastInDim S50000x128 ![0, 1] bcast_S1x128_S50000x128_0_1 : (⟨S1x128, .f32⟩ : BufTy).Contents (Elt F) → (⟨S50000x128, .f32⟩ : BufTy).Contents (Elt F)),
    StableHlo.binary main_v60 main_v62 main_v63 (mulf : (⟨S50000x128, .f32⟩ : BufTy).Contents (Elt F) → (⟨S50000x128, .f32⟩ : BufTy).Contents (Elt F) → (⟨S50000x128, .f32⟩ : BufTy).Contents (Elt F)),
    StableHlo.unary main_arg6 main_v64 (broadcastInDim S1x128 ![1] bcast_S128_S1x128_1 : (⟨S128, .f32⟩ : BufTy).Contents (Elt F) → (⟨S1x128, .f32⟩ : BufTy).Contents (Elt F)),
    StableHlo.unary main_v64 main_v65 (broadcastInDim S50000x128 ![0, 1] bcast_S1x128_S50000x128_0_1 : (⟨S1x128, .f32⟩ : BufTy).Contents (Elt F) → (⟨S50000x128, .f32⟩ : BufTy).Contents (Elt F)),
    StableHlo.binary main_v63 main_v65 main_v66 (addf : (⟨S50000x128, .f32⟩ : BufTy).Contents (Elt F) → (⟨S50000x128, .f32⟩ : BufTy).Contents (Elt F) → (⟨S50000x128, .f32⟩ : BufTy).Contents (Elt F)) ]

set_option maxRecDepth 8192 in
set_option maxHeartbeats 4000000 in
/-- @main is that straight line: the two windows and the outlined functions unfolded at their calls, both sides
    are one chain of steps once sequencing is reassociated. -/
theorem main_eq (c : Dev nD) : main (F := F) c = seq ops := by
  simp only [main, main_part0, main_part1, fn_leaky_relu.body, fn_where.body, fn_var.body, fn_where_0.body, seq,
    bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨unary_bufs_sub .., reshape_bufs_sub .., unary_bufs_sub .., reshape_bufs_sub .., binary_bufs_sub .., binary_bufs_sub ..,
    nullary_bufs_sub .., unary_bufs_sub .., binary_bufs_sub .., nullary_bufs_sub .., unary_bufs_sub .., binary_bufs_sub ..,
    ternary_bufs_sub .., unary_bufs_sub .., binary_bufs_sub .., nullary_bufs_sub .., unary_bufs_sub .., binary_bufs_sub ..,
    nullary_bufs_sub .., unary_bufs_sub .., binary_bufs_sub .., ternary_bufs_sub .., unary_bufs_sub .., binary_bufs_sub ..,
    binary_bufs_sub .., nullary_bufs_sub .., nullary_bufs_sub .., unary_bufs_sub .., binary_bufs_sub .., unary_bufs_sub ..,
    unary_bufs_sub .., binary_bufs_sub .., ternary_bufs_sub .., binary_bufs_sub .., nullary_bufs_sub .., binary_bufs_sub ..,
    unary_bufs_sub .., binary_bufs_sub .., unary_bufs_sub .., nullary_bufs_sub .., unary_bufs_sub .., unary_bufs_sub ..,
    ternary_bufs_sub .., nullary_bufs_sub .., unary_bufs_sub .., binary_bufs_sub .., nullary_bufs_sub .., unary_bufs_sub ..,
    binary_bufs_sub .., ternary_bufs_sub .., unary_bufs_sub .., binary_bufs_sub .., nullary_bufs_sub .., unary_bufs_sub ..,
    binary_bufs_sub .., binary_bufs_sub .., reshape_bufs_sub .., unary_bufs_sub .., unary_bufs_sub .., binary_bufs_sub ..,
    nullary_bufs_sub .., unary_bufs_sub .., unary_bufs_sub .., ternary_bufs_sub .., reshape_bufs_sub .., binary_bufs_sub ..,
    nullary_bufs_sub .., binary_bufs_sub .., unary_bufs_sub .., nullary_bufs_sub .., unary_bufs_sub .., binary_bufs_sub ..,
    nullary_bufs_sub .., nullary_bufs_sub .., binary_bufs_sub .., unary_bufs_sub .., nullary_bufs_sub .., unary_bufs_sub ..,
    binary_bufs_sub .., unary_bufs_sub .., binary_bufs_sub .., binary_bufs_sub .., unary_bufs_sub .., nullary_bufs_sub ..,
    binary_bufs_sub .., nullary_bufs_sub .., binary_bufs_sub .., unary_bufs_sub .., unary_bufs_sub .., binary_bufs_sub ..,
    nullary_bufs_sub .., binary_bufs_sub .., nullary_bufs_sub .., unary_bufs_sub .., unary_bufs_sub .., ternary_bufs_sub ..,
    unary_bufs_sub .., binary_bufs_sub .., nullary_bufs_sub .., unary_bufs_sub .., binary_bufs_sub .., unary_bufs_sub ..,
    unary_bufs_sub .., binary_bufs_sub .., unary_bufs_sub .., unary_bufs_sub .., binary_bufs_sub .., unary_bufs_sub ..,
    unary_bufs_sub .., binary_bufs_sub ..⟩

set_option maxRecDepth 8192 in
set_option maxHeartbeats 4000000 in
/-- No operation writes argument 0: the fold leaves it as it was. -/
theorem after_ops_arg0 (W : Valuation τ sig (Elt F)) :
    after ops W (Proc.devRef .tc main_arg0) = W (Proc.devRef .tc main_arg0) := by after_results_simp

set_option maxRecDepth 8192 in
set_option maxHeartbeats 4000000 in
/-- No operation writes argument 1: the fold leaves it as it was. -/
theorem after_ops_arg1 (W : Valuation τ sig (Elt F)) :
    after ops W (Proc.devRef .tc main_arg1) = W (Proc.devRef .tc main_arg1) := by after_results_simp

set_option maxRecDepth 8192 in
set_option maxHeartbeats 4000000 in
/-- No operation writes argument 2: the fold leaves it as it was. -/
theorem after_ops_arg2 (W : Valuation τ sig (Elt F)) :
    after ops W (Proc.devRef .tc main_arg2) = W (Proc.devRef .tc main_arg2) := by after_results_simp

set_option maxRecDepth 8192 in
set_option maxHeartbeats 4000000 in
/-- No operation writes argument 3: the fold leaves it as it was. -/
theorem after_ops_arg3 (W : Valuation τ sig (Elt F)) :
    after ops W (Proc.devRef .tc main_arg3) = W (Proc.devRef .tc main_arg3) := by after_results_simp

set_option maxRecDepth 8192 in
set_option maxHeartbeats 4000000 in
/-- No operation writes argument 4: the fold leaves it as it was. -/
theorem after_ops_arg4 (W : Valuation τ sig (Elt F)) :
    after ops W (Proc.devRef .tc main_arg4) = W (Proc.devRef .tc main_arg4) := by after_results_simp

set_option maxRecDepth 8192 in
set_option maxHeartbeats 4000000 in
/-- No operation writes argument 5: the fold leaves it as it was. -/
theorem after_ops_arg5 (W : Valuation τ sig (Elt F)) :
    after ops W (Proc.devRef .tc main_arg5) = W (Proc.devRef .tc main_arg5) := by after_results_simp

set_option maxRecDepth 8192 in
set_option maxHeartbeats 4000000 in
/-- No operation writes argument 6: the fold leaves it as it was. -/
theorem after_ops_arg6 (W : Valuation τ sig (Elt F)) :
    after ops W (Proc.devRef .tc main_arg6) = W (Proc.devRef .tc main_arg6) := by after_results_simp

/-- On every device, for any float values, from any memory with zero counters: every weakly fair execution of
    @main terminates with the result buffer at the fold of the 110 operations over the launch contents (kept
    folded here) and the seven arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v66) = after ops (fun b => m (c, b)) (Proc.devRef .tc main_v66)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c => ⟨h c main_v66,
      (h c main_arg0).trans (after_ops_arg0 _),
      (h c main_arg1).trans (after_ops_arg1 _),
      (h c main_arg2).trans (after_ops_arg2 _),
      (h c main_arg3).trans (after_ops_arg3 _),
      (h c main_arg4).trans (after_ops_arg4 _),
      (h c main_arg5).trans (after_ops_arg5 _),
      (h c main_arg6).trans (after_ops_arg6 _)⟩)
    (run_seq scopedRefs_eq scopedSems_eq defs main (fun _ => ops) main_eq (fun _ => ops_sub) m ρ)

end Cert.ReferenceIdeal.HandRun

end
-- ==== Proof.RefStages.lean ====
/- The reference's stages: one definition per mathematical stage of the attention layer — edge endpoints, the two
   projections, their gathers, the leaky rectifier, the logits, the shifted exponentials, the per-destination sums,
   the attention weights, the messages, their aggregation, the layer normalisation — each a function of its operand
   arrays stated with the program's own operations, and their composition. Definitions only. -/
import proofs.«109523_j20693152432941_1_alg».proof.ReferenceIdeal

noncomputable section

namespace Cert.ReferenceIdeal.Stages

open Cert.ReferenceIdeal Idealize.ShloMosaic Idealize.SL.Sem
open Cert.ReferenceIdeal.Facts₀

variable {F : FTy → Type} [FloatOps F] [Facts₀]

/-- The source row of the edge table, as a vector of 800000 node numbers. -/
def srcIdx (ei : (⟨S2x800000, .i32⟩ : BufTy).Contents (Elt F)) : (⟨S800000, .i32⟩ : BufTy).Contents (Elt F) :=
  shapeCast S800000 (extractStridedSlice S1x800000 ![0, 0] ei slices_S2x800000_S1x800000_0_0) shapeCasts_S1x800000_S800000

/-- The destination row of the edge table, as a vector of 800000 node numbers. -/
def dstIdx (ei : (⟨S2x800000, .i32⟩ : BufTy).Contents (Elt F)) : (⟨S800000, .i32⟩ : BufTy).Contents (Elt F) :=
  shapeCast S800000 (extractStridedSlice S1x800000 ![1, 0] ei slices_S2x800000_S1x800000_1_0) shapeCasts_S1x800000_S800000

/-- A negative node number counts from the end: `i + 50000` where `i < 0`, else `i`. -/
def wrapIdx (i : (⟨S800000, .i32⟩ : BufTy).Contents (Elt F)) : (⟨S800000, .i32⟩ : BufTy).Contents (Elt F) :=
  select (cmpi .slt i (broadcastInDim S800000 ![] bcast_S_S800000 (constantI S_ 32 0#32)))
    (addi i (broadcastInDim S800000 ![] bcast_S_S800000 (constantI S_ 32 50000#32))) i

/-- A vector of node numbers as a one-column index table. -/
def col (i : (⟨S800000, .i32⟩ : BufTy).Contents (Elt F)) : (⟨S800000x1, .i32⟩ : BufTy).Contents (Elt F) :=
  broadcastInDim S800000x1 ![0] bcast_S800000_S800000x1_0 i

/-- The node features through the source weights. -/
def hSrc (x : (⟨S50000x128, .f32⟩ : BufTy).Contents (Elt F)) (ws : (⟨S128x128, .f32⟩ : BufTy).Contents (Elt F)) : (⟨S50000x128, .f32⟩ : BufTy).Contents (Elt F) :=
  Host.dotGeneral dot_S50000x128_S128x128_S50000x128_1_0_0_1_n_n none x ws

/-- The node features through the destination weights. -/
def hDst (x : (⟨S50000x128, .f32⟩ : BufTy).Contents (Elt F)) (wd : (⟨S128x128, .f32⟩ : BufTy).Contents (Elt F)) : (⟨S50000x128, .f32⟩ : BufTy).Contents (Elt F) :=
  Host.dotGeneral dot_S50000x128_S128x128_S50000x128_1_0_0_1_n_n none x wd

/-- Per edge, the source-side features of its source node. -/
def gSrc (hs : (⟨S50000x128, .f32⟩ : BufTy).Contents (Elt F)) (src : (⟨S800000, .i32⟩ : BufTy).Contents (Elt F)) : (⟨S800000x128, .f32⟩ : BufTy).Contents (Elt F) :=
  Host.gather gather_S50000x128_S800000x1_S800000x128_1_0_n_n_0_1_1128 hs (col (wrapIdx src))

/-- Per edge, the destination-side features of its destination node. -/
def gDst (hd : (⟨S50000x128, .f32⟩ : BufTy).Contents (Elt F)) (dst : (⟨S800000, .i32⟩ : BufTy).Contents (Elt F)) : (⟨S800000x128, .f32⟩ : BufTy).Contents (Elt F) :=
  Host.gather gather_S50000x128_S800000x1_S800000x128_1_0_n_n_0_1_1128 hd (col (wrapIdx dst))

/-- The leaky rectifier of slope 0.2 (`0x3E4CCCCD`): `s` where `s ≥ 0`, else `0.2 * s`. -/
def leaky (s : (⟨S800000x128, .f32⟩ : BufTy).Contents (Elt F)) : (⟨S800000x128, .f32⟩ : BufTy).Contents (Elt F) :=
  select (cmpf .oge s (broadcastInDim S800000x128 ![] bcast_S_S800000x128 (constant S_ .f32 0x00000000#32))) s
    (mulf (broadcastInDim S800000x128 ![] bcast_S_S800000x128 (id (constant S_ .f32 0x3E4CCCCD#32))) s)

/-- The four attention logits of each edge. -/
def logits (l : (⟨S800000x128, .f32⟩ : BufTy).Contents (Elt F)) (wa : (⟨S128x4, .f32⟩ : BufTy).Contents (Elt F)) : (⟨S800000x4, .f32⟩ : BufTy).Contents (Elt F) :=
  Host.dotGeneral dot_S800000x128_S128x4_S800000x4_1_0_0_1_n_n none l wa

/-- The exponential of the logits less their maximum over all edges and heads. -/
def aexp (al : (⟨S800000x4, .f32⟩ : BufTy).Contents (Elt F)) : (⟨S800000x4, .f32⟩ : BufTy).Contents (Elt F) :=
  Host.exp (subf al (broadcastInDim S800000x4 ![] bcast_S_S800000x4
    (Host.reduce FloatOps.maximumf al (constant S_ .f32 0xFF800000#32) reducesTo_S800000x4_S_d0_1 h_S_)))

/-- Per edge, the sum of the exponentials over the edges with the same destination node. -/
def denE (ae : (⟨S800000x4, .f32⟩ : BufTy).Contents (Elt F)) (dst : (⟨S800000, .i32⟩ : BufTy).Contents (Elt F)) : (⟨S800000x4, .f32⟩ : BufTy).Contents (Elt F) :=
  Host.gather gather_S50000x4_S800000x1_S800000x4_1_0_n_n_0_1_14
    (Host.scatterAdd scatter_S50000x4_S800000x1_S800000x4_1_0_0_1
      (broadcastInDim S50000x4 ![] bcast_S_S50000x4 (constant S_ .f32 0x00000000#32)) (col dst) ae)
    (col (wrapIdx dst))

/-- The attention weights: each exponential over its destination's sum plus `1e-9` (`0x3089705F`). -/
def anorm (ae de : (⟨S800000x4, .f32⟩ : BufTy).Contents (Elt F)) : (⟨S800000x4, .f32⟩ : BufTy).Contents (Elt F) :=
  Host.divf ae (addf de (broadcastInDim S800000x4 ![] bcast_S_S800000x4 (constant S_ .f32 0x3089705F#32)))

/-- Per edge and head, the 32 source-side features of the head scaled by the head's attention weight. -/
def msg (gs : (⟨S800000x128, .f32⟩ : BufTy).Contents (Elt F)) (an : (⟨S800000x4, .f32⟩ : BufTy).Contents (Elt F)) : (⟨S800000x4x32, .f32⟩ : BufTy).Contents (Elt F) :=
  mulf (shapeCast S800000x4x32 gs shapeCasts_S800000x128_S800000x4x32)
    (broadcastInDim S800000x4x32 ![0, 1, 2] bcast_S800000x4x1_S800000x4x32_0_1_2
      (broadcastInDim S800000x4x1 ![0, 1] bcast_S800000x4_S800000x4x1_0_1 an))

/-- Per node, the sum of the messages of the edges arriving at it, plus its destination-side features. -/
def agg (ms : (⟨S800000x4x32, .f32⟩ : BufTy).Contents (Elt F)) (dst : (⟨S800000, .i32⟩ : BufTy).Contents (Elt F)) (hd : (⟨S50000x128, .f32⟩ : BufTy).Contents (Elt F)) : (⟨S50000x128, .f32⟩ : BufTy).Contents (Elt F) :=
  addf (shapeCast S50000x128
      (Host.scatterAdd scatter_S50000x4x32_S800000x1_S800000x4x32_12_0_0_1
        (broadcastInDim S50000x4x32 ![] bcast_S_S50000x4x32 (constant S_ .f32 0x00000000#32)) (col dst) ms)
      shapeCasts_S50000x4x32_S50000x128) hd

/-- Each row's mean: its sum over 128. -/
def rowMean (s : (⟨S50000x128, .f32⟩ : BufTy).Contents (Elt F)) : (⟨S50000x1, .f32⟩ : BufTy).Contents (Elt F) :=
  Host.divf (broadcastInDim S50000x1 ![0] bcast_S50000_S50000x1_0
      (Host.reduceAdd s (constant S_ .f32 0x00000000#32) reducesTo_S50000x128_S50000_d1 h_S_))
    (broadcastInDim S50000x1 ![] bcast_S_S50000x1 (constant S_ .f32 0x43000000#32))

/-- Each row less its mean. -/
def centered (s : (⟨S50000x128, .f32⟩ : BufTy).Contents (Elt F)) : (⟨S50000x128, .f32⟩ : BufTy).Contents (Elt F) :=
  subf s (broadcastInDim S50000x128 ![0, 1] bcast_S50000x1_S50000x128_0_1 (rowMean s))

/-- The variance's divisor: 128 less the zero degrees of freedom removed. -/
def varDen : (⟨S_, .f32⟩ : BufTy).Contents (Elt F) :=
  subf (constant S_ .f32 0x43000000#32) (sitofp .f32 (constantI S_ 32 0#32))

/-- Each row's variance: the sum of the squared centered entries over the divisor where the divisor is
    positive, else not-a-number. -/
def rowVar (s : (⟨S50000x128, .f32⟩ : BufTy).Contents (Elt F)) : (⟨S50000x1, .f32⟩ : BufTy).Contents (Elt F) :=
  select (broadcastInDim S50000x1 ![] bcast_S_S50000x1 (cmpf .ogt (varDen (F := F)) (constant S_ .f32 0x00000000#32)))
    (Host.divf (broadcastInDim S50000x1 ![0] bcast_S50000_S50000x1_0
        (Host.reduceAdd (mulf (centered s) (centered s)) (constant S_ .f32 0x00000000#32) reducesTo_S50000x128_S50000_d1 h_S_))
      (broadcastInDim S50000x1 ![] bcast_S_S50000x1 (varDen (F := F))))
    (broadcastInDim S50000x1 ![] bcast_S_S50000x1 (id (constant S_ .f32 0x7FC00000#32)))

/-- The layer normalisation of each row, `1e-5` (`0x3727C5AC`) added to the variance, then scale and shift. -/
def lnOut (s : (⟨S50000x128, .f32⟩ : BufTy).Contents (Elt F)) (g b : (⟨S128, .f32⟩ : BufTy).Contents (Elt F)) : (⟨S50000x128, .f32⟩ : BufTy).Contents (Elt F) :=
  addf (mulf (mulf (centered s)
        (broadcastInDim S50000x128 ![0, 1] bcast_S50000x1_S50000x128_0_1
          (Host.rsqrt (addf (rowVar s) (broadcastInDim S50000x1 ![] bcast_S_S50000x1 (constant S_ .f32 0x3727C5AC#32))))))
      (broadcastInDim S50000x128 ![0, 1] bcast_S1x128_S50000x128_0_1 (broadcastInDim S1x128 ![1] bcast_S128_S1x128_1 g)))
    (broadcastInDim S50000x128 ![0, 1] bcast_S1x128_S50000x128_0_1 (broadcastInDim S1x128 ![1] bcast_S128_S1x128_1 b))

/-- Per edge, the sum of its two ends' features. -/
def edgeFeat (x : (⟨S50000x128, .f32⟩ : BufTy).Contents (Elt F)) (ei : (⟨S2x800000, .i32⟩ : BufTy).Contents (Elt F)) (ws wd : (⟨S128x128, .f32⟩ : BufTy).Contents (Elt F)) : (⟨S800000x128, .f32⟩ : BufTy).Contents (Elt F) :=
  addf (gSrc (hSrc x ws) (srcIdx ei)) (gDst (hDst x wd) (dstIdx ei))

/-- Per edge and head, the exponential of its shifted logit. -/
def attn (x : (⟨S50000x128, .f32⟩ : BufTy).Contents (Elt F)) (ei : (⟨S2x800000, .i32⟩ : BufTy).Contents (Elt F)) (ws wd : (⟨S128x128, .f32⟩ : BufTy).Contents (Elt F)) (wa : (⟨S128x4, .f32⟩ : BufTy).Contents (Elt F)) : (⟨S800000x4, .f32⟩ : BufTy).Contents (Elt F) :=
  aexp (logits (leaky (edgeFeat x ei ws wd)) wa)

/-- Per edge and head, the attention weight. -/
def alpha (x : (⟨S50000x128, .f32⟩ : BufTy).Contents (Elt F)) (ei : (⟨S2x800000, .i32⟩ : BufTy).Contents (Elt F)) (ws wd : (⟨S128x128, .f32⟩ : BufTy).Contents (Elt F)) (wa : (⟨S128x4, .f32⟩ : BufTy).Contents (Elt F)) : (⟨S800000x4, .f32⟩ : BufTy).Contents (Elt F) :=
  anorm (attn x ei ws wd wa) (denE (attn x ei ws wd wa) (dstIdx ei))

/-- Per node, the aggregated messages plus the node's own destination-side features. -/
def nodeOut (x : (⟨S50000x128, .f32⟩ : BufTy).Contents (Elt F)) (ei : (⟨S2x800000, .i32⟩ : BufTy).Contents (Elt F)) (ws wd : (⟨S128x128, .f32⟩ : BufTy).Contents (Elt F)) (wa : (⟨S128x4, .f32⟩ : BufTy).Contents (Elt F)) : (⟨S50000x128, .f32⟩ : BufTy).Contents (Elt F) :=
  agg (msg (gSrc (hSrc x ws) (srcIdx ei)) (alpha x ei ws wd wa)) (dstIdx ei) (hDst x wd)

/-- The reference's result as a function of its seven arguments. -/
def refOut (x : (⟨S50000x128, .f32⟩ : BufTy).Contents (Elt F)) (ei : (⟨S2x800000, .i32⟩ : BufTy).Contents (Elt F)) (ws wd : (⟨S128x128, .f32⟩ : BufTy).Contents (Elt F)) (wa : (⟨S128x4, .f32⟩ : BufTy).Contents (Elt F))
    (g b : (⟨S128, .f32⟩ : BufTy).Contents (Elt F)) : (⟨S50000x128, .f32⟩ : BufTy).Contents (Elt F) :=
  lnOut (nodeOut x ei ws wd wa) g b

end Cert.ReferenceIdeal.Stages

end
-- ==== Proof.RefRunOut.lean ====
/- The reference's result read as the composition of its stages: the fold of the 110 operations at the result
   buffer equals `refOut` of the seven arguments, and the run restated with it. -/
import proofs.«109523_j20693152432941_1_alg».proof.Proof.RefRun
import proofs.«109523_j20693152432941_1_alg».proof.Proof.RefStages

noncomputable section

namespace Cert.ReferenceIdeal.HandRun

open Cert.ReferenceIdeal Cert.ReferenceIdeal.Gen Cert.ReferenceIdeal.Stages Idealize.ShloMosaic Idealize.ShloMosaic.TcCoe Idealize.SL.Sem Idealize.ShloMosaic.StableHlo

variable {F : FTy → Type} [FloatOps F]

attribute [local irreducible] Host.reduce Host.reduceAdd Host.gather Host.scatterAdd in
set_option maxRecDepth 65536 in
set_option maxHeartbeats 40000000 in
/-- The fold at the result buffer is the composition of the stages at the seven arguments: each operation's
    result read at its own buffer, every other buffer left as it was; what remains differs from the stages'
    definitions by identity casts only. -/
theorem after_ops_out (W : Valuation τ sig (Elt F)) :
    after ops W (Proc.devRef .tc main_v66)
      = refOut (W (Proc.devRef .tc main_arg0)) (W (Proc.devRef .tc main_arg1)) (W (Proc.devRef .tc main_arg2)) (W (Proc.devRef .tc main_arg3))
          (W (Proc.devRef .tc main_arg4)) (W (Proc.devRef .tc main_arg5)) (W (Proc.devRef .tc main_arg6)) := by
  after_results_simp
  rfl

/-- On every device, for any float values, from any memory with zero counters: every weakly fair execution of
    @main terminates with the result buffer at `refOut` of the seven arguments' launch contents and the seven
    arguments unchanged. -/
theorem run_out (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v66)
        = refOut (m ((c.tc : Thread nD τ).loc main_arg0)) (m ((c.tc : Thread nD τ).loc main_arg1))
            (m ((c.tc : Thread nD τ).loc main_arg2)) (m ((c.tc : Thread nD τ).loc main_arg3))
            (m ((c.tc : Thread nD τ).loc main_arg4)) (m ((c.tc : Thread nD τ).loc main_arg5))
            (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c => ⟨(h c).1.trans (after_ops_out (fun b => m (c, b))), (h c).2⟩) (run m ρ)

end Cert.ReferenceIdeal.HandRun

end
-- ==== Proof.KernelFoldA.lean ====
/-
  The idealized kernel's host stages between its first two regions, read off the fold of its segments.

  Before the first region the host slices the two rows of the edge list into a source and a destination
  index vector. After it the host makes each index non-negative (an index below zero has the node count
  added), turns it into a column of row numbers, and gathers the rows of the two projected feature arrays
  that the edges' endpoints name. Each lemma says which stage a buffer holds at a segment boundary, as a
  function of what the earlier boundary holds; the arrays a region writes stay named as what its
  write-backs leave.
-/
import proofs.«109523_j20693152432941_1_alg».proof.Proof.Gen.KernelIdeal.Frame
import Idealize.ShloMosaic.Lib.StableHlo.Run

set_option maxRecDepth 16384

noncomputable section

namespace Cert.KernelIdeal.Stages

open Cert.KernelIdeal Cert.KernelIdeal.Gen
open Idealize.ShloMosaic Idealize.ShloMosaic.TcCoe Idealize.ShloMosaic.Tactic Idealize.SL.Sem Idealize.ShloMosaic.StableHlo

variable {F : FTy → Type} [FloatOps F]

/-- Row r of the 2 × 800000 edge list as a vector of 800000 node numbers (r = 0: sources). -/
def srcIdx (ei : (⟨S2x800000, .i32⟩ : BufTy).Contents (Elt F)) : (⟨S800000, .i32⟩ : BufTy).Contents (Elt F) :=
  shapeCast S800000 (extractStridedSlice S1x800000 ![0, 0] ei slices_S2x800000_S1x800000_0_0) shapeCasts_S1x800000_S800000

/-- Row 1 of the edge list: destinations. -/
def dstIdx (ei : (⟨S2x800000, .i32⟩ : BufTy).Contents (Elt F)) : (⟨S800000, .i32⟩ : BufTy).Contents (Elt F) :=
  shapeCast S800000 (extractStridedSlice S1x800000 ![1, 0] ei slices_S2x800000_S1x800000_1_0) shapeCasts_S1x800000_S800000

/-- A node number made non-negative: below zero it has the node count 50000 added. -/
def wrapIdx (i : (⟨S800000, .i32⟩ : BufTy).Contents (Elt F)) : (⟨S800000, .i32⟩ : BufTy).Contents (Elt F) :=
  select (cmpi CmpIPredicate.slt i (broadcastInDim S800000 ![] bcast_S_S800000 (constantI S_ 32 0#32)))
    (addi i (broadcastInDim S800000 ![] bcast_S_S800000 (constantI S_ 32 50000#32))) i

/-- The vector of node numbers as a column of row numbers. -/
def col (i : (⟨S800000, .i32⟩ : BufTy).Contents (Elt F)) : (⟨S800000x1, .i32⟩ : BufTy).Contents (Elt F) :=
  broadcastInDim S800000x1 ![0] bcast_S800000_S800000x1_0 i

/-- The rows of a 50000 × 128 feature array named by a vector of node numbers. -/
def rowsOf (h : (⟨S50000x128, .f32⟩ : BufTy).Contents (Elt F)) (i : (⟨S800000, .i32⟩ : BufTy).Contents (Elt F)) :
    (⟨S800000x128, .f32⟩ : BufTy).Contents (Elt F) :=
  Host.gather gather_S50000x128_S800000x1_S800000x128_1_0_n_n_0_1_1128 h (col (wrapIdx i))

variable (m : (ℓ : Loc nD τ sig) → Buf (Elt F) ℓ) (ρ : Dev nD → PrngReg)

/-! ## At the first region's entry -/

theorem W1_v1 (c : Dev nD) : W1 m ρ c (Proc.devRef .tc main_v1) = srcIdx (m ((c : Thread nD τ).loc main_arg1)) := by
  show StableHlo.after hostOps0 (W0 m ρ c) (Proc.devRef .tc main_v1) = _
  after_results
  rfl

theorem W1_v3 (c : Dev nD) : W1 m ρ c (Proc.devRef .tc main_v3) = dstIdx (m ((c : Thread nD τ).loc main_arg1)) := by
  show StableHlo.after hostOps0 (W0 m ρ c) (Proc.devRef .tc main_v3) = _
  after_results
  rfl

theorem W1_arg0 (c : Dev nD) : W1 m ρ c (Proc.devRef .tc main_arg0) = m ((c : Thread nD τ).loc main_arg0) := by
  show StableHlo.after hostOps0 (W0 m ρ c) (Proc.devRef .tc main_arg0) = _
  after_results

theorem W1_arg2 (c : Dev nD) : W1 m ρ c (Proc.devRef .tc main_arg2) = m ((c : Thread nD τ).loc main_arg2) := by
  show StableHlo.after hostOps0 (W0 m ρ c) (Proc.devRef .tc main_arg2) = _
  after_results

theorem W1_arg3 (c : Dev nD) : W1 m ρ c (Proc.devRef .tc main_arg3) = m ((c : Thread nD τ).loc main_arg3) := by
  show StableHlo.after hostOps0 (W0 m ρ c) (Proc.devRef .tc main_arg3) = _
  after_results

/-! ## At the first region's exit: the two projections are what its write-backs leave, the index vectors stay -/

theorem W2_v1 (c : Dev nD) : W2 m ρ c (Proc.devRef .tc main_v1) = srcIdx (m ((c : Thread nD τ).loc main_arg1)) :=
  (W2_of_ne m ρ c main_v1 (by decide)).trans (W1_v1 m ρ c)

theorem W2_v3 (c : Dev nD) : W2 m ρ c (Proc.devRef .tc main_v3) = dstIdx (m ((c : Thread nD τ).loc main_arg1)) :=
  (W2_of_ne m ρ c main_v3 (by decide)).trans (W1_v3 m ρ c)

/-- The first region's two output arrays at its exit are what its write-backs leave. -/
theorem W2_v4_0 (c : Dev nD) : W2 m ρ c (Proc.devRef .tc main_v4_0) = (dat0 (V1 m ρ) c).arrAt 3 cfg0.N := W2_arr m ρ c 3

theorem W2_v4_1 (c : Dev nD) : W2 m ρ c (Proc.devRef .tc main_v4_1) = (dat0 (V1 m ρ) c).arrAt 4 cfg0.N := W2_arr m ρ c 4

/-! ## At the second region's entry: the gathered endpoint rows -/

theorem W3_v11 (c : Dev nD) : W3 m ρ c (Proc.devRef .tc main_v11)
    = rowsOf (W2 m ρ c (Proc.devRef .tc main_v4_0)) (W2 m ρ c (Proc.devRef .tc main_v1)) := by
  show StableHlo.after hostOps1 (W2 m ρ c) (Proc.devRef .tc main_v11) = _
  generalize W2 m ρ c = W
  unfold rowsOf col wrapIdx
  after_results_simp

theorem W3_v18 (c : Dev nD) : W3 m ρ c (Proc.devRef .tc main_v18)
    = rowsOf (W2 m ρ c (Proc.devRef .tc main_v4_1)) (W2 m ρ c (Proc.devRef .tc main_v3)) := by
  show StableHlo.after hostOps1 (W2 m ρ c) (Proc.devRef .tc main_v18) = _
  generalize W2 m ρ c = W
  unfold rowsOf col wrapIdx
  after_results_simp

theorem W3_v3 (c : Dev nD) : W3 m ρ c (Proc.devRef .tc main_v3) = W2 m ρ c (Proc.devRef .tc main_v3) := by
  show StableHlo.after hostOps1 (W2 m ρ c) (Proc.devRef .tc main_v3) = _
  generalize W2 m ρ c = W
  after_results_simp

theorem W3_v4_1 (c : Dev nD) : W3 m ρ c (Proc.devRef .tc main_v4_1) = W2 m ρ c (Proc.devRef .tc main_v4_1) := by
  show StableHlo.after hostOps1 (W2 m ρ c) (Proc.devRef .tc main_v4_1) = _
  generalize W2 m ρ c = W
  after_results_simp

theorem W3_arg4 (c : Dev nD) : W3 m ρ c (Proc.devRef .tc main_arg4) = m ((c : Thread nD τ).loc main_arg4) := by
  have h3 : W3 m ρ c (Proc.devRef .tc main_arg4) = W2 m ρ c (Proc.devRef .tc main_arg4) := by
    show StableHlo.after hostOps1 (W2 m ρ c) (Proc.devRef .tc main_arg4) = _
    generalize W2 m ρ c = W
    after_results_simp
  have h1 : W1 m ρ c (Proc.devRef .tc main_arg4) = m ((c : Thread nD τ).loc main_arg4) := by
    show StableHlo.after hostOps0 (W0 m ρ c) (Proc.devRef .tc main_arg4) = _
    after_results_simp
  exact h3.trans ((W2_of_ne m ρ c main_arg4 (by decide)).trans h1)

end Cert.KernelIdeal.Stages

end
-- ==== Proof.KernelFoldB.lean ====
/-
  The idealized kernel's host stages around its last two regions, read off the fold of its segments.

  After the second region the host takes the largest attention logit over all edges and heads, subtracts
  it and exponentiates; sums the exponentials of the edges that share a destination (a scatter-add into
  a zero array by destination number) and gathers that sum back to every edge. After the third region it
  sums the weighted messages of the edges that share a destination, and lays the scale and the shift
  vectors out as rows. Each lemma says which stage a buffer holds at a segment boundary as a function of
  what an earlier boundary holds; a buffer no segment in between writes keeps its contents.
-/
import proofs.«109523_j20693152432941_1_alg».proof.Proof.KernelFoldA

set_option maxRecDepth 16384

noncomputable section

namespace Cert.KernelIdeal.Stages

open Cert.KernelIdeal Cert.KernelIdeal.Gen
open Idealize.ShloMosaic Idealize.ShloMosaic.TcCoe Idealize.ShloMosaic.Tactic Idealize.SL.Sem Idealize.ShloMosaic.StableHlo

variable {F : FTy → Type} [FloatOps F]

/-- The exponentials of the logits shifted by their overall maximum. -/
def expOf (al : (⟨S800000x4, .f32⟩ : BufTy).Contents (Elt F)) : (⟨S800000x4, .f32⟩ : BufTy).Contents (Elt F) :=
  Host.exp (subf al (broadcastInDim S800000x4 ![] bcast_S_S800000x4
    (Host.reduce FloatOps.maximumf al (constant S_ .f32 0xFF800000#32) reducesTo_S800000x4_S_d0_1 h_S_)))

/-- Per edge and head, the sum of the exponentials over the edges with the same destination: summed into a
    zero 50000 × 4 array by destination number, then gathered back by the (non-negative) destination. -/
def denOf (ae : (⟨S800000x4, .f32⟩ : BufTy).Contents (Elt F)) (dst : (⟨S800000, .i32⟩ : BufTy).Contents (Elt F)) :
    (⟨S800000x4, .f32⟩ : BufTy).Contents (Elt F) :=
  Host.gather gather_S50000x4_S800000x1_S800000x4_1_0_n_n_0_1_14
    (Host.scatterAdd scatter_S50000x4_S800000x1_S800000x4_1_0_0_1
      (broadcastInDim S50000x4 ![] bcast_S_S50000x4 (constant S_ .f32 0x00000000#32)) (col dst) ae)
    (col (wrapIdx dst))

/-- Per node, the sum of the messages of the edges whose destination it is. -/
def aggOf (ms : (⟨S800000x128, .f32⟩ : BufTy).Contents (Elt F)) (dst : (⟨S800000, .i32⟩ : BufTy).Contents (Elt F)) :
    (⟨S50000x128, .f32⟩ : BufTy).Contents (Elt F) :=
  Host.scatterAdd scatter_S50000x128_S800000x1_S800000x128_1_0_0_1
    (broadcastInDim S50000x128 ![] bcast_S_S50000x128 (constant S_ .f32 0x00000000#32)) (col dst) ms

/-- A vector of 128 channels laid out as one row. -/
def rowVec (g : (⟨S128, .f32⟩ : BufTy).Contents (Elt F)) : (⟨S1x128, .f32⟩ : BufTy).Contents (Elt F) :=
  shapeCast S1x128 g shapeCasts_S128_S1x128

variable (m : (ℓ : Loc nD τ sig) → Buf (Elt F) ℓ) (ρ : Dev nD → PrngReg)

/-! ## Across the second region -/

theorem W4_v19 (c : Dev nD) : W4 m ρ c (Proc.devRef .tc main_v19) = (dat1 (V3 m ρ) c).arrAt 3 cfg1.N := W4_arr m ρ c 3

theorem W4_v11 (c : Dev nD) : W4 m ρ c (Proc.devRef .tc main_v11) = W3 m ρ c (Proc.devRef .tc main_v11) :=
  (W4_arr m ρ c 0).trans (((dat1 (V3 m ρ) c).arrAt_in 0 rfl _).trans (A_eq1 (V3 m ρ) c 0))

theorem W4_v3 (c : Dev nD) : W4 m ρ c (Proc.devRef .tc main_v3) = W3 m ρ c (Proc.devRef .tc main_v3) :=
  W4_of_ne m ρ c main_v3 (by decide)

theorem W4_v4_1 (c : Dev nD) : W4 m ρ c (Proc.devRef .tc main_v4_1) = W3 m ρ c (Proc.devRef .tc main_v4_1) :=
  W4_of_ne m ρ c main_v4_1 (by decide)

/-! ## At the third region's entry -/

theorem W7_v23 (c : Dev nD) : W7 m ρ c (Proc.devRef .tc main_v23) = expOf (W4 m ρ c (Proc.devRef .tc main_v19)) := by
  show StableHlo.after hostOps2_2 (StableHlo.after hostOps2_1 (StableHlo.after hostOps2 (W4 m ρ c))) (Proc.devRef .tc main_v23) = _
  generalize W4 m ρ c = W
  unfold expOf
  after_results_simp

theorem W7_v33 (c : Dev nD) : W7 m ρ c (Proc.devRef .tc main_v33)
    = denOf (expOf (W4 m ρ c (Proc.devRef .tc main_v19))) (W4 m ρ c (Proc.devRef .tc main_v3)) := by
  show StableHlo.after hostOps2_2 (StableHlo.after hostOps2_1 (StableHlo.after hostOps2 (W4 m ρ c))) (Proc.devRef .tc main_v33) = _
  generalize W4 m ρ c = W
  unfold denOf expOf col wrapIdx
  after_results_simp

theorem W7_v11 (c : Dev nD) : W7 m ρ c (Proc.devRef .tc main_v11) = W4 m ρ c (Proc.devRef .tc main_v11) := by
  show StableHlo.after hostOps2_2 (StableHlo.after hostOps2_1 (StableHlo.after hostOps2 (W4 m ρ c))) (Proc.devRef .tc main_v11) = _
  generalize W4 m ρ c = W
  after_results_simp

theorem W7_v3 (c : Dev nD) : W7 m ρ c (Proc.devRef .tc main_v3) = W4 m ρ c (Proc.devRef .tc main_v3) := by
  show StableHlo.after hostOps2_2 (StableHlo.after hostOps2_1 (StableHlo.after hostOps2 (W4 m ρ c))) (Proc.devRef .tc main_v3) = _
  generalize W4 m ρ c = W
  after_results_simp

theorem W7_v4_1 (c : Dev nD) : W7 m ρ c (Proc.devRef .tc main_v4_1) = W4 m ρ c (Proc.devRef .tc main_v4_1) := by
  show StableHlo.after hostOps2_2 (StableHlo.after hostOps2_1 (StableHlo.after hostOps2 (W4 m ρ c))) (Proc.devRef .tc main_v4_1) = _
  generalize W4 m ρ c = W
  after_results_simp

/-! ## Across the third region and at the fourth region's entry -/

theorem W8_v43 (c : Dev nD) : W8 m ρ c (Proc.devRef .tc main_v43) = (dat2 (V7 m ρ) c).arrAt 4 cfg2.N := W8_arr m ρ c 4

theorem W8_v3 (c : Dev nD) : W8 m ρ c (Proc.devRef .tc main_v3) = W7 m ρ c (Proc.devRef .tc main_v3) :=
  W8_of_ne m ρ c main_v3 (by decide)

theorem W8_v4_1 (c : Dev nD) : W8 m ρ c (Proc.devRef .tc main_v4_1) = W7 m ρ c (Proc.devRef .tc main_v4_1) :=
  W8_of_ne m ρ c main_v4_1 (by decide)

theorem W9_v46 (c : Dev nD) : W9 m ρ c (Proc.devRef .tc main_v46)
    = aggOf (W8 m ρ c (Proc.devRef .tc main_v43)) (W8 m ρ c (Proc.devRef .tc main_v3)) := by
  show StableHlo.after hostOps3 (W8 m ρ c) (Proc.devRef .tc main_v46) = _
  generalize W8 m ρ c = W
  unfold aggOf col
  after_results_simp

theorem W9_v47 (c : Dev nD) : W9 m ρ c (Proc.devRef .tc main_v47) = rowVec (W8 m ρ c (Proc.devRef .tc main_arg5)) := by
  show StableHlo.after hostOps3 (W8 m ρ c) (Proc.devRef .tc main_v47) = _
  generalize W8 m ρ c = W
  unfold rowVec
  after_results_simp
  rfl

theorem W9_v48 (c : Dev nD) : W9 m ρ c (Proc.devRef .tc main_v48) = rowVec (W8 m ρ c (Proc.devRef .tc main_arg6)) := by
  show StableHlo.after hostOps3 (W8 m ρ c) (Proc.devRef .tc main_v48) = _
  generalize W8 m ρ c = W
  unfold rowVec
  after_results_simp
  rfl

theorem W9_v4_1 (c : Dev nD) : W9 m ρ c (Proc.devRef .tc main_v4_1) = W8 m ρ c (Proc.devRef .tc main_v4_1) := by
  show StableHlo.after hostOps3 (W8 m ρ c) (Proc.devRef .tc main_v4_1) = _
  generalize W8 m ρ c = W
  after_results_simp

theorem W9_arg5 (c : Dev nD) : W9 m ρ c (Proc.devRef .tc main_arg5) = W8 m ρ c (Proc.devRef .tc main_arg5) := by
  show StableHlo.after hostOps3 (W8 m ρ c) (Proc.devRef .tc main_arg5) = _
  generalize W8 m ρ c = W
  after_results_simp

theorem W9_arg6 (c : Dev nD) : W9 m ρ c (Proc.devRef .tc main_arg6) = W8 m ρ c (Proc.devRef .tc main_arg6) := by
  show StableHlo.after hostOps3 (W8 m ρ c) (Proc.devRef .tc main_arg6) = _
  generalize W8 m ρ c = W
  after_results_simp

/-- The scale vector is never written: at the fourth region's entry it is as launched. -/
theorem W8_arg5 (c : Dev nD) : W8 m ρ c (Proc.devRef .tc main_arg5) = m ((c : Thread nD τ).loc main_arg5) :=
  (W9_arg5 m ρ c).symm.trans ((W10_of_ne m ρ c main_arg5 (by decide)).symm.trans (W10_main_arg5 m ρ c))

/-- The shift vector is never written either. -/
theorem W8_arg6 (c : Dev nD) : W8 m ρ c (Proc.devRef .tc main_arg6) = m ((c : Thread nD τ).loc main_arg6) :=
  (W9_arg6 m ρ c).symm.trans ((W10_of_ne m ρ c main_arg6 (by decide)).symm.trans (W10_main_arg6 m ρ c))

/-- The result array at the end is what the fourth region's write-backs leave. -/
theorem W10_v49 (c : Dev nD) : W10 m ρ c (Proc.devRef .tc main_v49) = (dat3 (V9 m ρ) c).arrAt 4 cfg3.N := W10_arr m ρ c 4

end Cert.KernelIdeal.Stages

end
-- ==== Proof.GatSpec.lean ====
/-
  The mathematics of one graph-attention layer, entry by entry, over the extended reals.

  Nodes carry 128 features, there are 50000 nodes and 800000 edges, and attention has 4 heads of 32 channels.
  Every function below gives ONE entry of a stage as a function of the arrays the stage reads, with the
  coordinates explicit: a projection (a row of x against a column of W), the attention logit of an edge
  and a head (a leaky rectifier of the summed endpoint features against a column of the attention
  weights), the normalised attention weight (the exponential over the gathered denominator plus a small
  constant), the weighted message (spread over a head's channels by a 0/1 matrix, or read directly at the
  channel's head), and the layer normalisation of a row (mean, mean squared deviation, reciprocal square
  root, scale and shift). Float literals stay as their bit patterns: the same pattern on both sides of an
  equation is never evaluated.
-/
import Idealize.ShloMosaic.PureOps.Ideal
import Idealize.ShloMosaic.Lib.ValueIdx

noncomputable section

namespace GatSpec

open Idealize.ShloMosaic Idealize.ShloMosaic.ValueIdx

abbrev SNxD : Shape := ⟨2, ![50000, 128]⟩
abbrev SDxD : Shape := ⟨2, ![128, 128]⟩
abbrev SExD : Shape := ⟨2, ![800000, 128]⟩
abbrev SDxH : Shape := ⟨2, ![128, 4]⟩
abbrev SExH : Shape := ⟨2, ![800000, 4]⟩
abbrev SHxD : Shape := ⟨2, ![4, 128]⟩
abbrev S1xD : Shape := ⟨2, ![1, 128]⟩

/-- Entry (a, b) of the product x · W: row a of x against column b of W. -/
def proj (x : SNxD.Idx → EReal) (w : SDxD.Idx → EReal) (a : Fin 50000) (b : Fin 128) : EReal :=
  ∑ k : Fin 128, x (ix2 a k) * w (ix2 k b)

/-- The leaky rectifier with slope 0.2 (the slope as its single-precision pattern): s where s ≥ 0, slope · s elsewhere. -/
def lk (s : EReal) : EReal :=
  Scalar.select (FloatOps.cmpf (F := Ideal) .oge s (Ideal.ofBits .f32 0x00000000#32)) s
    (Ideal.ofBits .f32 0x3E4CCCCD#32 * s)

/-- The attention logit of edge e and head h: the rectified sum of the two gathered endpoint rows against
    column h of the attention weights. -/
def logit (gs gd : SExD.Idx → EReal) (wa : SDxH.Idx → EReal) (e : Fin 800000) (h : Fin 4) : EReal :=
  ∑ k : Fin 128, lk (gs (ix2 e k) + gd (ix2 e k)) * wa (ix2 k h)

/-- The normalised attention weight of edge e and head h: the exponential over the gathered denominator
    plus the constant 1e-9 (as its single-precision pattern). -/
def anorm (ae de : SExH.Idx → EReal) (e : Fin 800000) (h : Fin 4) : EReal :=
  Ideal.div (ae (ix2 e h)) (de (ix2 e h) + Ideal.ofBits .f32 0x3089705F#32)

/-- The weighted message of edge e at channel c, the weights spread over channels by a 4 × 128 matrix ex:
    the gathered source feature times the sum over heads of weight · ex[h, c]. -/
def msgSpread (gs : SExD.Idx → EReal) (ae de : SExH.Idx → EReal) (ex : SHxD.Idx → EReal)
    (e : Fin 800000) (c : Fin 128) : EReal :=
  gs (ix2 e c) * ∑ h : Fin 4, anorm ae de e h * ex (ix2 h c)

/-- The weighted message of edge e at head h and channel d of that head, read directly: the gathered source
    feature at channel 32·h + d times the weight of head h. -/
def msgHead (gs : SExD.Idx → EReal) (ae de : SExH.Idx → EReal)
    (e : Fin 800000) (h : Fin 4) (d : Fin 32) : EReal :=
  gs (ix2 e ⟨32 * h.val + d.val, by omega⟩) * anorm ae de e h

/-- The mean of row a: the sum of its 128 entries over 128 (as its single-precision pattern). -/
def rowMean (s : SNxD.Idx → EReal) (a : Fin 50000) : EReal :=
  Ideal.div (∑ k : Fin 128, s (ix2 a k)) (Ideal.ofBits .f32 0x43000000#32)

/-- The mean squared deviation of row a from its mean. -/
def rowVar (s : SNxD.Idx → EReal) (a : Fin 50000) : EReal :=
  Ideal.div (∑ k : Fin 128, (s (ix2 a k) - rowMean s a) * (s (ix2 a k) - rowMean s a))
    (Ideal.ofBits .f32 0x43000000#32)

/-- Layer normalisation of row a at channel c: the deviation from the row's mean times the reciprocal
    square root of the variance plus 1e-5 (as its single-precision pattern), scaled by g and shifted by b. -/
def lnorm (s : SNxD.Idx → EReal) (g b : S1xD.Idx → EReal) (a : Fin 50000) (c : Fin 128) : EReal :=
  (s (ix2 a c) - rowMean s a) * Ideal.rsqrt (rowVar s a + Ideal.ofBits .f32 0x3727C5AC#32)
    * g (ix2 0 c) + b (ix2 0 c)

end GatSpec

end
-- ==== Proof.Region0.lean ====
/-
  The first region of the layer: the two projections x · W₁ and x · W₂.

  The region walks the 50000 rows of x in 25 blocks of 2000 rows. At block t it multiplies rows
  2000·t … 2000·t + 1999 of x by each of the two 128 × 128 weight matrices (whole at every block) and writes the
  two products to the same rows of the two output arrays. Over the extended reals a change of float format is
  the identity and the product into a zero accumulator is the plain sum over the contracted axis, so every
  entry (a, b) of each output is the sum over k of x[a, k] · W[k, b], whatever the arrays held when the region
  was entered.
-/
import proofs.«109523_j20693152432941_1_alg».proof.Proof.Gen.KernelIdeal.Frame
import proofs.«109523_j20693152432941_1_alg».proof.Proof.GatSpec
import Idealize.ShloMosaic.Lib.ValueIdx
import Idealize.ShloMosaic.Lib.Pipeline.Value
import Idealize.ShloMosaic.PureOps.Ideal.Laws

noncomputable section

open Idealize.ShloMosaic Idealize.ShloMosaic.TcCoe Idealize.SL.Sem
open Idealize.ShloMosaic.Pipeline (Dat)
open Idealize.ShloMosaic.ValueIdx

namespace Cert.KernelIdeal.Region0

open Cert.KernelIdeal Cert.KernelIdeal.Gen

/-- The left operand's index at output (p, q) and contraction position k is (p, k). -/
theorem lhs_at (p : Fin 2000) (q : Fin 128) (k : Fin 128) :
    dot_S2000x128_S128x128_S2000x128_1_0_0_1_n_n.lhsIdx (ix2 p q)
        ((contrEquiv1 dot_S2000x128_S128x128_S2000x128_1_0_0_1_n_n 128 rfl rfl).symm k) = ix2 p k := by
  funext a
  apply Fin.ext
  match a with
  | ⟨0, _⟩ => simp [DotDims.lhsIdx, dot_S2000x128_S128x128_S2000x128_1_0_0_1_n_n]; rfl
  | ⟨1, _⟩ =>
    exact (dot_S2000x128_S128x128_S2000x128_1_0_0_1_n_n.lhsIdx_val_of_single (cl := (1 : Fin 2)) rfl _ _).trans
      (contrEquiv1_symm_val dot_S2000x128_S128x128_S2000x128_1_0_0_1_n_n 128 rfl rfl k)

/-- The right operand's index at output (p, q) and contraction position k is (k, q). -/
theorem rhs_at (p : Fin 2000) (q : Fin 128) (k : Fin 128) :
    dot_S2000x128_S128x128_S2000x128_1_0_0_1_n_n.rhsIdx (ix2 p q)
        ((contrEquiv1 dot_S2000x128_S128x128_S2000x128_1_0_0_1_n_n 128 rfl rfl).symm k) = ix2 k q := by
  funext a
  apply Fin.ext
  match a with
  | ⟨0, _⟩ =>
    exact (dot_S2000x128_S128x128_S2000x128_1_0_0_1_n_n.rhsIdx_val_of_single (cr := (0 : Fin 2)) rfl _ _).trans
      (contrEquiv1_symm_val dot_S2000x128_S128x128_S2000x128_1_0_0_1_n_n 128 rfl rfl k)
  | ⟨1, _⟩ => simp [DotDims.rhsIdx, dot_S2000x128_S128x128_S2000x128_1_0_0_1_n_n]; rfl

/-- One entry of the block product: row p of the block against column q of the weights. -/
theorem pay_entry (x0 : Vec Ideal S2000x128 .f32) (w : Vec Ideal S128x128 .f32) (p : Fin 2000) (q : Fin 128) :
    k0_pay2 x0 w (ix2 p q) = ∑ k : Fin 128, x0 (ix2 p k) * w (ix2 k q) := by
  unfold k0_pay2 k0_pay1
  simp only [matmul]
  rw [Ideal.matmul_constant_zero_apply]
  rw [← Equiv.sum_comp (contrEquiv1 dot_S2000x128_S128x128_S2000x128_1_0_0_1_n_n 128 rfl rfl).symm]
  refine Finset.sum_congr rfl fun k _ => ?_
  rw [lhs_at, rhs_at]
  rfl

/-- The two stored products are the same function of the block and of their own weights. -/
theorem pay3_eq (x0 : Vec Ideal S2000x128 .f32) (w : Vec Ideal S128x128 .f32) : k0_pay3 x0 w = k0_pay2 x0 w := rfl

variable (V : (c : Dev nD) → (b : Ref sig .tc) → Buf (Elt Ideal) ((c : Thread nD τ).loc b))

/-- The zero offset of a whole-buffer access, as a constant function. -/
theorem hz : (![0, 0] : Fin 2 → Nat) = fun _ => 0 := funext fun a => by fin_cases a <;> rfl

/-- The block indices of the five windows at every point of the grid: the row-tiled windows sit at block row t,
    the weight windows at the origin. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0 :=
  (by decide +kernel : ∀ t : Fin grid0.N, _)

/-- The array the region leaves: every entry a row of x against a column of the weights. -/
abbrev projArr (X : GatSpec.SNxD.Idx → EReal) (Wt : GatSpec.SDxD.Idx → EReal) : S50000x128.Idx → EReal :=
  fun i => GatSpec.proj X Wt ⟨(i 0).val, idx2_lt0 i⟩ ⟨(i 1).val, idx2_lt1 i⟩

/-- The row-tiled input's block at point t is rows 2000·t … 2000·t + 1999 of its array. -/
theorem x_block (c : Dev nD) (t : Fin cfg0.N) (p : Fin 2000) (k : Fin 128) (a : Fin 50000) (ha : a.val = t.val * 2000 + p.val) :
    (iblk0 V c 0 t : Vec Ideal S2000x128 .f32) (ix2 p k)
      = (V c (Pipeline.arrRef spec0 0) : S50000x128.Idx → EReal) (ix2 a k) := by
  obtain ⟨e00, e01, -⟩ := idx_facts t
  unfold iblk0
  rw [View.read_apply]
  refine congrArg (V c (Pipeline.arrRef spec0 0) : S50000x128.Idx → EReal) ?_
  funext d
  apply Fin.ext
  match d with
  | ⟨0, _⟩ => show win0_0.index t (0 : Fin 2) * 2000 + 1 * p.val = a.val; omega
  | ⟨1, _⟩ => show win0_0.index t (1 : Fin 2) * 128 + 1 * k.val = k.val; omega

/-- The first weight window's block at any point is its whole array. -/
theorem w1_block (c : Dev nD) (t : Fin cfg0.N) (k q : Fin 128) :
    (iblk0 V c 1 t : Vec Ideal S128x128 .f32) (ix2 k q)
      = (V c (Pipeline.arrRef spec0 1) : S128x128.Idx → EReal) (ix2 k q) := by
  obtain ⟨-, -, e10, e11, -⟩ := idx_facts t
  unfold iblk0
  rw [View.read_apply]
  refine congrArg (V c (Pipeline.arrRef spec0 1) : S128x128.Idx → EReal) ?_
  funext d
  apply Fin.ext
  match d with
  | ⟨0, _⟩ => show win0_1.index t (0 : Fin 2) * 128 + 1 * k.val = k.val; omega
  | ⟨1, _⟩ => show win0_1.index t (1 : Fin 2) * 128 + 1 * q.val = q.val; omega

/-- The second weight window's block at any point is its whole array. -/
theorem w2_block (c : Dev nD) (t : Fin cfg0.N) (k q : Fin 128) :
    (iblk0 V c 2 t : Vec Ideal S128x128 .f32) (ix2 k q)
      = (V c (Pipeline.arrRef spec0 2) : S128x128.Idx → EReal) (ix2 k q) := by
  obtain ⟨-, -, -, -, e20, e21, -⟩ := idx_facts t
  unfold iblk0
  rw [View.read_apply]
  refine congrArg (V c (Pipeline.arrRef spec0 2) : S128x128.Idx → EReal) ?_
  funext d
  apply Fin.ext
  match d with
  | ⟨0, _⟩ => show win0_2.index t (0 : Fin 2) * 128 + 1 * k.val = k.val; omega
  | ⟨1, _⟩ => show win0_2.index t (1 : Fin 2) * 128 + 1 * q.val = q.val; omega

/-- An entry of the block product, when the block is rows r … r + 1999 of an array X and the weights are Wt:
    the entry of X · Wt at the block's row moved down by r. -/
theorem block_entry (x0 : Vec Ideal S2000x128 .f32) (w : Vec Ideal S128x128 .f32)
    (X : GatSpec.SNxD.Idx → EReal) (Wt : GatSpec.SDxD.Idx → EReal) (r : Nat)
    (hx : ∀ (p : Fin 2000) (k : Fin 128) (a : Fin 50000), a.val = r + p.val → x0 (ix2 p k) = X (ix2 a k))
    (hw : ∀ (k q : Fin 128), w (ix2 k q) = Wt (ix2 k q))
    (p : Fin 2000) (q : Fin 128) (a : Fin 50000) (b : Fin 128) (ha : a.val = r + p.val) (hb : b.val = q.val) :
    k0_pay2 x0 w (ix2 p q) = GatSpec.proj X Wt a b := by
  obtain rfl : b = q := Fin.ext hb
  rw [pay_entry]
  unfold GatSpec.proj
  exact Finset.sum_congr rfl fun k _ => by rw [hx p k a ha, hw]

/-- What point t writes back to the first output array: rows 2000·t … 2000·t + 1999 of x · W₁. -/
theorem flushed3_eq (c : Dev nD) (t : Fin cfg0.N) :
    (dat0 (F := Ideal) V c).flushed 3 t
      = ((cfg0.win 3).blk t).view.read (Elt Ideal) (projArr (V c (Pipeline.arrRef spec0 0)) (V c (Pipeline.arrRef spec0 1))) := by
  show (cfg0.win 3).cut (grid0.coords t) ((dat0 (F := Ideal) V c).after 3 t) = _
  rw [after0_3]
  unfold out0_3
  rw [View.canon_unit_zero hz]
  simp only [View.ld_unit_zero (S := S2000x128) hz, View.ld_unit_zero (S := S128x128) hz]
  funext j
  obtain ⟨-, -, -, -, -, -, e30, e31, -⟩ := idx_facts t
  have hj0 : (j 0).val < 2000 := (j 0).isLt
  have hj1 : (j 1).val < 128 := (j 1).isLt
  rw [View.read_apply]
  refine (congrArg (k0_pay2 (iblk0 V c 0 t) (iblk0 V c 1 t)) (eq_ix2 (n0 := 2000) (n1 := 128) _)).trans ?_
  refine block_entry _ _ _ _ (t.val * 2000) (fun p k a ha => x_block V c t p k a ha) (fun k q => w1_block V c t k q) _ _ _ _ ?_ ?_
  · show win0_3.index t (0 : Fin 2) * 2000 + 1 * (j 0).val = t.val * 2000 + (j 0).val
    omega
  · show win0_3.index t (1 : Fin 2) * 128 + 1 * (j 1).val = (j 1).val
    omega

/-- An index of the first output array lies in point t's block iff each coordinate lies in the block's range. -/
theorem mem_blk3 (t : Fin cfg0.N) (i : S50000x128.Idx) :
    i ∈ ((cfg0.win 3).blk t).view.set ↔ ∀ a : Fin 2, win0_3.index t a * S2000x128.size a ≤ (i a).val ∧ (i a).val < win0_3.index t a * S2000x128.size a + S2000x128.size a := by
  show i ∈ ((View.whole main_v4_0).slice (win0_3.rect t)).set ↔ _
  rw [View.set_slice_whole, Rect.mem_set_unit]
  exact Iff.rfl

/-- Every row of the first output array lies in the block of the point numbered by the row over 2000. -/
theorem cover3 (i : S50000x128.Idx) :
    ∃ t : Fin cfg0.N, (cfg0.win 3).flush t = true ∧ i ∈ ((cfg0.win 3).blk t).view.set := by
  have hi0 : (i 0).val < 50000 := (i 0).isLt
  have hi1 : (i 1).val < 128 := (i 1).isLt
  have hN : grid0.N = 25 := N_0
  have hlt : (i 0).val / 2000 < grid0.N := by rw [hN]; omega
  obtain ⟨-, -, -, -, -, -, e30, e31, -⟩ := idx_facts ⟨(i 0).val / 2000, hlt⟩
  have e30' : win0_3.index ⟨(i 0).val / 2000, hlt⟩ (0 : Fin 2) = (i 0).val / 2000 := e30
  refine ⟨⟨(i 0).val / 2000, hlt⟩, flush0_3 _, ?_⟩
  rw [mem_blk3]
  intro a
  match a with
  | ⟨0, _⟩ =>
    show win0_3.index ⟨(i 0).val / 2000, hlt⟩ (0 : Fin 2) * 2000 ≤ (i 0).val ∧ (i 0).val < win0_3.index ⟨(i 0).val / 2000, hlt⟩ (0 : Fin 2) * 2000 + 2000
    omega
  | ⟨1, _⟩ =>
    show win0_3.index ⟨(i 0).val / 2000, hlt⟩ (1 : Fin 2) * 128 ≤ (i 1).val ∧ (i 1).val < win0_3.index ⟨(i 0).val / 2000, hlt⟩ (1 : Fin 2) * 128 + 128
    omega

/-- The first output array after the region: x · W₁, entry by entry. -/
theorem arr3 (c : Dev nD) :
    (dat0 (F := Ideal) V c).arrAt 3 cfg0.N = projArr (V c (Pipeline.arrRef spec0 0)) (V c (Pipeline.arrRef spec0 1)) :=
  (dat0 (F := Ideal) V c).arrAt_eq_of_cover 3 _ (fun t _ => flushed3_eq V c t) cover3

/-- Entry (a, b) of the first output array after the region, whatever the region found in its arrays:
    row a of x against column b of W₁. -/
theorem src_entry (c : Dev nD) (a : Fin 50000) (b : Fin 128) :
    (dat0 (F := Ideal) V c).arrAt 3 cfg0.N (ix2 a b)
      = GatSpec.proj (V c (Pipeline.arrRef spec0 0)) (V c (Pipeline.arrRef spec0 1)) a b :=
  congrFun (arr3 V c) (ix2 a b)

/-- An index of the second output array lies in point t's block iff each coordinate lies in the block's range. -/
theorem mem_blk4 (t : Fin cfg0.N) (i : S50000x128.Idx) :
    i ∈ ((cfg0.win 4).blk t).view.set ↔ ∀ a : Fin 2, win0_4.index t a * S2000x128.size a ≤ (i a).val ∧ (i a).val < win0_4.index t a * S2000x128.size a + S2000x128.size a := by
  show i ∈ ((View.whole main_v4_1).slice (win0_4.rect t)).set ↔ _
  rw [View.set_slice_whole, Rect.mem_set_unit]
  exact Iff.rfl

/-- Every row of the second output array lies in the block of the point numbered by the row over 2000. -/
theorem cover4 (i : S50000x128.Idx) :
    ∃ t : Fin cfg0.N, (cfg0.win 4).flush t = true ∧ i ∈ ((cfg0.win 4).blk t).view.set := by
  have hi0 : (i 0).val < 50000 := (i 0).isLt
  have hi1 : (i 1).val < 128 := (i 1).isLt
  have hN : grid0.N = 25 := N_0
  have hlt : (i 0).val / 2000 < grid0.N := by rw [hN]; omega
  obtain ⟨-, -, -, -, -, -, -, -, e40, e41⟩ := idx_facts ⟨(i 0).val / 2000, hlt⟩
  have e40' : win0_4.index ⟨(i 0).val / 2000, hlt⟩ (0 : Fin 2) = (i 0).val / 2000 := e40
  refine ⟨⟨(i 0).val / 2000, hlt⟩, flush0_4 _, ?_⟩
  rw [mem_blk4]
  intro a
  match a with
  | ⟨0, _⟩ =>
    show win0_4.index ⟨(i 0).val / 2000, hlt⟩ (0 : Fin 2) * 2000 ≤ (i 0).val ∧ (i 0).val < win0_4.index ⟨(i 0).val / 2000, hlt⟩ (0 : Fin 2) * 2000 + 2000
    omega
  | ⟨1, _⟩ =>
    show win0_4.index ⟨(i 0).val / 2000, hlt⟩ (1 : Fin 2) * 128 ≤ (i 1).val ∧ (i 1).val < win0_4.index ⟨(i 0).val / 2000, hlt⟩ (1 : Fin 2) * 128 + 128
    omega

/-- What point t writes back to the second output array: rows 2000·t … 2000·t + 1999 of x · W₂. -/
theorem flushed4_eq (c : Dev nD) (t : Fin cfg0.N) :
    (dat0 (F := Ideal) V c).flushed 4 t
      = ((cfg0.win 4).blk t).view.read (Elt Ideal) (projArr (V c (Pipeline.arrRef spec0 0)) (V c (Pipeline.arrRef spec0 2))) := by
  show (cfg0.win 4).cut (grid0.coords t) ((dat0 (F := Ideal) V c).after 4 t) = _
  rw [after0_4]
  unfold out0_4
  rw [View.canon_unit_zero hz]
  simp only [View.ld_unit_zero (S := S2000x128) hz, View.ld_unit_zero (S := S128x128) hz]
  rw [pay3_eq]
  funext j
  obtain ⟨-, -, -, -, -, -, -, -, e40, e41⟩ := idx_facts t
  have hj0 : (j 0).val < 2000 := (j 0).isLt
  have hj1 : (j 1).val < 128 := (j 1).isLt
  rw [View.read_apply]
  refine (congrArg (k0_pay2 (iblk0 V c 0 t) (iblk0 V c 2 t)) (eq_ix2 (n0 := 2000) (n1 := 128) _)).trans ?_
  refine block_entry _ _ _ _ (t.val * 2000) (fun p k a ha => x_block V c t p k a ha) (fun k q => w2_block V c t k q) _ _ _ _ ?_ ?_
  · show win0_4.index t (0 : Fin 2) * 2000 + 1 * (j 0).val = t.val * 2000 + (j 0).val
    omega
  · show win0_4.index t (1 : Fin 2) * 128 + 1 * (j 1).val = (j 1).val
    omega

/-- The second output array after the region: x · W₂, entry by entry. -/
theorem arr4 (c : Dev nD) :
    (dat0 (F := Ideal) V c).arrAt 4 cfg0.N = projArr (V c (Pipeline.arrRef spec0 0)) (V c (Pipeline.arrRef spec0 2)) :=
  (dat0 (F := Ideal) V c).arrAt_eq_of_cover 4 _ (fun t _ => flushed4_eq V c t) cover4

/-- Entry (a, b) of the second output array after the region, whatever the region found in its arrays:
    row a of x against column b of W₂. -/
theorem dst_entry (c : Dev nD) (a : Fin 50000) (b : Fin 128) :
    (dat0 (F := Ideal) V c).arrAt 4 cfg0.N (ix2 a b)
      = GatSpec.proj (V c (Pipeline.arrRef spec0 0)) (V c (Pipeline.arrRef spec0 2)) a b :=
  congrFun (arr4 V c) (ix2 a b)

end Cert.KernelIdeal.Region0

end
-- ==== Proof.Region1.lean ====
/-
  Region 1 of the idealized kernel: the attention logits.

  For any contents of the arrays when the region is entered, the region's output array afterwards holds, at
  edge e and head h, the sum over the 128 channels of the leaky rectifier of the two gathered endpoint
  features times the attention weight of that channel and head. The steps: the body's stored vector at one
  entry is that sum over the loaded blocks; every block of a row-tiled window is the rows [4000 t, 4000 t + 4000)
  of its array and the weights' block is the whole array; the 200 output blocks tile the 800000 rows.
-/
import proofs.«109523_j20693152432941_1_alg».proof.Proof.Gen.KernelIdeal.Frame
import proofs.«109523_j20693152432941_1_alg».proof.Proof.GatSpec
import Idealize.ShloMosaic.Lib.ValueIdx
import Idealize.ShloMosaic.Lib.Pipeline.Value
import Idealize.ShloMosaic.PureOps.Ideal.Laws

noncomputable section

namespace Cert.KernelIdeal.Region1

open Cert.KernelIdeal Cert.KernelIdeal.Gen Idealize.ShloMosaic Idealize.ShloMosaic.TcCoe Idealize.SL.Sem
open Idealize.ShloMosaic.Pipeline (Dat)
open Idealize.ShloMosaic.ValueIdx

/-! ## The stored vector at one entry -/

/-- Left operand of the product at output entry (p, q) and contraction position k: row p, column k. -/
theorem lhs_row (i : S4000x4.Idx) (k : dot_S4000x128_S128x4_S4000x4_1_0_0_1_n_n.contr.Idx) :
    (dot_S4000x128_S128x4_S4000x4_1_0_0_1_n_n.lhsIdx i k 0).val = (i 0).val := by
  unfold DotDims.lhsIdx
  rw [dif_neg (show ¬(0 : Fin S4000x128.rank) ∈ dot_S4000x128_S128x4_S4000x4_1_0_0_1_n_n.lhsBatch by decide),
    dif_pos (show (0 : Fin S4000x128.rank) ∈ dot_S4000x128_S128x4_S4000x4_1_0_0_1_n_n.lhsNonContracting by decide)]
  rfl

theorem lhs_col (i : S4000x4.Idx) (k : dot_S4000x128_S128x4_S4000x4_1_0_0_1_n_n.contr.Idx) :
    (dot_S4000x128_S128x4_S4000x4_1_0_0_1_n_n.lhsIdx i k 1).val = (k ⟨0, by decide⟩).val :=
  dot_S4000x128_S128x4_S4000x4_1_0_0_1_n_n.lhsIdx_val_of_single rfl i k

/-- Right operand: row k, column q. -/
theorem rhs_row (i : S4000x4.Idx) (k : dot_S4000x128_S128x4_S4000x4_1_0_0_1_n_n.contr.Idx) :
    (dot_S4000x128_S128x4_S4000x4_1_0_0_1_n_n.rhsIdx i k 0).val = (k ⟨0, by decide⟩).val :=
  dot_S4000x128_S128x4_S4000x4_1_0_0_1_n_n.rhsIdx_val_of_single rfl i k

theorem rhs_col (i : S4000x4.Idx) (k : dot_S4000x128_S128x4_S4000x4_1_0_0_1_n_n.contr.Idx) :
    (dot_S4000x128_S128x4_S4000x4_1_0_0_1_n_n.rhsIdx i k 1).val = (i 1).val := by
  unfold DotDims.rhsIdx
  rw [dif_neg (show ¬(1 : Fin S128x4.rank) ∈ dot_S4000x128_S128x4_S4000x4_1_0_0_1_n_n.rhsBatch by decide),
    dif_pos (show (1 : Fin S128x4.rank) ∈ dot_S4000x128_S128x4_S4000x4_1_0_0_1_n_n.rhsNonContracting by decide)]
  rfl

/-- The product into a zero accumulator at entry (p, q) is the plain sum over the 128 contraction positions. -/
theorem matmul_entry (a : FVec Ideal S4000x128 .bf16) (b : FVec Ideal S128x4 .bf16) (p : Fin 4000) (q : Fin 4) :
    FloatOps.matmul dot_S4000x128_S128x4_S4000x4_1_0_0_1_n_n none a b (constant (F := Ideal) S4000x4 .f32 0x00000000#32) (ix2 p q)
      = ∑ k : Fin 128, a (ix2 p k) * b (ix2 k q) := by
  rw [Ideal.matmul_constant_zero_apply,
    ← Equiv.sum_comp (contrEquiv1 dot_S4000x128_S128x4_S4000x4_1_0_0_1_n_n 128 rfl rfl).symm]
  refine Finset.sum_congr rfl fun k _ => ?_
  have hk := contrEquiv1_symm_val dot_S4000x128_S128x4_S4000x4_1_0_0_1_n_n 128 rfl rfl k
  have el : dot_S4000x128_S128x4_S4000x4_1_0_0_1_n_n.lhsIdx (ix2 p q)
      ((contrEquiv1 dot_S4000x128_S128x4_S4000x4_1_0_0_1_n_n 128 rfl rfl).symm k) = ix2 p k := funext fun d => Fin.ext (by
    match d with
    | ⟨0, _⟩ => exact lhs_row _ _
    | ⟨1, _⟩ => exact (lhs_col _ _).trans hk)
  have er : dot_S4000x128_S128x4_S4000x4_1_0_0_1_n_n.rhsIdx (ix2 p q)
      ((contrEquiv1 dot_S4000x128_S128x4_S4000x4_1_0_0_1_n_n 128 rfl rfl).symm k) = ix2 k q := funext fun d => Fin.ext (by
    match d with
    | ⟨0, _⟩ => exact (rhs_row _ _).trans hk
    | ⟨1, _⟩ => exact rhs_col _ _)
  rw [el, er]

/-- The body's stored vector at entry (p, q): the sum over the channels of the rectified sum of the two
    loaded rows times the loaded weight (a change of float format is the identity on the extended reals). -/
theorem pay_entry (x0 x1 : Vec Ideal S4000x128 .f32) (x2 : Vec Ideal S128x4 .f32) (p : Fin 4000) (q : Fin 4) :
    k1_pay1 (F := Ideal) x0 x1 x2 (ix2 p q)
      = ∑ k : Fin 128, GatSpec.lk (x0 (ix2 p k) + x1 (ix2 p k)) * x2 (ix2 k q) := by
  unfold k1_pay1
  rw [shapeCast_self, shapeCast_self]
  show FloatOps.matmul dot_S4000x128_S128x4_S4000x4_1_0_0_1_n_n none _ _ (constant (F := Ideal) S4000x4 .f32 0x00000000#32) (ix2 p q) = _
  rw [matmul_entry]
  rfl

/-! ## The windows' blocks as rows of their arrays -/

section Region
variable (V : (c : Dev nD) → (b : Ref sig .tc) → Buf (Elt Ideal) ((c : Thread nD τ).loc b))

theorem origin_zero : (![0, 0] : Fin 2 → Nat) = fun _ => 0 := funext fun a => by fin_cases a <;> rfl

/-- The windows' block indices at each of the 200 grid points: the three row-tiled windows sit at block row t,
    block column 0; the weights' window stays at block (0, 0). -/
theorem block_indices : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- The gathered source rows' block at point t, entry (p, k), is the array's entry (4000 t + p, k). -/
theorem src_block_entry (c : Dev nD) (t : Fin cfg1.N) (p : Fin 4000) (k : Fin 128) (r : Fin 800000)
    (hr : r.val = 4000 * t.val + p.val) :
    (iblk1 V c 0 t : Vec Ideal S4000x128 .f32) (ix2 p k)
      = (V c (Pipeline.arrRef spec1 0) : S800000x128.Idx → EReal) (ix2 r k) := by
  obtain ⟨e0, e1, -, -, -, -, -, -⟩ := block_indices t
  unfold iblk1
  rw [View.read_apply]
  refine congrArg (V c (Pipeline.arrRef spec1 0) : S800000x128.Idx → EReal) (funext fun a => Fin.ext ?_)
  match a with
  | ⟨0, _⟩ => show win1_0.index t (0 : Fin 2) * 4000 + 1 * p.val = r.val; rw [e0, hr]; omega
  | ⟨1, _⟩ => show win1_0.index t (1 : Fin 2) * 128 + 1 * k.val = k.val; rw [e1]; omega

/-- The gathered destination rows' block likewise. -/
theorem dst_block_entry (c : Dev nD) (t : Fin cfg1.N) (p : Fin 4000) (k : Fin 128) (r : Fin 800000)
    (hr : r.val = 4000 * t.val + p.val) :
    (iblk1 V c 1 t : Vec Ideal S4000x128 .f32) (ix2 p k)
      = (V c (Pipeline.arrRef spec1 1) : S800000x128.Idx → EReal) (ix2 r k) := by
  obtain ⟨-, -, e0, e1, -, -, -, -⟩ := block_indices t
  unfold iblk1
  rw [View.read_apply]
  refine congrArg (V c (Pipeline.arrRef spec1 1) : S800000x128.Idx → EReal) (funext fun a => Fin.ext ?_)
  match a with
  | ⟨0, _⟩ => show win1_1.index t (0 : Fin 2) * 4000 + 1 * p.val = r.val; rw [e0, hr]; omega
  | ⟨1, _⟩ => show win1_1.index t (1 : Fin 2) * 128 + 1 * k.val = k.val; rw [e1]; omega

/-- The attention weights' block at every point is the whole array. -/
theorem wts_block_entry (c : Dev nD) (t : Fin cfg1.N) (k : Fin 128) (q q' : Fin 4) (hq : q'.val = q.val) :
    (iblk1 V c 2 t : Vec Ideal S128x4 .f32) (ix2 k q)
      = (V c (Pipeline.arrRef spec1 2) : S128x4.Idx → EReal) (ix2 k q') := by
  obtain ⟨-, -, -, -, e0, e1, -, -⟩ := block_indices t
  unfold iblk1
  rw [View.read_apply]
  refine congrArg (V c (Pipeline.arrRef spec1 2) : S128x4.Idx → EReal) (funext fun a => Fin.ext ?_)
  match a with
  | ⟨0, _⟩ => show win1_2.index t (0 : Fin 2) * 128 + 1 * k.val = k.val; rw [e0]; omega
  | ⟨1, _⟩ => show win1_2.index t (1 : Fin 2) * 4 + 1 * q.val = q'.val; rw [e1, hq]; omega

/-! ## What a point writes back, and the array after the region -/

/-- The attention logits as one array: entry (e, h). -/
abbrev logits (a0 a1 : S800000x128.Idx → EReal) (a2 : S128x4.Idx → EReal) : S800000x4.Idx → EReal :=
  fun i => GatSpec.logit a0 a1 a2 (i 0) (i 1)

/-- The stored vector at (p, q) is the logit at array entry i = (4000 t + p, q), once the loaded blocks are the
    rows [4000 t, 4000 t + 4000) of the two feature arrays and the whole weight array. -/
theorem stored_entry (x0 x1 : Vec Ideal S4000x128 .f32) (x2 : Vec Ideal S128x4 .f32)
    (a0 a1 : S800000x128.Idx → EReal) (a2 : S128x4.Idx → EReal) (t : Nat) (p : Fin 4000) (q : Fin 4)
    (i : S800000x4.Idx) (hi0 : (i 0).val = 4000 * t + p.val) (hi1 : (i 1).val = q.val)
    (h0 : ∀ (k : Fin 128) (r : Fin 800000), r.val = 4000 * t + p.val → x0 (ix2 p k) = a0 (ix2 r k))
    (h1 : ∀ (k : Fin 128) (r : Fin 800000), r.val = 4000 * t + p.val → x1 (ix2 p k) = a1 (ix2 r k))
    (h2 : ∀ (k : Fin 128) (q' : Fin 4), q'.val = q.val → x2 (ix2 k q) = a2 (ix2 k q')) :
    k1_pay1 (F := Ideal) x0 x1 x2 (ix2 p q) = logits a0 a1 a2 i := by
  rw [pay_entry]
  show _ = ∑ k : Fin 128, GatSpec.lk (a0 (ix2 (i 0) k) + a1 (ix2 (i 0) k)) * a2 (ix2 k (i 1))
  refine Finset.sum_congr rfl fun k _ => ?_
  rw [h0 k (i 0) hi0, h1 k (i 0) hi0, h2 k (i 1) hi1]

/-- What point t writes back to the output array is block t of the logits of the arrays as the region finds them. -/
theorem flushed_eq (c : Dev nD) (t : Fin cfg1.N) :
    (dat1 (F := Ideal) V c).flushed 3 t = ((cfg1.win 3).blk t).view.read (Elt Ideal)
      (logits (V c (Pipeline.arrRef spec1 0)) (V c (Pipeline.arrRef spec1 1)) (V c (Pipeline.arrRef spec1 2))) := by
  show (cfg1.win 3).cut (grid1.coords t) ((dat1 V c).after 3 t) = _
  rw [after1_3]
  unfold out1_3
  rw [View.canon_unit_zero origin_zero]
  simp only [View.ld_unit_zero (S := S4000x128) origin_zero, View.ld_unit_zero (S := S128x4) origin_zero]
  obtain ⟨-, -, -, -, -, -, e0, e1⟩ := block_indices t
  funext j
  obtain ⟨p, q, rfl⟩ : ∃ (p : Fin 4000) (q : Fin 4), j = ix2 p q := ⟨j 0, j 1, eq_ix2 j⟩
  refine stored_entry _ _ _ _ _ _ t.val p q _ ?_ ?_
    (fun k r hr => src_block_entry V c t p k r hr) (fun k r hr => dst_block_entry V c t p k r hr)
    (fun k q' hq => wts_block_entry V c t k q q' hq)
  · show win1_3.index t (0 : Fin 2) * 4000 + 1 * p.val = 4000 * t.val + p.val
    rw [e0]; omega
  · show win1_3.index t (1 : Fin 2) * 4 + 1 * q.val = q.val
    rw [e1]; omega

/-- An index of the output array is in point t's block iff each coordinate is in the block's range on its axis. -/
theorem mem_block (t : Fin cfg1.N) (i : S800000x4.Idx) :
    i ∈ ((cfg1.win 3).blk t).view.set ↔ ∀ a : Fin 2, win1_3.index t a * S4000x4.size a ≤ (i a).val ∧ (i a).val < win1_3.index t a * S4000x4.size a + S4000x4.size a := by
  show i ∈ ((View.whole main_v19).slice (win1_3.rect t)).set ↔ _
  rw [View.set_slice_whole, Rect.mem_set_unit]
  exact Iff.rfl

/-- Row r of the output array is written by point r / 4000: the 200 blocks tile the 800000 rows. -/
theorem covered (i : S800000x4.Idx) :
    ∃ t : Fin cfg1.N, (cfg1.win 3).flush t = true ∧ i ∈ ((cfg1.win 3).blk t).view.set := by
  have hi0 : (i 0).val < 800000 := (i 0).isLt
  have hi1 : (i 1).val < 4 := (i 1).isLt
  have hN : cfg1.N = 200 := by decide
  have ht : (i 0).val / 4000 < cfg1.N := by rw [hN]; omega
  obtain ⟨-, -, -, -, -, -, e0, e1⟩ := block_indices ⟨(i 0).val / 4000, ht⟩
  refine ⟨⟨(i 0).val / 4000, ht⟩, flush1_3 _, ?_⟩
  rw [mem_block]
  intro a
  match a with
  | ⟨0, _⟩ =>
    show win1_3.index ⟨(i 0).val / 4000, ht⟩ (0 : Fin 2) * 4000 ≤ (i 0).val ∧ (i 0).val < win1_3.index ⟨(i 0).val / 4000, ht⟩ (0 : Fin 2) * 4000 + 4000
    rw [e0]; show (i 0).val / 4000 * 4000 ≤ (i 0).val ∧ (i 0).val < (i 0).val / 4000 * 4000 + 4000; omega
  | ⟨1, _⟩ =>
    show win1_3.index ⟨(i 0).val / 4000, ht⟩ (1 : Fin 2) * 4 ≤ (i 1).val ∧ (i 1).val < win1_3.index ⟨(i 0).val / 4000, ht⟩ (1 : Fin 2) * 4 + 4
    rw [e1]; omega

/-- The output array after the region is the logits of the input arrays as the region finds them. -/
theorem logit_array (c : Dev nD) :
    (dat1 (F := Ideal) V c).arrAt 3 cfg1.N
      = logits (V c (Pipeline.arrRef spec1 0)) (V c (Pipeline.arrRef spec1 1)) (V c (Pipeline.arrRef spec1 2)) :=
  (dat1 (F := Ideal) V c).arrAt_eq_of_cover 3 _ (fun t _ => flushed_eq V c t) covered

/-- Entry (e, h) of the output array after the region: the attention logit of edge e and head h. -/
theorem logit_entry (c : Dev nD) (e : Fin 800000) (h : Fin 4) :
    (dat1 (F := Ideal) V c).arrAt 3 cfg1.N (ix2 e h)
      = GatSpec.logit (V c (Pipeline.arrRef spec1 0)) (V c (Pipeline.arrRef spec1 1)) (V c (Pipeline.arrRef spec1 2)) e h :=
  congrFun (logit_array V c) (ix2 e h)

end Region

end Cert.KernelIdeal.Region1

end
-- ==== Proof.RefEntries.lean ====
/-
  The reference program's stages read at one entry, over the extended reals.

  Each lemma takes the stage's operand arrays as variables and states the stage's array at explicit
  coordinates: a projection is a row against a column; the leaky rectifier acts entry by entry; the attention
  logits are the rectified rows against a column of the attention weights; the layer normalisation of a row
  is its deviation from the row's mean times the reciprocal square root of the row's variance, scaled and shifted.
-/
import proofs.«109523_j20693152432941_1_alg».proof.ReferenceIdeal
import proofs.«109523_j20693152432941_1_alg».proof.Proof.Gen.ReferenceIdeal
import proofs.«109523_j20693152432941_1_alg».proof.Proof.GatSpec
import proofs.«109523_j20693152432941_1_alg».proof.Proof.RefStages
import Idealize.ShloMosaic.Lib.ValueIdx
import Idealize.ShloMosaic.Lib.Pipeline.Value
import Idealize.ShloMosaic.PureOps.Ideal.Laws

noncomputable section

namespace Cert.ReferenceIdeal.Entries

open Cert.ReferenceIdeal Idealize.ShloMosaic Idealize.ShloMosaic.ValueIdx
open Cert.ReferenceIdeal.Facts₀

/-! ## The two products -/

/-- Left operand of the product at output entry (a, b) and contraction position k: row a, column k. -/
theorem projdot_lhs_row (i : S50000x128.Idx) (k : dot_S50000x128_S128x128_S50000x128_1_0_0_1_n_n.contr.Idx) :
    (dot_S50000x128_S128x128_S50000x128_1_0_0_1_n_n.lhsIdx i k 0).val = (i 0).val := by
  unfold DotDims.lhsIdx
  rw [dif_neg (show ¬(0 : Fin S50000x128.rank) ∈ dot_S50000x128_S128x128_S50000x128_1_0_0_1_n_n.lhsBatch by decide),
    dif_pos (show (0 : Fin S50000x128.rank) ∈ dot_S50000x128_S128x128_S50000x128_1_0_0_1_n_n.lhsNonContracting by decide)]
  rfl

theorem projdot_lhs_col (i : S50000x128.Idx) (k : dot_S50000x128_S128x128_S50000x128_1_0_0_1_n_n.contr.Idx) :
    (dot_S50000x128_S128x128_S50000x128_1_0_0_1_n_n.lhsIdx i k 1).val = (k ⟨0, by decide⟩).val :=
  dot_S50000x128_S128x128_S50000x128_1_0_0_1_n_n.lhsIdx_val_of_single rfl i k

/-- Right operand: row k, column b. -/
theorem projdot_rhs_row (i : S50000x128.Idx) (k : dot_S50000x128_S128x128_S50000x128_1_0_0_1_n_n.contr.Idx) :
    (dot_S50000x128_S128x128_S50000x128_1_0_0_1_n_n.rhsIdx i k 0).val = (k ⟨0, by decide⟩).val :=
  dot_S50000x128_S128x128_S50000x128_1_0_0_1_n_n.rhsIdx_val_of_single rfl i k

theorem projdot_rhs_col (i : S50000x128.Idx) (k : dot_S50000x128_S128x128_S50000x128_1_0_0_1_n_n.contr.Idx) :
    (dot_S50000x128_S128x128_S50000x128_1_0_0_1_n_n.rhsIdx i k 1).val = (i 1).val := by
  unfold DotDims.rhsIdx
  rw [dif_neg (show ¬(1 : Fin S128x128.rank) ∈ dot_S50000x128_S128x128_S50000x128_1_0_0_1_n_n.rhsBatch by decide),
    dif_pos (show (1 : Fin S128x128.rank) ∈ dot_S50000x128_S128x128_S50000x128_1_0_0_1_n_n.rhsNonContracting by decide)]
  rfl

/-- The product at entry (a, b) is the plain sum over the 128 contraction positions. -/
theorem projdot_entry (x : FVec Ideal S50000x128 .f32) (w : FVec Ideal S128x128 .f32) (a : Fin 50000) (b : Fin 128) :
    Host.dotGeneral dot_S50000x128_S128x128_S50000x128_1_0_0_1_n_n none x w (ix2 a b) = ∑ k : Fin 128, x (ix2 a k) * w (ix2 k b) := by
  simp only [Host.dotGeneral]
  rw [Ideal.dotGeneral_apply, ← Equiv.sum_comp (contrEquiv1 dot_S50000x128_S128x128_S50000x128_1_0_0_1_n_n 128 rfl rfl).symm]
  refine Finset.sum_congr rfl fun k _ => ?_
  have hk := contrEquiv1_symm_val dot_S50000x128_S128x128_S50000x128_1_0_0_1_n_n 128 rfl rfl k
  have el : dot_S50000x128_S128x128_S50000x128_1_0_0_1_n_n.lhsIdx (ix2 a b) ((contrEquiv1 dot_S50000x128_S128x128_S50000x128_1_0_0_1_n_n 128 rfl rfl).symm k) = ix2 a k := funext fun d => Fin.ext (by
    match d with
    | ⟨0, _⟩ => exact projdot_lhs_row _ _
    | ⟨1, _⟩ => exact (projdot_lhs_col _ _).trans hk)
  have er : dot_S50000x128_S128x128_S50000x128_1_0_0_1_n_n.rhsIdx (ix2 a b) ((contrEquiv1 dot_S50000x128_S128x128_S50000x128_1_0_0_1_n_n 128 rfl rfl).symm k) = ix2 k b := funext fun d => Fin.ext (by
    match d with
    | ⟨0, _⟩ => exact (projdot_rhs_row _ _).trans hk
    | ⟨1, _⟩ => exact projdot_rhs_col _ _)
  rw [el, er]

/-- Left operand of the product at output entry (a, b) and contraction position k: row a, column k. -/
theorem logitdot_lhs_row (i : S800000x4.Idx) (k : dot_S800000x128_S128x4_S800000x4_1_0_0_1_n_n.contr.Idx) :
    (dot_S800000x128_S128x4_S800000x4_1_0_0_1_n_n.lhsIdx i k 0).val = (i 0).val := by
  unfold DotDims.lhsIdx
  rw [dif_neg (show ¬(0 : Fin S800000x128.rank) ∈ dot_S800000x128_S128x4_S800000x4_1_0_0_1_n_n.lhsBatch by decide),
    dif_pos (show (0 : Fin S800000x128.rank) ∈ dot_S800000x128_S128x4_S800000x4_1_0_0_1_n_n.lhsNonContracting by decide)]
  rfl

theorem logitdot_lhs_col (i : S800000x4.Idx) (k : dot_S800000x128_S128x4_S800000x4_1_0_0_1_n_n.contr.Idx) :
    (dot_S800000x128_S128x4_S800000x4_1_0_0_1_n_n.lhsIdx i k 1).val = (k ⟨0, by decide⟩).val :=
  dot_S800000x128_S128x4_S800000x4_1_0_0_1_n_n.lhsIdx_val_of_single rfl i k

/-- Right operand: row k, column b. -/
theorem logitdot_rhs_row (i : S800000x4.Idx) (k : dot_S800000x128_S128x4_S800000x4_1_0_0_1_n_n.contr.Idx) :
    (dot_S800000x128_S128x4_S800000x4_1_0_0_1_n_n.rhsIdx i k 0).val = (k ⟨0, by decide⟩).val :=
  dot_S800000x128_S128x4_S800000x4_1_0_0_1_n_n.rhsIdx_val_of_single rfl i k

theorem logitdot_rhs_col (i : S800000x4.Idx) (k : dot_S800000x128_S128x4_S800000x4_1_0_0_1_n_n.contr.Idx) :
    (dot_S800000x128_S128x4_S800000x4_1_0_0_1_n_n.rhsIdx i k 1).val = (i 1).val := by
  unfold DotDims.rhsIdx
  rw [dif_neg (show ¬(1 : Fin S128x4.rank) ∈ dot_S800000x128_S128x4_S800000x4_1_0_0_1_n_n.rhsBatch by decide),
    dif_pos (show (1 : Fin S128x4.rank) ∈ dot_S800000x128_S128x4_S800000x4_1_0_0_1_n_n.rhsNonContracting by decide)]
  rfl

/-- The product at entry (a, b) is the plain sum over the 128 contraction positions. -/
theorem logitdot_entry (x : FVec Ideal S800000x128 .f32) (w : FVec Ideal S128x4 .f32) (a : Fin 800000) (b : Fin 4) :
    Host.dotGeneral dot_S800000x128_S128x4_S800000x4_1_0_0_1_n_n none x w (ix2 a b) = ∑ k : Fin 128, x (ix2 a k) * w (ix2 k b) := by
  simp only [Host.dotGeneral]
  rw [Ideal.dotGeneral_apply, ← Equiv.sum_comp (contrEquiv1 dot_S800000x128_S128x4_S800000x4_1_0_0_1_n_n 128 rfl rfl).symm]
  refine Finset.sum_congr rfl fun k _ => ?_
  have hk := contrEquiv1_symm_val dot_S800000x128_S128x4_S800000x4_1_0_0_1_n_n 128 rfl rfl k
  have el : dot_S800000x128_S128x4_S800000x4_1_0_0_1_n_n.lhsIdx (ix2 a b) ((contrEquiv1 dot_S800000x128_S128x4_S800000x4_1_0_0_1_n_n 128 rfl rfl).symm k) = ix2 a k := funext fun d => Fin.ext (by
    match d with
    | ⟨0, _⟩ => exact logitdot_lhs_row _ _
    | ⟨1, _⟩ => exact (logitdot_lhs_col _ _).trans hk)
  have er : dot_S800000x128_S128x4_S800000x4_1_0_0_1_n_n.rhsIdx (ix2 a b) ((contrEquiv1 dot_S800000x128_S128x4_S800000x4_1_0_0_1_n_n 128 rfl rfl).symm k) = ix2 k b := funext fun d => Fin.ext (by
    match d with
    | ⟨0, _⟩ => exact (logitdot_rhs_row _ _).trans hk
    | ⟨1, _⟩ => exact logitdot_rhs_col _ _)
  rw [el, er]

/-- Entry (a, b) of the projection x · W. -/
theorem proj_entry (x : FVec Ideal S50000x128 .f32) (w : FVec Ideal S128x128 .f32) (a : Fin 50000) (b : Fin 128) :
    Host.dotGeneral dot_S50000x128_S128x128_S50000x128_1_0_0_1_n_n none x w (ix2 a b) = GatSpec.proj x w a b :=
  projdot_entry x w a b

/-! ## The leaky rectifier and the attention logits -/

/-- A scalar spread over a shape reads the scalar everywhere. -/
theorem scalar_spread {α : Type} (t : Shape) (h : S_.BroadcastsInDim t (![] : Fin 0 → Fin t.rank)) (x : S_.Idx → α) (j : t.Idx) :
    broadcastInDim t ![] h x j = x ix0 :=
  broadcastInDim_apply _ h x j ix0 (fun a => a.elim0)

/-- The reference's rectifier at entry (e, k): s where s ≥ 0, slope · s elsewhere. -/
theorem leaky_entry (s : FVec Ideal S800000x128 .f32) (e : Fin 800000) (k : Fin 128) :
    (select (cmpf .oge s (broadcastInDim S800000x128 ![] bcast_S_S800000x128 (constant (F := Ideal) S_ .f32 0x00000000#32))) s
      (mulf (broadcastInDim S800000x128 ![] bcast_S_S800000x128 (id (constant (F := Ideal) S_ .f32 0x3E4CCCCD#32))) s)) (ix2 e k)
      = GatSpec.lk (s (ix2 e k)) := by
  rw [select_apply, cmpf_apply, mulf_apply, scalar_spread, scalar_spread]
  rfl

/-- The reference's attention logit of edge e and head h, once its left operand is the rectified sum of the
    two gathered endpoint rows. -/
theorem logit_entry (L : FVec Ideal S800000x128 .f32) (wa : FVec Ideal S128x4 .f32) (gs gd : FVec Ideal S800000x128 .f32)
    (hL : ∀ (e : Fin 800000) (k : Fin 128), L (ix2 e k) = GatSpec.lk (gs (ix2 e k) + gd (ix2 e k)))
    (e : Fin 800000) (h : Fin 4) :
    Host.dotGeneral dot_S800000x128_S128x4_S800000x4_1_0_0_1_n_n none L wa (ix2 e h) = GatSpec.logit gs gd wa e h := by
  rw [logitdot_entry]
  exact Finset.sum_congr rfl fun k _ => by rw [hL e k]

/-! ## The layer normalisation of a row -/

open Cert.ReferenceIdeal.Stages

theorem hostDivf_apply {s : Shape} {φ : FTy} (x y : FVec Ideal s φ) (i : s.Idx) : Host.divf x y i = Ideal.div (x i) (y i) := rfl

theorem hostRsqrt_apply {s : Shape} {φ : FTy} (x : FVec Ideal s φ) (i : s.Idx) : Host.rsqrt x i = Ideal.rsqrt (x i) := rfl

theorem reduces_channels : S50000x128.Reduces [1] S50000 := by decide

/-- A sum over the channel axis from a zero initial value, at row a: the sum of the row's 128 entries. -/
theorem rowsum_entry (x : FVec Ideal S50000x128 .f32) (a : Fin 50000) :
    Host.reduceAdd x (constant (F := Ideal) S_ .f32 0x00000000#32) reducesTo_S50000x128_S50000_d1 h_S_ (ix1 a)
      = ∑ k : Fin 128, x (ix2 a k) := by
  unfold Host.reduceAdd
  rw [Ideal.hostReduceAdd_def, Ideal.hostReduceAdd_single _ reduces_channels, constant_apply, Ideal.ofBits_zero_f32, zero_add]
  refine Finset.sum_congr rfl fun k _ => congrArg x (funext fun d => Fin.ext ?_)
  match d with
  | ⟨0, _⟩ => rfl
  | ⟨1, _⟩ => rfl

/-- A vector of row values as a one-column array reads the row's value. -/
theorem column_spread (x : FVec Ideal S50000 .f32) (a : Fin 50000) (z : Fin 1) :
    broadcastInDim S50000x1 ![0] bcast_S50000_S50000x1_0 x (ix2 a z) = x (ix1 a) :=
  broadcastInDim_apply _ _ x _ (ix1 a) (fun d => by
    match d with
    | ⟨0, _⟩ => rw [if_neg (by decide +revert)]; rfl)

/-- A one-column array spread over the 128 channels reads the row's value. -/
theorem row_spread (y : FVec Ideal S50000x1 .f32) (a : Fin 50000) (c : Fin 128) :
    broadcastInDim S50000x128 ![0, 1] bcast_S50000x1_S50000x128_0_1 y (ix2 a c) = y (ix2 a 0) :=
  broadcastInDim_apply _ _ y _ (ix2 a 0) (fun d => by
    match d with
    | ⟨0, _⟩ => rw [if_neg (by decide +revert)]; rfl
    | ⟨1, _⟩ => rw [if_pos (by decide +revert)]; rfl)

/-- A vector over the channels spread over the rows reads the channel's value. -/
theorem channel_spread (g : FVec Ideal S128 .f32) (a : Fin 50000) (c : Fin 128) :
    broadcastInDim S50000x128 ![0, 1] bcast_S1x128_S50000x128_0_1 (broadcastInDim S1x128 ![1] bcast_S128_S1x128_1 g) (ix2 a c)
      = g (ix1 c) := by
  rw [broadcastInDim_apply _ _ _ _ (ix2 (0 : Fin 1) c) (fun d => by
    match d with
    | ⟨0, _⟩ => rw [if_pos (by decide +revert)]; rfl
    | ⟨1, _⟩ => rw [if_neg (by decide +revert)]; rfl)]
  exact broadcastInDim_apply _ _ g _ (ix1 c) (fun d => by
    match d with
    | ⟨0, _⟩ => rw [if_neg (by decide +revert)]; rfl)

/-- The pattern 0x43000000 denotes the real 128. -/
theorem ofBits_128 : Ideal.ofBits .f32 0x43000000#32 = ((128 : ℝ) : EReal) := by
  simp [Ideal.ofBits, Ideal.ieee, -EReal.coe_mul]; norm_num

/-- The reference's row mean is the specification's. -/
theorem rowMean_entry (s : FVec Ideal S50000x128 .f32) (a : Fin 50000) :
    rowMean (F := Ideal) s (ix2 a 0) = GatSpec.rowMean s a := by
  unfold rowMean
  rw [hostDivf_apply, column_spread, rowsum_entry, scalar_spread, constant_apply]
  rfl

/-- A row less its mean, at channel c. -/
theorem centered_entry (s : FVec Ideal S50000x128 .f32) (a : Fin 50000) (c : Fin 128) :
    centered (F := Ideal) s (ix2 a c) = s (ix2 a c) - GatSpec.rowMean s a := by
  unfold centered
  rw [subf_apply, row_spread, rowMean_entry]

/-- The variance's divisor, 128 less the integer zero, is 128. -/
theorem varDen_entry : varDen (F := Ideal) ix0 = Ideal.ofBits .f32 0x43000000#32 := by
  unfold varDen
  rw [subf_apply, constant_apply]
  show Ideal.ofBits .f32 0x43000000#32 - (((0#32 : BitVec 32).toInt : ℝ) : EReal) = _
  simp

/-- It is above zero, so the guarded quotient is the quotient. -/
theorem varDen_pos : FloatOps.cmpf (F := Ideal) .ogt (varDen (F := Ideal) ix0) (Ideal.ofBits .f32 0x00000000#32) = 1#1 := by
  rw [varDen_entry, Ideal.cmpf_def, Ideal.ofBits_zero_f32, ofBits_128]
  unfold Ideal.cmp
  simp

/-- The reference's row variance is the specification's. -/
theorem rowVar_entry (s : FVec Ideal S50000x128 .f32) (a : Fin 50000) :
    rowVar (F := Ideal) s (ix2 a 0) = GatSpec.rowVar s a := by
  unfold rowVar
  rw [select_apply, scalar_spread, cmpf_apply, constant_apply, varDen_pos, select_one, hostDivf_apply, column_spread,
    rowsum_entry, scalar_spread, varDen_entry]
  unfold GatSpec.rowVar
  refine congrArg (fun t => Ideal.div t _) (Finset.sum_congr rfl fun k _ => ?_)
  rw [mulf_apply, centered_entry]

/-- The reference's layer normalisation at row a and channel ch is the specification's, the scale and the
    shift read at the channel. -/
theorem ln_entry (s : FVec Ideal S50000x128 .f32) (g b : FVec Ideal S128 .f32) (a : Fin 50000) (ch : Fin 128) :
    lnOut (F := Ideal) s g b (ix2 a ch)
      = GatSpec.lnorm s (fun j => g (ix1 (j 1))) (fun j => b (ix1 (j 1))) a ch := by
  unfold lnOut
  rw [addf_apply, mulf_apply, mulf_apply, centered_entry, row_spread, hostRsqrt_apply, addf_apply, rowVar_entry,
    scalar_spread, constant_apply, channel_spread, channel_spread]
  rfl

end Cert.ReferenceIdeal.Entries

end
-- ==== Proof.BridgeA.lean ====
/-
  The first half of the graph-attention layer is the same on both sides.

  Both programs project the node features twice (x · W_src and x · W_dst), gather the projected rows at the
  edges' endpoints, rectify the sum of the two gathered rows and contract it with the attention weights.
  The kernel does the two contractions in row tiles inside pipelined regions and the reference as whole
  products on the host; entry by entry both are the same sum over the 128 contracted channels, a format
  change being the identity on the extended reals. The gathers in between are the same operation of equal
  operands. So at each boundary of the kernel's run the buffer holds the reference's stage of the launch
  arrays.
-/
import proofs.«109523_j20693152432941_1_alg».proof.Proof.KernelFoldB
import proofs.«109523_j20693152432941_1_alg».proof.Proof.Region0
import proofs.«109523_j20693152432941_1_alg».proof.Proof.Region1
import proofs.«109523_j20693152432941_1_alg».proof.Proof.RefStages
import proofs.«109523_j20693152432941_1_alg».proof.Proof.RefEntries

set_option maxRecDepth 16384

noncomputable section

namespace Cert.Bridge

open Cert.KernelIdeal Cert.KernelIdeal.Gen Cert.KernelIdeal.Stages
open Idealize.ShloMosaic Idealize.ShloMosaic.TcCoe Idealize.ShloMosaic.ValueIdx Idealize.SL.Sem

variable (m : (ℓ : Loc nD τ sig) → Buf (Elt Ideal) ℓ) (ρ : Dev nD → PrngReg) (c : Dev nD)

/-- A row-by-column product read entry by entry is the reference's whole product. -/
theorem projArr_eq (x : FVec Ideal S50000x128 .f32) (w : FVec Ideal S128x128 .f32) :
    Cert.KernelIdeal.Region0.projArr x w = Cert.ReferenceIdeal.Stages.hSrc (F := Ideal) x w := by
  funext i
  exact (show Cert.KernelIdeal.Region0.projArr x w i = GatSpec.proj x w (i 0) (i 1) from rfl).trans
    ((Cert.ReferenceIdeal.Entries.proj_entry x w (i 0) (i 1)).symm.trans
      (congrArg (Cert.ReferenceIdeal.Stages.hSrc (F := Ideal) x w) (eq_ix2 (n0 := 50000) (n1 := 128) i).symm))

/-- The source projection the first region leaves is the reference's whole product x · W_src. -/
theorem hs_eq : (dat0 (F := Ideal) (V1 m ρ) c).arrAt 3 cfg0.N
    = Cert.ReferenceIdeal.Stages.hSrc (F := Ideal) (m ((c : Thread nD τ).loc main_arg0)) (m ((c : Thread nD τ).loc main_arg2)) := by
  rw [Cert.KernelIdeal.Region0.arr3 (V1 m ρ) c,
    show V1 m ρ c (Pipeline.arrRef spec0 0) = m ((c : Thread nD τ).loc main_arg0) from W1_arg0 m ρ c,
    show V1 m ρ c (Pipeline.arrRef spec0 1) = m ((c : Thread nD τ).loc main_arg2) from W1_arg2 m ρ c]
  exact projArr_eq _ _

/-- The destination projection likewise is x · W_dst. -/
theorem hd_eq : (dat0 (F := Ideal) (V1 m ρ) c).arrAt 4 cfg0.N
    = Cert.ReferenceIdeal.Stages.hDst (F := Ideal) (m ((c : Thread nD τ).loc main_arg0)) (m ((c : Thread nD τ).loc main_arg3)) := by
  rw [Cert.KernelIdeal.Region0.arr4 (V1 m ρ) c,
    show V1 m ρ c (Pipeline.arrRef spec0 0) = m ((c : Thread nD τ).loc main_arg0) from W1_arg0 m ρ c,
    show V1 m ρ c (Pipeline.arrRef spec0 2) = m ((c : Thread nD τ).loc main_arg3) from W1_arg3 m ρ c]
  exact projArr_eq _ _

/-! ## The gathered endpoint rows -/

/-- At the second region's entry the first gathered array is the reference's: the same gather, by the same
    non-negative source numbers, of the same projection. -/
theorem gs_eq : W3 m ρ c (Proc.devRef .tc main_v11)
    = Cert.ReferenceIdeal.Stages.gSrc (F := Ideal)
        (Cert.ReferenceIdeal.Stages.hSrc (F := Ideal) (m ((c : Thread nD τ).loc main_arg0)) (m ((c : Thread nD τ).loc main_arg2)))
        (Cert.ReferenceIdeal.Stages.srcIdx (F := Ideal) (m ((c : Thread nD τ).loc main_arg1))) := by
  rw [W3_v11 m ρ c, W2_v4_0 m ρ c, hs_eq m ρ c, W2_v1 m ρ c]
  rfl

/-- The second gathered array: destination numbers, destination projection. -/
theorem gd_eq : W3 m ρ c (Proc.devRef .tc main_v18)
    = Cert.ReferenceIdeal.Stages.gDst (F := Ideal)
        (Cert.ReferenceIdeal.Stages.hDst (F := Ideal) (m ((c : Thread nD τ).loc main_arg0)) (m ((c : Thread nD τ).loc main_arg3)))
        (Cert.ReferenceIdeal.Stages.dstIdx (F := Ideal) (m ((c : Thread nD τ).loc main_arg1))) := by
  rw [W3_v18 m ρ c, W2_v4_1 m ρ c, hd_eq m ρ c, W2_v3 m ρ c]
  rfl

/-- The destination numbers, at any later boundary, are the reference's. -/
theorem dst_eq : W2 m ρ c (Proc.devRef .tc main_v3)
    = Cert.ReferenceIdeal.Stages.dstIdx (F := Ideal) (m ((c : Thread nD τ).loc main_arg1)) := by
  rw [W2_v3 m ρ c]
  rfl

/-! ## The attention logits -/

/-- Entry by entry the rectified sum of two gathered rows against a column of the attention weights is the
    reference's whole product of the rectified sum with the weights. -/
theorem logits_eq (gs gd : FVec Ideal S800000x128 .f32) (wa : FVec Ideal S128x4 .f32) :
    Cert.KernelIdeal.Region1.logits gs gd wa
      = Cert.ReferenceIdeal.Stages.logits (F := Ideal) (Cert.ReferenceIdeal.Stages.leaky (F := Ideal) (addf gs gd)) wa := by
  funext i
  exact (show Cert.KernelIdeal.Region1.logits gs gd wa i = GatSpec.logit gs gd wa (i 0) (i 1) from rfl).trans
    ((Cert.ReferenceIdeal.Entries.logit_entry (Cert.ReferenceIdeal.Stages.leaky (F := Ideal) (addf gs gd)) wa gs gd
        (fun e k => Cert.ReferenceIdeal.Entries.leaky_entry (addf gs gd) e k) (i 0) (i 1)).symm.trans
      (congrArg (Cert.ReferenceIdeal.Stages.logits (F := Ideal) (Cert.ReferenceIdeal.Stages.leaky (F := Ideal) (addf gs gd)) wa)
        (eq_ix2 (n0 := 800000) (n1 := 4) i).symm))

/-- What the second region leaves is the reference's logits. -/
theorem al_eq : (dat1 (F := Ideal) (V3 m ρ) c).arrAt 3 cfg1.N
    = Cert.ReferenceIdeal.Stages.logits (F := Ideal)
        (Cert.ReferenceIdeal.Stages.leaky (F := Ideal)
          (Cert.ReferenceIdeal.Stages.edgeFeat (F := Ideal) (m ((c : Thread nD τ).loc main_arg0)) (m ((c : Thread nD τ).loc main_arg1))
            (m ((c : Thread nD τ).loc main_arg2)) (m ((c : Thread nD τ).loc main_arg3))))
        (m ((c : Thread nD τ).loc main_arg4)) := by
  rw [Cert.KernelIdeal.Region1.logit_array (V3 m ρ) c,
    show V3 m ρ c (Pipeline.arrRef spec1 0) = _ from gs_eq m ρ c,
    show V3 m ρ c (Pipeline.arrRef spec1 1) = _ from gd_eq m ρ c,
    show V3 m ρ c (Pipeline.arrRef spec1 2) = m ((c : Thread nD τ).loc main_arg4) from W3_arg4 m ρ c]
  exact logits_eq _ _ _

/-! ## The exponentials and the gathered denominators -/

theorem ae_eq : W7 m ρ c (Proc.devRef .tc main_v23)
    = Cert.ReferenceIdeal.Stages.attn (F := Ideal) (m ((c : Thread nD τ).loc main_arg0)) (m ((c : Thread nD τ).loc main_arg1))
        (m ((c : Thread nD τ).loc main_arg2)) (m ((c : Thread nD τ).loc main_arg3)) (m ((c : Thread nD τ).loc main_arg4)) := by
  rw [W7_v23 m ρ c, W4_v19 m ρ c, al_eq m ρ c]
  rfl

theorem de_eq : W7 m ρ c (Proc.devRef .tc main_v33)
    = Cert.ReferenceIdeal.Stages.denE (F := Ideal)
        (Cert.ReferenceIdeal.Stages.attn (F := Ideal) (m ((c : Thread nD τ).loc main_arg0)) (m ((c : Thread nD τ).loc main_arg1))
          (m ((c : Thread nD τ).loc main_arg2)) (m ((c : Thread nD τ).loc main_arg3)) (m ((c : Thread nD τ).loc main_arg4)))
        (Cert.ReferenceIdeal.Stages.dstIdx (F := Ideal) (m ((c : Thread nD τ).loc main_arg1))) := by
  rw [W7_v33 m ρ c, W4_v19 m ρ c, al_eq m ρ c, W4_v3 m ρ c, W3_v3 m ρ c, dst_eq m ρ c]
  rfl

theorem gs7_eq : W7 m ρ c (Proc.devRef .tc main_v11)
    = Cert.ReferenceIdeal.Stages.gSrc (F := Ideal)
        (Cert.ReferenceIdeal.Stages.hSrc (F := Ideal) (m ((c : Thread nD τ).loc main_arg0)) (m ((c : Thread nD τ).loc main_arg2)))
        (Cert.ReferenceIdeal.Stages.srcIdx (F := Ideal) (m ((c : Thread nD τ).loc main_arg1))) := by
  rw [W7_v11 m ρ c, W4_v11 m ρ c, gs_eq m ρ c]

end Cert.Bridge

end
-- ==== Proof.Region2.lean ====
/-
  Region 2 of the idealized kernel: the weighted messages.

  For every edge e and channel c the region leaves, in its output array, the gathered source feature of the edge
  at that channel times the sum over the four heads of the edge's normalised attention weight at the head times
  the head's entry of the 0/1 spreading matrix at the channel. The edges are processed 4000 rows at a time; every
  grid point reads rows [4000 t, 4000 t + 4000) of the three edge arrays and the whole spreading matrix, and
  writes the same rows of the output. The 200 points' row ranges fill the 800000 rows, so the statement holds at
  every entry, whatever the arrays hold when the region is entered.
-/
import proofs.«109523_j20693152432941_1_alg».proof.Proof.Gen.KernelIdeal.Frame
import proofs.«109523_j20693152432941_1_alg».proof.Proof.GatSpec
import Idealize.ShloMosaic.Lib.ValueIdx
import Idealize.ShloMosaic.Lib.Pipeline.Value
import Idealize.ShloMosaic.PureOps.Ideal.Laws

noncomputable section

namespace Cert.KernelIdeal.Region2

open Cert.KernelIdeal Cert.KernelIdeal.Gen Idealize.ShloMosaic Idealize.ShloMosaic.TcCoe Idealize.SL.Sem
open Idealize.ShloMosaic.ValueIdx
open Idealize.ShloMosaic.Pipeline (Dat)

/-! ## One block: the body's result at an entry -/

/-- A 4000 × 4 block times the 4 × 128 matrix, accumulated into zeros, at entry (p, q): the sum over the four
    heads of the products of row p's entries with column q's. -/
theorem spread_entry (a : FVec Ideal S4000x4 .f32) (ex : FVec Ideal S4x128 .f32) (p : Fin 4000) (q : Fin 128) :
    matmul dot_S4000x4_S4x128_S4000x128_1_0_0_1_n_n (some .fp32) a ex
        (constant (F := Ideal) S4000x128 .f32 0x00000000#32) (ix2 p q)
      = ∑ h : Fin 4, a (ix2 p h) * ex (ix2 h q) := by
  show FloatOps.matmul _ _ a ex _ (ix2 p q) = _
  rw [Ideal.matmul_constant_zero_apply,
    ← Equiv.sum_comp (contrEquiv1 dot_S4000x4_S4x128_S4000x128_1_0_0_1_n_n 4 rfl rfl).symm]
  refine Finset.sum_congr rfl fun h _ => ?_
  have c2 := contrEquiv1_symm_val dot_S4000x4_S4x128_S4000x128_1_0_0_1_n_n 4 rfl rfl h
  have l2 : dot_S4000x4_S4x128_S4000x128_1_0_0_1_n_n.lhsIdx (ix2 p q) ((contrEquiv1 _ 4 rfl rfl).symm h) = ix2 p h := by
    funext ax; apply Fin.ext
    match ax with
    | ⟨0, _⟩ => simp [DotDims.lhsIdx, dot_S4000x4_S4x128_S4000x128_1_0_0_1_n_n]; rfl
    | ⟨1, _⟩ => simp [DotDims.lhsIdx, dot_S4000x4_S4x128_S4000x128_1_0_0_1_n_n]; exact c2
  have r2 : dot_S4000x4_S4x128_S4000x128_1_0_0_1_n_n.rhsIdx (ix2 p q) ((contrEquiv1 _ 4 rfl rfl).symm h) = ix2 h q := by
    funext ax; apply Fin.ext
    match ax with
    | ⟨0, _⟩ => simp [DotDims.rhsIdx, dot_S4000x4_S4x128_S4000x128_1_0_0_1_n_n]; exact c2
    | ⟨1, _⟩ => simp [DotDims.rhsIdx, dot_S4000x4_S4x128_S4000x128_1_0_0_1_n_n]; rfl
  rw [l2, r2]

/-- The body's result at entry (p, q) of a block: the source feature there times the sum over the four heads of
    the normalised weight (the exponential over the denominator plus the small constant) at row p times the
    spreading matrix's entry at (head, q). -/
theorem body_entry (ae de : Vec Ideal S4000x4 .f32) (ex : Vec Ideal S4x128 .f32) (gs : Vec Ideal S4000x128 .f32)
    (p : Fin 4000) (q : Fin 128) :
    k2_pay1 ae de ex gs (ix2 p q)
      = gs (ix2 p q) * ∑ h : Fin 4,
          Ideal.div (ae (ix2 p h)) (de (ix2 p h) + Ideal.ofBits .f32 0x3089705F#32) * ex (ix2 h q) := by
  unfold k2_pay1
  simp only [shapeCast_self]
  rw [mulf_apply, spread_entry]
  rfl

/-- The same product read off whole arrays at the array indices the block's entries sit at: when the block's row p
    is the arrays' row r, it is the weighted message of edge r at channel q. -/
theorem message_of_reads (gs : S800000x128.Idx → EReal) (ae de : S800000x4.Idx → EReal) (ex : S4x128.Idx → EReal)
    (r : Fin 800000) (q : Fin 128) (i0 i4 : S800000x128.Idx) (i1 i2 : Fin 4 → S800000x4.Idx)
    (i3 : Fin 4 → S4x128.Idx) (h0 : i0 = ix2 r q) (h4 : i4 = ix2 r q) (h1 : ∀ h, i1 h = ix2 r h)
    (h2 : ∀ h, i2 h = ix2 r h) (h3 : ∀ h, i3 h = ix2 h q) :
    gs i0 * ∑ h : Fin 4, Ideal.div (ae (i1 h)) (de (i2 h) + Ideal.ofBits .f32 0x3089705F#32) * ex (i3 h)
      = GatSpec.msgSpread gs ae de ex (i4 0) (i4 1) := by
  subst h0 h4
  simp only [h1, h2, h3]
  rfl

/-! ## The windows' rows -/

theorem zero_offsets : (![0, 0] : Fin 2 → Nat) = fun _ => 0 := funext fun a => by fin_cases a <;> rfl

/-- At grid point t the three edge windows and the output window sit at block row t, block column 0, and the
    spreading matrix's window at block (0, 0): read off the index maps, point by point. -/
theorem block_rows : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0
    ∧ win2_3.index t (0 : Fin 2) = 0 ∧ win2_3.index t (1 : Fin 2) = 0
    ∧ win2_4.index t (0 : Fin 2) = t.val ∧ win2_4.index t (1 : Fin 2) = 0 :=
  (by decide +kernel : ∀ t : Fin grid2.N, _)

/-! ## The blocks fill the array -/

/-- An entry of the output array is in point t's block iff each coordinate is in the block's range on its axis. -/
theorem mem_rows (t : Fin cfg2.N) (i : S800000x128.Idx) :
    i ∈ ((cfg2.win 4).blk t).view.set ↔ ∀ a : Fin 2, win2_4.index t a * S4000x128.size a ≤ (i a).val
      ∧ (i a).val < win2_4.index t a * S4000x128.size a + S4000x128.size a := by
  show i ∈ ((View.whole main_v43).slice (win2_4.rect t)).set ↔ _
  rw [View.set_slice_whole, Rect.mem_set_unit]
  exact Iff.rfl

/-- Every entry is in some point's block: row r is among the rows of point r / 4000. -/
theorem rows_cover (i : S800000x128.Idx) :
    ∃ t : Fin cfg2.N, (cfg2.win 4).flush t = true ∧ i ∈ ((cfg2.win 4).blk t).view.set := by
  have hi0 : (i 0).val < 800000 := (i 0).isLt
  have hi1 : (i 1).val < 128 := (i 1).isLt
  obtain ⟨t, ht⟩ : ∃ t : Fin cfg2.N, t.val = (i 0).val / 4000 :=
    ⟨⟨(i 0).val / 4000, by show (i 0).val / 4000 < 200; omega⟩, rfl⟩
  obtain ⟨-, -, -, -, -, -, -, -, e40, e41⟩ := block_rows t
  refine ⟨t, flush2_4 t, ?_⟩
  rw [mem_rows]
  intro a
  match a with
  | ⟨0, _⟩ =>
    show win2_4.index t (0 : Fin 2) * 4000 ≤ (i 0).val ∧ (i 0).val < win2_4.index t (0 : Fin 2) * 4000 + 4000
    omega
  | ⟨1, _⟩ =>
    show win2_4.index t (1 : Fin 2) * 128 ≤ (i 1).val ∧ (i 1).val < win2_4.index t (1 : Fin 2) * 128 + 128
    omega

section Arrays
variable (V : (c : Dev nD) → (b : Ref sig .tc) → Buf (Elt Ideal) ((c : Thread nD τ).loc b))

/-- The array of weighted messages as one function of the region's four input arrays, entry by entry. -/
def messages (c : Dev nD) : S800000x128.Idx → EReal := fun i =>
  GatSpec.msgSpread (V c (Pipeline.arrRef spec2 0)) (V c (Pipeline.arrRef spec2 1)) (V c (Pipeline.arrRef spec2 2))
    (V c (Pipeline.arrRef spec2 3)) (i 0) (i 1)

/-- What grid point t writes back is rows [4000 t, 4000 t + 4000) of the messages. -/
theorem flushed_rows (c : Dev nD) (t : Fin cfg2.N) :
    (dat2 (F := Ideal) V c).flushed 4 t = ((cfg2.win 4).blk t).view.read (Elt Ideal) (messages V c) := by
  show (cfg2.win 4).cut (grid2.coords t) ((dat2 V c).after 4 t) = _
  rw [after2_4]
  unfold out2_4
  rw [View.canon_unit_zero zero_offsets]
  simp only [View.ld_unit_zero (S := S4000x4) zero_offsets, View.ld_unit_zero (S := S4x128) zero_offsets,
    View.ld_unit_zero (S := S4000x128) zero_offsets]
  obtain ⟨e00, e01, e10, e11, e20, e21, e30, e31, e40, e41⟩ := block_rows t
  have ht : t.val < 200 := t.isLt
  funext j
  obtain ⟨p, q, rfl⟩ : ∃ (p : Fin 4000) (q : Fin 128), j = ix2 p q := ⟨j 0, j 1, eq_ix2 j⟩
  refine (body_entry (iblk2 V c 1 t) (iblk2 V c 2 t) (iblk2 V c 3 t) (iblk2 V c 0 t) p q).trans ?_
  -- the block's row p is the arrays' row 4000 t + p
  have hr : t.val * 4000 + p.val < 800000 := by have := p.isLt; omega
  have h4 : ((cfg2.win 4).blk t).view.emb (ix2 p q) = ix2 (⟨t.val * 4000 + p.val, hr⟩ : Fin 800000) q := by
    funext a; apply Fin.ext
    match a with
    | ⟨0, _⟩ => show win2_4.index t (0 : Fin 2) * 4000 + 1 * p.val = t.val * 4000 + p.val; omega
    | ⟨1, _⟩ => show win2_4.index t (1 : Fin 2) * 128 + 1 * q.val = q.val; omega
  have h0 : ((cfg2.win 0).blk t).view.emb (ix2 p q) = ix2 (⟨t.val * 4000 + p.val, hr⟩ : Fin 800000) q := by
    funext a; apply Fin.ext
    match a with
    | ⟨0, _⟩ => show win2_0.index t (0 : Fin 2) * 4000 + 1 * p.val = t.val * 4000 + p.val; omega
    | ⟨1, _⟩ => show win2_0.index t (1 : Fin 2) * 128 + 1 * q.val = q.val; omega
  have h1 : ∀ h : Fin 4, ((cfg2.win 1).blk t).view.emb (ix2 p h) = ix2 (⟨t.val * 4000 + p.val, hr⟩ : Fin 800000) h := by
    intro h; funext a; apply Fin.ext
    match a with
    | ⟨0, _⟩ => show win2_1.index t (0 : Fin 2) * 4000 + 1 * p.val = t.val * 4000 + p.val; omega
    | ⟨1, _⟩ => show win2_1.index t (1 : Fin 2) * 4 + 1 * h.val = h.val; omega
  have h2 : ∀ h : Fin 4, ((cfg2.win 2).blk t).view.emb (ix2 p h) = ix2 (⟨t.val * 4000 + p.val, hr⟩ : Fin 800000) h := by
    intro h; funext a; apply Fin.ext
    match a with
    | ⟨0, _⟩ => show win2_2.index t (0 : Fin 2) * 4000 + 1 * p.val = t.val * 4000 + p.val; omega
    | ⟨1, _⟩ => show win2_2.index t (1 : Fin 2) * 4 + 1 * h.val = h.val; omega
  have h3 : ∀ h : Fin 4, ((cfg2.win 3).blk t).view.emb (ix2 h q) = ix2 h q := by
    intro h; funext a; apply Fin.ext
    match a with
    | ⟨0, _⟩ => show win2_3.index t (0 : Fin 2) * 4 + 1 * h.val = h.val; omega
    | ⟨1, _⟩ => show win2_3.index t (1 : Fin 2) * 128 + 1 * q.val = q.val; omega
  exact message_of_reads (V c (Pipeline.arrRef spec2 0)) (V c (Pipeline.arrRef spec2 1)) (V c (Pipeline.arrRef spec2 2))
    (V c (Pipeline.arrRef spec2 3)) ⟨t.val * 4000 + p.val, hr⟩ q
    (((cfg2.win 0).blk t).view.emb (ix2 p q)) (((cfg2.win 4).blk t).view.emb (ix2 p q))
    (fun h => ((cfg2.win 1).blk t).view.emb (ix2 p h)) (fun h => ((cfg2.win 2).blk t).view.emb (ix2 p h))
    (fun h => ((cfg2.win 3).blk t).view.emb (ix2 h q)) h0 h4 h1 h2 h3

/-! ## The array after the region -/

/-- After the region the output array is the array of weighted messages, whatever it held before. -/
theorem messages_array (c : Dev nD) : (dat2 (F := Ideal) V c).arrAt 4 cfg2.N = messages V c :=
  (dat2 V c).arrAt_eq_of_cover 4 (messages V c) (fun t _ => flushed_rows V c t) rows_cover

/-- Entry (e, ch) of the output array after the region: the weighted message of edge e at channel ch, as a
    function of the four input arrays as the region finds them. -/
theorem msg_entry (c : Dev nD) (e : Fin 800000) (ch : Fin 128) :
    (dat2 (F := Ideal) V c).arrAt 4 cfg2.N (ix2 e ch)
      = GatSpec.msgSpread (V c (Pipeline.arrRef spec2 0)) (V c (Pipeline.arrRef spec2 1))
          (V c (Pipeline.arrRef spec2 2)) (V c (Pipeline.arrRef spec2 3)) e ch :=
  congrFun (messages_array V c) (ix2 e ch)

end Arrays

end Cert.KernelIdeal.Region2

end
-- ==== Proof.SpreadMatrix.lean ====
/-
  The 0/1 spreading matrix of the idealized kernel, entry by entry.

  Before its third region the program computes, from constants only, a 4 × 128 matrix of floats: the
  conversion to float of the bit "column ch's floor quotient by 32 equals row h", where the floor quotient is
  spelt as the truncated quotient, less one when the operands' signs differ and the remainder is not zero.
  On the columns 0 … 127 the dividend is not negative and the divisor 32 is positive, so the floor quotient is
  the natural-number quotient ch / 32, and the entry (h, ch) is 1 when ch / 32 = h and 0 otherwise.
-/
import proofs.«109523_j20693152432941_1_alg».proof.Proof.Gen.KernelIdeal.Frame
import Idealize.ShloMosaic.Lib.StableHlo.Run
import Idealize.ShloMosaic.Lib.ValueIdx
import Idealize.ShloMosaic.Lib.Pipeline.Value

set_option maxRecDepth 16384

noncomputable section

namespace Cert.KernelIdeal.Spread

open Cert.KernelIdeal Cert.KernelIdeal.Gen
open Idealize.ShloMosaic Idealize.ShloMosaic.TcCoe Idealize.ShloMosaic.Tactic
open Idealize.ShloMosaic.StableHlo

/-! ## The matrix of bits, a value built from constants only -/

/-- The column index laid along a row: entry `(0, ch)` is the word `ch`. -/
def chan : IVec S1x128 32 := broadcastInDim S1x128 ![1] bcast_S128_S1x128_1 (iotaInDim S128 32 0)

/-- The divisor, the constant 32. -/
def k32 : IVec S_ 32 := constantI S_ 32 32#32

/-- The divisor along the row. -/
def k32row : IVec S1x128 32 := broadcastInDim S1x128 ![] bcast_S_S1x128 k32

/-- The truncated quotient of the column index by 32. -/
def quot : IVec S1x128 32 := Host.divsi chan k32row

/-- The floor quotient of the column index by 32 as the program spells it: the truncated quotient, less one where
    the signs of dividend and divisor differ and the remainder is not zero. -/
def floorQuot : IVec S1x128 32 :=
  select
    (andi (cmpi .ne (signi chan) (broadcastInDim S1x128 ![] bcast_S_S1x128 (signi k32)))
          (cmpi .ne (Host.remsi chan k32row) (broadcastInDim S1x128 ![] bcast_S_S1x128 (constantI S_ 32 0#32))))
    (subi quot (broadcastInDim S1x128 ![] bcast_S_S1x128 (constantI S_ 32 1#32)))
    quot

/-- The row index laid down a column and across: entry `(h, ch)` is the word `h`. -/
def rowIdx : IVec S4x128 32 :=
  broadcastInDim S4x128 ![0, 1] bcast_S4x1_S4x128_0_1 (broadcastInDim S4x1 ![0] bcast_S4_S4x1_0 (iotaInDim S4 32 0))

/-- The matrix of bits: entry `(h, ch)` says whether column `ch`'s floor quotient by 32 is `h`. -/
def bits : IVec S4x128 1 :=
  cmpi .eq (broadcastInDim S4x128 ![0, 1] bcast_S1x128_S4x128_0_1 floorQuot) rowIdx

/-! ## The spreading matrix is the conversion of that matrix of bits, whatever the launch memory -/

section Read
variable {F : FTy → Type} [FloatOps F]
variable (m : (ℓ : Loc nD τ sig) → Buf (Elt F) ℓ) (ρ : Dev nD → PrngReg)

/-- At the third region's entry the spreading matrix's buffer holds the conversion to float of `bits`: the three
    stretches of host operations before it write it from constants only. -/
theorem W7_spread (c : Dev nD) :
    W7 m ρ c (Proc.devRef .tc main_v42) = (uitofp .f32 bits : (⟨S4x128, .f32⟩ : BufTy).Contents (Elt F)) := by
  show StableHlo.after hostOps2_2 (StableHlo.after hostOps2_1 (StableHlo.after hostOps2 (W4 m ρ c))) (Proc.devRef .tc main_v42) = _
  generalize W4 m ρ c = W
  after_results_simp
  rfl

end Read

/-! ## One entry of the matrix of bits -/

open Idealize.ShloMosaic.ValueIdx

/-- The sign of a word: `0` for zero, `-1` for a word whose top bit is set, `1` otherwise. -/
def sgn (x : BitVec 32) : BitVec 32 := if x = 0 then 0 else if x.msb then -1 else 1

/-- The program's floor quotient by 32 of one word: the truncated quotient, less one when the word's sign is not
    the divisor's and the remainder is not zero. -/
def floorQuot32 (x : BitVec 32) : BitVec 32 :=
  Scalar.select
    (IntOp.andi (IntOp.cmpi .ne (sgn x) (sgn 32#32)) (IntOp.cmpi .ne (IntOp.remsi .host x 32#32) 0#32))
    (IntOp.subi (IntOp.divsi .host x 32#32) 1#32)
    (IntOp.divsi .host x 32#32)

/-- The column index row at an index is the index's column, as a word. -/
theorem chan_apply (j : S1x128.Idx) : chan j = BitVec.ofNat 32 (j 1).val := rfl

/-- The floor-quotient row at an index is the floor quotient of the index's column. -/
theorem floorQuot_apply (j : S1x128.Idx) : floorQuot j = floorQuot32 (BitVec.ofNat 32 (j 1).val) := rfl

/-- The row-index matrix at `(h, ch)` is the word `h`. -/
theorem rowIdx_apply (h : Fin 4) (ch : Fin 128) : rowIdx (ix2 h ch) = BitVec.ofNat 32 h.val := rfl

/-- The bit at `(h, ch)` compares column `ch`'s floor quotient by 32 with `h`. -/
theorem bits_apply (h : Fin 4) (ch : Fin 128) :
    bits (ix2 h ch) = IntOp.cmpi .eq (floorQuot32 (BitVec.ofNat 32 ch.val)) (BitVec.ofNat 32 h.val) := rfl

/-- On the columns `0 … 127` the program's floor quotient by 32 is the natural-number quotient, so the comparison with
    a row `h` of `0 … 3` is the bit of `ch / 32 = h`: the 512 cases, each a closed computation on 32-bit words in
    which the divisor `32` is neither zero nor `-1`. -/
theorem floorQuot32_cmp : ∀ h : Fin 4, ∀ ch : Fin 128,
    IntOp.cmpi .eq (floorQuot32 (BitVec.ofNat 32 ch.val)) (BitVec.ofNat 32 h.val) = if ch.val / 32 = h.val then 1#1 else 0#1 := by
  decide +kernel

/-- The bit at `(h, ch)` is `1` exactly when `ch / 32 = h`. -/
theorem bits_entry (h : Fin 4) (ch : Fin 128) : bits (ix2 h ch) = if ch.val / 32 = h.val then 1#1 else 0#1 := by
  rw [bits_apply, floorQuot32_cmp]

/-! ## One entry of the spreading matrix at the ideal instance -/

/-- A conversion from unsigned integers at an index converts the element. -/
theorem uitofp_apply {F : FTy → Type} [FloatOps F] {s : Shape} {φ : FTy} {w : Nat} (x : IVec s w) (i : s.Idx) :
    (uitofp φ x : FVec F s φ) i = FloatOps.uitofp φ (x i) := rfl

/-- At the ideal instance the conversion of a bit is the real number `1` or `0`. -/
theorem uitofp_bit (p : Prop) [Decidable p] :
    (FloatOps.uitofp (F := Ideal) .f32 (if p then 1#1 else 0#1) : EReal) = if p then (1 : EReal) else 0 := by
  show (((if p then 1#1 else 0#1 : BitVec 1).toNat : ℝ) : EReal) = _
  split
  · show (((1 : ℕ) : ℝ) : EReal) = 1
    rw [Nat.cast_one, EReal.coe_one]
  · show (((0 : ℕ) : ℝ) : EReal) = 0
    rw [Nat.cast_zero, EReal.coe_zero]

/-- Entry `(h, ch)` of the spreading matrix, as the third region finds it, is `1` when `ch / 32 = h` and `0`
    otherwise. -/
theorem spread_entry (m : (ℓ : Loc nD τ sig) → Buf (Elt Ideal) ℓ) (ρ : Dev nD → PrngReg) (c : Dev nD) (h : Fin 4) (ch : Fin 128) :
    W7 (F := Ideal) m ρ c (Proc.devRef .tc main_v42) (ix2 h ch) = if ch.val / 32 = h.val then (1 : EReal) else 0 := by
  rw [W7_spread]
  show FloatOps.uitofp (F := Ideal) .f32 (bits (ix2 h ch)) = _
  rw [bits_entry]
  exact uitofp_bit _

/-- The same at any index of the matrix, by its two coordinates. -/
theorem spread_at (m : (ℓ : Loc nD τ sig) → Buf (Elt Ideal) ℓ) (ρ : Dev nD → PrngReg) (c : Dev nD) (j : S4x128.Idx) :
    W7 (F := Ideal) m ρ c (Proc.devRef .tc main_v42) j = if (j 1).val / 32 = (j 0).val then (1 : EReal) else 0 := by
  have hj : j = ix2 (j 0) (j 1) := eq_ix2 j
  exact (congrArg (fun i => W7 (F := Ideal) m ρ c (Proc.devRef .tc main_v42) i) hj).trans (spread_entry m ρ c (j 0) (j 1))

end Cert.KernelIdeal.Spread
-- ==== Proof.LibRowScatter.lean ====
/-
  Gathering rows of an array, and scatter-adding rows into an array, at a column of row numbers, read at an entry.

  `x[idx]` for an array `x` of `N` rows (of `C` numbers each, or of one number) and a column `idx` of `R` row numbers is
  a gather whose row `e` is row `clampRow idx e` of `x`: the row number read as a signed integer and clamped into
  `[0, N - 1]`.  `x.at[idx].add(u)` adds row `e` of `u` to row `idx e` of `x` when that signed number is a row of `x`,
  and drops it when it is not: over the extended reals entry `(n, c)` of the result is entry `(n, c)` of `x` plus the
  sum of `u e c` over the rows `e` whose number is `n`.
-/
import Idealize.ShloMosaic.PureOps.Ideal
import Idealize.ShloMosaic.Lib.ValueIdx

noncomputable section

open scoped BigOperators

namespace Idealize.ShloMosaic.RowScatter

open Idealize.ShloMosaic Idealize.ShloMosaic.ValueIdx

variable {α : Type}

/-! ## Closed facts about the axis lists of rank 1 and rank 2 -/

theorem kept2_0 : (List.finRange 2).filter (fun a : Fin 2 => a ∉ ([0] ++ [] : List (Fin 2))) = [1] := by decide
theorem kept2_0' : (List.finRange 2).filter (fun a : Fin 2 => a ∉ ([0] : List (Fin 2))) = [1] := by decide
theorem kept1_0 : (List.finRange 1).filter (fun a : Fin 1 => a ∉ ([0] ++ [] : List (Fin 1))) = [] := by decide
theorem kept1_0' : (List.finRange 1).filter (fun a : Fin 1 => a ∉ ([0] : List (Fin 1))) = [] := by decide
theorem idxOf_1 : List.idxOf (1 : Fin 2) [1] = 0 := by decide
theorem one_not_mem : (1 : Fin 2) ∉ ([0] : List (Fin 2)) := by decide
theorem zero_not_mem_one : (0 : Fin 2) ∉ ([1] : List (Fin 2)) := by decide

/-- A rank-1 index set is its one coordinate range. -/
def idxEquiv1 {n : Nat} : (⟨1, ![n]⟩ : Shape).Idx ≃ Fin n where
  toFun i := i 0
  invFun a := ix1 a
  left_inv i := (eq_ix1 i).symm
  right_inv _ := rfl

/-- A sum over a rank-1 index set is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-! ## The column of row numbers -/

/-- Entry `e` of a column of `R` row numbers, read as a signed integer. -/
def rowNo {R w : Nat} (idx : IVec ⟨2, ![R, 1]⟩ w) (e : Fin R) : Int := (idx (ix2 e (0 : Fin 1))).toInt

/-- The row a gather reads for entry `e`: its signed number clamped into `[0, N - 1]`. -/
def clampRow {R w : Nat} (N : Nat) (hN : 0 < N) (idx : IVec ⟨2, ![R, 1]⟩ w) (e : Fin R) : Fin N :=
  ⟨min (rowNo idx e).toNat (N - 1), by omega⟩

/-- A signed number that is a row is its own clamp. -/
theorem clampRow_of_rowNo {R w : Nat} (N : Nat) (hN : 0 < N) (idx : IVec ⟨2, ![R, 1]⟩ w) (e : Fin R) (n : Fin N)
    (h : rowNo idx e = (n.val : Int)) : clampRow N hN idx e = n := by
  apply Fin.ext
  show min (rowNo idx e).toNat (N - 1) = n.val
  have := n.isLt
  rw [h]; omega

/-! ## Rows of a rank-2 array gathered -/

/-- The dimension numbers of `x[idx]` for `x : [N, C]`, `idx : [R, 1]`: result `[R, C]`. -/
abbrev gatherRows (N R C : Nat) (wf : GatherDims.WF ⟨2, ![N, C]⟩ ⟨2, ![R, 1]⟩ ⟨2, ![R, C]⟩ [1] [0] [] [0] [] 1 ![1, C]) :
    GatherDims ⟨2, ![N, C]⟩ ⟨2, ![R, 1]⟩ ⟨2, ![R, C]⟩ where
  offsetDims := [1]
  collapsedSliceDims := [0]
  operandBatchingDims := []
  startIndicesBatchingDims := []
  startIndexMap := [0]
  indexVectorDim := 1
  sliceSizes := ![1, C]
  wf := wf

section GatherRows
variable {N R C w : Nat} (wf : GatherDims.WF ⟨2, ![N, C]⟩ ⟨2, ![R, 1]⟩ ⟨2, ![R, C]⟩ [1] [0] [] [0] [] 1 ![1, C])
  (idx : IVec ⟨2, ![R, 1]⟩ w) (e : Fin R) (k : Fin C)

theorem gatherRows_sKept : (gatherRows N R C wf).sKept = [1] := kept2_0

theorem gatherRows_axis0 (hN : 0 < N) :
    (gatherRows N R C wf).start (ix2 e k) idx (0 : Fin 2) + (gatherRows N R C wf).batchCoord (ix2 e k) (0 : Fin 2)
      + (gatherRows N R C wf).offCoord (ix2 e k) (0 : Fin 2) = (clampRow N hN idx e).val := by
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 2) ∈ (gatherRows N R C wf).startIndexMap from List.mem_singleton.mpr rfl)]
  have hsi : (gatherRows N R C wf).siIdx (ix2 e k) ⟨List.idxOf (0 : Fin 2) (gatherRows N R C wf).startIndexMap,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]
  rfl

theorem gatherRows_axis1 :
    (gatherRows N R C wf).start (ix2 e k) idx (1 : Fin 2) + (gatherRows N R C wf).batchCoord (ix2 e k) (1 : Fin 2)
      + (gatherRows N R C wf).offCoord (ix2 e k) (1 : Fin 2) = k.val := by
  rw [GatherDims.batchCoord_eq_zero _ _ _ List.not_mem_nil]
  have hs : (gatherRows N R C wf).start (ix2 e k) idx (1 : Fin 2) = 0 := by
    unfold GatherDims.start
    rw [dif_neg one_not_mem]
  have ho : (gatherRows N R C wf).offCoord (ix2 e k) (1 : Fin 2) = k.val := by
    unfold GatherDims.offCoord
    rw [dif_pos (by rw [gatherRows_sKept]; exact List.mem_singleton.mpr rfl)]
    have h : List.idxOf (1 : Fin 2) (gatherRows N R C wf).sKept = 0 := by rw [gatherRows_sKept]; exact idxOf_1
    simp only [h]
    rfl
  rw [hs, ho]; omega

/-- Row `e` of the gather is row `clampRow idx e` of the operand. -/
theorem gatherRows_apply (hN : 0 < N) (x : (⟨2, ![N, C]⟩ : Shape).Idx → α) :
    Host.gather (gatherRows N R C wf) x idx (ix2 e k) = x (ix2 (clampRow N hN idx e) k) := by
  unfold Host.gather
  congr 1
  funext a
  refine Fin.ext ?_
  revert a
  refine Fin.forall_fin_two.mpr ⟨?_, ?_⟩
  · exact gatherRows_axis0 wf idx e k hN
  · exact gatherRows_axis1 wf idx e k

end GatherRows

/-! ## Entries of a rank-1 array gathered -/

/-- The dimension numbers of `x[idx]` for `x : [N]`, `idx : [R, 1]`: result `[R]`. -/
abbrev gatherCol (N R : Nat) (wf : GatherDims.WF ⟨1, ![N]⟩ ⟨2, ![R, 1]⟩ ⟨1, ![R]⟩ [] [0] [] [0] [] 1 ![1]) :
    GatherDims ⟨1, ![N]⟩ ⟨2, ![R, 1]⟩ ⟨1, ![R]⟩ where
  offsetDims := []
  collapsedSliceDims := [0]
  operandBatchingDims := []
  startIndicesBatchingDims := []
  startIndexMap := [0]
  indexVectorDim := 1
  sliceSizes := ![1]
  wf := wf

/-- Entry `e` of the gather is entry `clampRow idx e` of the operand. -/
theorem gatherCol_apply {N R w : Nat} (hN : 0 < N)
    (wf : GatherDims.WF ⟨1, ![N]⟩ ⟨2, ![R, 1]⟩ ⟨1, ![R]⟩ [] [0] [] [0] [] 1 ![1])
    (x : (⟨1, ![N]⟩ : Shape).Idx → α) (idx : IVec ⟨2, ![R, 1]⟩ w) (e : Fin R) :
    Host.gather (gatherCol N R wf) x idx (ix1 e) = x (ix1 (clampRow N hN idx e)) := by
  unfold Host.gather
  congr 1
  funext a
  obtain rfl : a = 0 := Subsingleton.elim _ _
  refine Fin.ext ?_
  show (gatherCol N R wf).start (ix1 e) idx 0 + (gatherCol N R wf).batchCoord (ix1 e) 0
    + (gatherCol N R wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (gatherCol N R wf).startIndexMap from List.mem_singleton.mpr rfl)]
  have hsi : (gatherCol N R wf).siIdx (ix1 e) ⟨List.idxOf (0 : Fin 1) (gatherCol N R wf).startIndexMap,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]
  rfl

/-! ## Rows scatter-added into a rank-2 array -/

/-- The dimension numbers of `x.at[idx].add(u)` for `x : [N, C]`, `idx : [R, 1]`, `u : [R, C]`. -/
abbrev scatterRows (N R C : Nat) (wf : ScatterDims.WF ⟨2, ![N, C]⟩ ⟨2, ![R, 1]⟩ ⟨2, ![R, C]⟩ [1] [0] [0] 1) :
    ScatterDims ⟨2, ![N, C]⟩ ⟨2, ![R, 1]⟩ ⟨2, ![R, C]⟩ where
  updateWindowDims := [1]
  insertedWindowDims := [0]
  scatterDimsToOperandDims := [0]
  indexVectorDim := 1
  wf := wf

section ScatterRows
variable {N R C w : Nat} (wf : ScatterDims.WF ⟨2, ![N, C]⟩ ⟨2, ![R, 1]⟩ ⟨2, ![R, C]⟩ [1] [0] [0] 1)
  (idx : IVec ⟨2, ![R, 1]⟩ w) (e : Fin R) (k : Fin C)

theorem scatterRows_sKept : (scatterRows N R C wf).sKept = [1] := kept2_0'

theorem scatterRows_axis0 :
    (scatterRows N R C wf).start (ix2 e k) idx (0 : Fin 2) + ((scatterRows N R C wf).window (ix2 e k) (0 : Fin 2) : Int)
      = rowNo idx e := by
  have hw : (scatterRows N R C wf).window (ix2 e k) (0 : Fin 2) = 0 := by
    unfold ScatterDims.window
    rw [dif_neg (by rw [scatterRows_sKept]; exact zero_not_mem_one)]
  have hs : (scatterRows N R C wf).start (ix2 e k) idx (0 : Fin 2) = rowNo idx e := by
    unfold ScatterDims.start
    rw [dif_pos (show (0 : Fin 2) ∈ (scatterRows N R C wf).scatterDimsToOperandDims from List.mem_singleton.mpr rfl)]
    have hsi : (scatterRows N R C wf).siIdx (ix2 e k)
        ⟨List.idxOf (0 : Fin 2) (scatterRows N R C wf).scatterDimsToOperandDims,
          List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  rw [hs, hw]; simp

theorem scatterRows_axis1 :
    (scatterRows N R C wf).start (ix2 e k) idx (1 : Fin 2) + ((scatterRows N R C wf).window (ix2 e k) (1 : Fin 2) : Int)
      = (k.val : Int) := by
  have hs : (scatterRows N R C wf).start (ix2 e k) idx (1 : Fin 2) = 0 := by
    unfold ScatterDims.start
    rw [dif_neg one_not_mem]
  have hw : (scatterRows N R C wf).window (ix2 e k) (1 : Fin 2) = k.val := by
    unfold ScatterDims.window
    rw [dif_pos (by rw [scatterRows_sKept]; exact List.mem_singleton.mpr rfl)]
    have h : List.idxOf (1 : Fin 2) (scatterRows N R C wf).sKept = 0 := by rw [scatterRows_sKept]; exact idxOf_1
    simp only [h]
    rfl
  rw [hs, hw]; simp

/-- Update `(e, k)` lands on entry `(n, c)` exactly when row `e`'s signed number is `n` and `k = c`. -/
theorem scatterRows_resultIdx (n : Fin N) (c : Fin C) :
    (scatterRows N R C wf).resultIdx? (ix2 e k) idx = some (ix2 n c) ↔ rowNo idx e = (n.val : Int) ∧ k = c := by
  have h0 := scatterRows_axis0 wf idx e k
  have h1 := scatterRows_axis1 wf idx e k
  unfold ScatterDims.resultIdx?
  split
  · rename_i h
    rw [Option.some.injEq]
    constructor
    · intro hi
      have e0 := congrArg Fin.val (congrFun hi (0 : Fin 2))
      have e1 := congrArg Fin.val (congrFun hi (1 : Fin 2))
      have p0 := (h (0 : Fin 2)).1
      refine ⟨?_, Fin.ext ?_⟩
      · have e0' : ((scatterRows N R C wf).start (ix2 e k) idx (0 : Fin 2)
            + ((scatterRows N R C wf).window (ix2 e k) (0 : Fin 2) : Int)).toNat = n.val := e0
        rw [h0] at e0' p0
        omega
      · have e1' : ((scatterRows N R C wf).start (ix2 e k) idx (1 : Fin 2)
            + ((scatterRows N R C wf).window (ix2 e k) (1 : Fin 2) : Int)).toNat = c.val := e1
        rw [h1] at e1'
        omega
    · rintro ⟨hr, rfl⟩
      funext a
      refine Fin.ext ?_
      revert a
      refine Fin.forall_fin_two.mpr ⟨?_, ?_⟩
      · show ((scatterRows N R C wf).start (ix2 e k) idx (0 : Fin 2)
            + ((scatterRows N R C wf).window (ix2 e k) (0 : Fin 2) : Int)).toNat = n.val
        rw [h0, hr]; simp
      · show ((scatterRows N R C wf).start (ix2 e k) idx (1 : Fin 2)
            + ((scatterRows N R C wf).window (ix2 e k) (1 : Fin 2) : Int)).toNat = k.val
        rw [h1]; simp
  · rename_i h
    constructor
    · intro hi; exact absurd hi (by simp)
    · rintro ⟨hr, rfl⟩
      exfalso
      apply h
      refine Fin.forall_fin_two.mpr ⟨?_, ?_⟩
      · show 0 ≤ (scatterRows N R C wf).start (ix2 e k) idx (0 : Fin 2)
            + ((scatterRows N R C wf).window (ix2 e k) (0 : Fin 2) : Int)
          ∧ (scatterRows N R C wf).start (ix2 e k) idx (0 : Fin 2)
            + ((scatterRows N R C wf).window (ix2 e k) (0 : Fin 2) : Int) < (N : Int)
        rw [h0, hr]
        have := n.isLt
        constructor <;> omega
      · show 0 ≤ (scatterRows N R C wf).start (ix2 e k) idx (1 : Fin 2)
            + ((scatterRows N R C wf).window (ix2 e k) (1 : Fin 2) : Int)
          ∧ (scatterRows N R C wf).start (ix2 e k) idx (1 : Fin 2)
            + ((scatterRows N R C wf).window (ix2 e k) (1 : Fin 2) : Int) < (C : Int)
        rw [h1]
        have := k.isLt
        constructor <;> omega

end ScatterRows

/-- Over the extended reals, entry `(n, c)` after the scatter-add is the entry before plus the sum of `u e c` over
    the rows `e` whose signed number is `n`. -/
theorem scatterAddRows_apply {N R C w : Nat} (wf : ScatterDims.WF ⟨2, ![N, C]⟩ ⟨2, ![R, 1]⟩ ⟨2, ![R, C]⟩ [1] [0] [0] 1)
    (x : (⟨2, ![N, C]⟩ : Shape).Idx → EReal) (idx : IVec ⟨2, ![R, 1]⟩ w) (u : (⟨2, ![R, C]⟩ : Shape).Idx → EReal)
    (n : Fin N) (c : Fin C) :
    Ideal.hostScatterAdd (scatterRows N R C wf) x idx u (ix2 n c)
      = x (ix2 n c) + ∑ e ∈ Finset.univ.filter (fun e : Fin R => rowNo idx e = (n.val : Int)), u (ix2 e c) := by
  unfold Ideal.hostScatterAdd
  congr 1
  rw [Finset.sum_filter, sum_idx2, Finset.sum_filter]
  refine Finset.sum_congr rfl fun e _ => ?_
  simp only [scatterRows_resultIdx]
  by_cases h : rowNo idx e = (n.val : Int)
  · simp [h]
  · simp [h]

/-- The same for the host operation at the ideal values, whose meaning that sum is. -/
theorem hostScatterAddRows_apply {φ : FTy} {N R C w : Nat}
    (wf : ScatterDims.WF ⟨2, ![N, C]⟩ ⟨2, ![R, 1]⟩ ⟨2, ![R, C]⟩ [1] [0] [0] 1)
    (x : FVec Ideal ⟨2, ![N, C]⟩ φ) (idx : IVec ⟨2, ![R, 1]⟩ w) (u : FVec Ideal ⟨2, ![R, C]⟩ φ) (n : Fin N) (c : Fin C) :
    Host.scatterAdd (scatterRows N R C wf) x idx u (ix2 n c)
      = x (ix2 n c) + ∑ e ∈ Finset.univ.filter (fun e : Fin R => rowNo idx e = (n.val : Int)), u (ix2 e c) :=
  scatterAddRows_apply wf x idx u n c

/-! ## Entries scatter-added into a rank-1 array -/

/-- The dimension numbers of `x.at[idx].add(u)` for `x : [N]`, `idx : [R, 1]`, `u : [R]`. -/
abbrev scatterCol (N R : Nat) (wf : ScatterDims.WF ⟨1, ![N]⟩ ⟨2, ![R, 1]⟩ ⟨1, ![R]⟩ [] [0] [0] 1) :
    ScatterDims ⟨1, ![N]⟩ ⟨2, ![R, 1]⟩ ⟨1, ![R]⟩ where
  updateWindowDims := []
  insertedWindowDims := [0]
  scatterDimsToOperandDims := [0]
  indexVectorDim := 1
  wf := wf

section ScatterCol
variable {N R w : Nat} (wf : ScatterDims.WF ⟨1, ![N]⟩ ⟨2, ![R, 1]⟩ ⟨1, ![R]⟩ [] [0] [0] 1)
  (idx : IVec ⟨2, ![R, 1]⟩ w) (e : Fin R)

theorem scatterCol_axis0 :
    (scatterCol N R wf).start (ix1 e) idx (0 : Fin 1) + ((scatterCol N R wf).window (ix1 e) (0 : Fin 1) : Int)
      = rowNo idx e := by
  have hw : (scatterCol N R wf).window (ix1 e) (0 : Fin 1) = 0 := by
    unfold ScatterDims.window
    rw [dif_neg (by rw [show (scatterCol N R wf).sKept = [] from kept1_0']; exact List.not_mem_nil)]
  have hs : (scatterCol N R wf).start (ix1 e) idx (0 : Fin 1) = rowNo idx e := by
    unfold ScatterDims.start
    rw [dif_pos (show (0 : Fin 1) ∈ (scatterCol N R wf).scatterDimsToOperandDims from List.mem_singleton.mpr rfl)]
    have hsi : (scatterCol N R wf).siIdx (ix1 e)
        ⟨List.idxOf (0 : Fin 1) (scatterCol N R wf).scatterDimsToOperandDims,
          List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  rw [hs, hw]; simp

/-- Update `e` lands on entry `n` exactly when its signed number is `n`. -/
theorem scatterCol_resultIdx (n : Fin N) :
    (scatterCol N R wf).resultIdx? (ix1 e) idx = some (ix1 n) ↔ rowNo idx e = (n.val : Int) := by
  have h0 := scatterCol_axis0 wf idx e
  unfold ScatterDims.resultIdx?
  split
  · rename_i h
    rw [Option.some.injEq]
    constructor
    · intro hi
      have e0 : ((scatterCol N R wf).start (ix1 e) idx (0 : Fin 1)
          + ((scatterCol N R wf).window (ix1 e) (0 : Fin 1) : Int)).toNat = n.val :=
        congrArg Fin.val (congrFun hi (0 : Fin 1))
      have p0 := (h (0 : Fin 1)).1
      rw [h0] at e0 p0
      omega
    · intro hr
      funext a
      obtain rfl : a = 0 := Subsingleton.elim _ _
      refine Fin.ext ?_
      show ((scatterCol N R wf).start (ix1 e) idx (0 : Fin 1)
          + ((scatterCol N R wf).window (ix1 e) (0 : Fin 1) : Int)).toNat = n.val
      rw [h0, hr]; simp
  · rename_i h
    constructor
    · intro hi; exact absurd hi (by simp)
    · intro hr
      exfalso
      apply h
      intro a
      obtain rfl : a = 0 := Subsingleton.elim _ _
      show 0 ≤ (scatterCol N R wf).start (ix1 e) idx (0 : Fin 1)
          + ((scatterCol N R wf).window (ix1 e) (0 : Fin 1) : Int)
        ∧ (scatterCol N R wf).start (ix1 e) idx (0 : Fin 1)
          + ((scatterCol N R wf).window (ix1 e) (0 : Fin 1) : Int) < (N : Int)
      rw [h0, hr]
      have := n.isLt
      constructor <;> omega

end ScatterCol

/-- Over the extended reals, entry `n` after the scatter-add is the entry before plus the sum of `u e` over the
    entries `e` whose signed number is `n`. -/
theorem scatterAddCol_apply {N R w : Nat} (wf : ScatterDims.WF ⟨1, ![N]⟩ ⟨2, ![R, 1]⟩ ⟨1, ![R]⟩ [] [0] [0] 1)
    (x : (⟨1, ![N]⟩ : Shape).Idx → EReal) (idx : IVec ⟨2, ![R, 1]⟩ w) (u : (⟨1, ![R]⟩ : Shape).Idx → EReal) (n : Fin N) :
    Ideal.hostScatterAdd (scatterCol N R wf) x idx u (ix1 n)
      = x (ix1 n) + ∑ e ∈ Finset.univ.filter (fun e : Fin R => rowNo idx e = (n.val : Int)), u (ix1 e) := by
  unfold Ideal.hostScatterAdd
  congr 1
  rw [Finset.sum_filter, sum_idx1, Finset.sum_filter]
  refine Finset.sum_congr rfl fun e _ => ?_
  simp only [scatterCol_resultIdx]

end Idealize.ShloMosaic.RowScatter

end
-- ==== Proof.LibRowScatter3.lean ====
/-
  Scatter-adding slabs into a rank-3 array at a column of row numbers, read at an entry.

  `x.at[idx].add(u)` for an array `x` of `N` slabs (of `A × B` numbers each), a column `idx` of `R` row numbers and an array
  `u` of `R` slabs adds slab `e` of `u` to slab `idx e` of `x` when that signed number is a slab of `x`, and drops it when it
  is not: over the extended reals entry `(n, a, b)` of the result is entry `(n, a, b)` of `x` plus the sum of `u e a b` over
  the slabs `e` whose number is `n`.
-/
import proofs.«109523_j20693152432941_1_alg».proof.Proof.LibRowScatter

noncomputable section

open scoped BigOperators

namespace Idealize.ShloMosaic.RowScatter

open Idealize.ShloMosaic Idealize.ShloMosaic.ValueIdx

/-! ## Closed facts about the axis lists of rank 3 -/

/-- The axes of a rank-3 array other than the first are the second and the third, in order. -/
theorem kept3_0 : (List.finRange 3).filter (fun a : Fin 3 => a ∉ ([0] : List (Fin 3))) = [1, 2] := by decide
/-- The second axis is the first of the list "second, third". -/
theorem idxOf3_1 : List.idxOf (1 : Fin 3) [1, 2] = 0 := by decide
/-- The third axis is the second of the list "second, third". -/
theorem idxOf3_2 : List.idxOf (2 : Fin 3) [1, 2] = 1 := by decide
/-- The second axis is not the first. -/
theorem one_not_mem3 : (1 : Fin 3) ∉ ([0] : List (Fin 3)) := by decide
/-- The third axis is not the first. -/
theorem two_not_mem3 : (2 : Fin 3) ∉ ([0] : List (Fin 3)) := by decide
/-- The first axis is neither the second nor the third. -/
theorem zero_not_mem_12 : (0 : Fin 3) ∉ ([1, 2] : List (Fin 3)) := by decide
/-- The second axis is in the list "second, third". -/
theorem one_mem_12 : (1 : Fin 3) ∈ ([1, 2] : List (Fin 3)) := by decide
/-- The third axis is in the list "second, third". -/
theorem two_mem_12 : (2 : Fin 3) ∈ ([1, 2] : List (Fin 3)) := by decide

/-- A statement about every one of three axes is the three statements about each. -/
theorem forall_fin3 {p : Fin 3 → Prop} : (∀ a, p a) ↔ p 0 ∧ p 1 ∧ p 2 :=
  ⟨fun h => ⟨h 0, h 1, h 2⟩, fun h a => by
    match a with
    | ⟨0, _⟩ => exact h.1
    | ⟨1, _⟩ => exact h.2.1
    | ⟨2, _⟩ => exact h.2.2⟩

/-- A rank-3 index set is the product of its three coordinate ranges. -/
def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- A sum over a rank-3 index set is the triple sum over the coordinates. -/
theorem sum_idx3 {M : Type*} [AddCommMonoid M] {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

/-! ## Slabs scatter-added into a rank-3 array -/

/-- The dimension numbers of `x.at[idx].add(u)` for `x : [N, A, B]`, `idx : [R, 1]`, `u : [R, A, B]`. -/
abbrev scatterRows3 (N R A B : Nat)
    (wf : ScatterDims.WF ⟨3, ![N, A, B]⟩ ⟨2, ![R, 1]⟩ ⟨3, ![R, A, B]⟩ [1, 2] [0] [0] 1) :
    ScatterDims ⟨3, ![N, A, B]⟩ ⟨2, ![R, 1]⟩ ⟨3, ![R, A, B]⟩ where
  updateWindowDims := [1, 2]
  insertedWindowDims := [0]
  scatterDimsToOperandDims := [0]
  indexVectorDim := 1
  wf := wf

section ScatterRows3
variable {N R A B w : Nat} (wf : ScatterDims.WF ⟨3, ![N, A, B]⟩ ⟨2, ![R, 1]⟩ ⟨3, ![R, A, B]⟩ [1, 2] [0] [0] 1)
  (idx : IVec ⟨2, ![R, 1]⟩ w) (e : Fin R) (k : Fin A) (l : Fin B)

/-- The operand's axes that receive the window are the second and the third. -/
theorem scatterRows3_sKept : (scatterRows3 N R A B wf).sKept = [1, 2] := kept3_0

/-- On the first axis update `(e, k, l)` lands at slab `e`'s signed number. -/
theorem scatterRows3_axis0 :
    (scatterRows3 N R A B wf).start (ix3 e k l) idx (0 : Fin 3)
      + ((scatterRows3 N R A B wf).window (ix3 e k l) (0 : Fin 3) : Int) = rowNo idx e := by
  have hw : (scatterRows3 N R A B wf).window (ix3 e k l) (0 : Fin 3) = 0 := by
    unfold ScatterDims.window
    rw [dif_neg (by rw [scatterRows3_sKept]; exact zero_not_mem_12)]
  have hs : (scatterRows3 N R A B wf).start (ix3 e k l) idx (0 : Fin 3) = rowNo idx e := by
    unfold ScatterDims.start
    rw [dif_pos (show (0 : Fin 3) ∈ (scatterRows3 N R A B wf).scatterDimsToOperandDims from List.mem_singleton.mpr rfl)]
    have hsi : (scatterRows3 N R A B wf).siIdx (ix3 e k l)
        ⟨List.idxOf (0 : Fin 3) (scatterRows3 N R A B wf).scatterDimsToOperandDims,
          List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  rw [hs, hw]; simp

/-- On the second axis update `(e, k, l)` lands at `k`. -/
theorem scatterRows3_axis1 :
    (scatterRows3 N R A B wf).start (ix3 e k l) idx (1 : Fin 3)
      + ((scatterRows3 N R A B wf).window (ix3 e k l) (1 : Fin 3) : Int) = (k.val : Int) := by
  have hs : (scatterRows3 N R A B wf).start (ix3 e k l) idx (1 : Fin 3) = 0 := by
    unfold ScatterDims.start
    rw [dif_neg one_not_mem3]
  have hw : (scatterRows3 N R A B wf).window (ix3 e k l) (1 : Fin 3) = k.val := by
    unfold ScatterDims.window
    rw [dif_pos (by rw [scatterRows3_sKept]; exact one_mem_12)]
    have h : List.idxOf (1 : Fin 3) (scatterRows3 N R A B wf).sKept = 0 := by rw [scatterRows3_sKept]; exact idxOf3_1
    simp only [h]
    rfl
  rw [hs, hw]; simp

/-- On the third axis update `(e, k, l)` lands at `l`. -/
theorem scatterRows3_axis2 :
    (scatterRows3 N R A B wf).start (ix3 e k l) idx (2 : Fin 3)
      + ((scatterRows3 N R A B wf).window (ix3 e k l) (2 : Fin 3) : Int) = (l.val : Int) := by
  have hs : (scatterRows3 N R A B wf).start (ix3 e k l) idx (2 : Fin 3) = 0 := by
    unfold ScatterDims.start
    rw [dif_neg two_not_mem3]
  have hw : (scatterRows3 N R A B wf).window (ix3 e k l) (2 : Fin 3) = l.val := by
    unfold ScatterDims.window
    rw [dif_pos (by rw [scatterRows3_sKept]; exact two_mem_12)]
    have h : List.idxOf (2 : Fin 3) (scatterRows3 N R A B wf).sKept = 1 := by rw [scatterRows3_sKept]; exact idxOf3_2
    simp only [h]
    rfl
  rw [hs, hw]; simp

/-- Update `(e, k, l)` lands on entry `(n, a, b)` exactly when slab `e`'s signed number is `n`, `k = a` and `l = b`. -/
theorem scatterRows3_resultIdx (n : Fin N) (a : Fin A) (b : Fin B) :
    (scatterRows3 N R A B wf).resultIdx? (ix3 e k l) idx = some (ix3 n a b)
      ↔ rowNo idx e = (n.val : Int) ∧ k = a ∧ l = b := by
  have h0 := scatterRows3_axis0 wf idx e k l
  have h1 := scatterRows3_axis1 wf idx e k l
  have h2 := scatterRows3_axis2 wf idx e k l
  unfold ScatterDims.resultIdx?
  split
  · rename_i h
    rw [Option.some.injEq]
    constructor
    · intro hi
      have e0 := congrArg Fin.val (congrFun hi (0 : Fin 3))
      have e1 := congrArg Fin.val (congrFun hi (1 : Fin 3))
      have e2 := congrArg Fin.val (congrFun hi (2 : Fin 3))
      have p0 := (h (0 : Fin 3)).1
      refine ⟨?_, Fin.ext ?_, Fin.ext ?_⟩
      · have e0' : ((scatterRows3 N R A B wf).start (ix3 e k l) idx (0 : Fin 3)
            + ((scatterRows3 N R A B wf).window (ix3 e k l) (0 : Fin 3) : Int)).toNat = n.val := e0
        rw [h0] at e0' p0
        omega
      · have e1' : ((scatterRows3 N R A B wf).start (ix3 e k l) idx (1 : Fin 3)
            + ((scatterRows3 N R A B wf).window (ix3 e k l) (1 : Fin 3) : Int)).toNat = a.val := e1
        rw [h1] at e1'
        omega
      · have e2' : ((scatterRows3 N R A B wf).start (ix3 e k l) idx (2 : Fin 3)
            + ((scatterRows3 N R A B wf).window (ix3 e k l) (2 : Fin 3) : Int)).toNat = b.val := e2
        rw [h2] at e2'
        omega
    · rintro ⟨hr, rfl, rfl⟩
      funext c
      refine Fin.ext ?_
      revert c
      refine forall_fin3.mpr ⟨?_, ?_, ?_⟩
      · show ((scatterRows3 N R A B wf).start (ix3 e k l) idx (0 : Fin 3)
            + ((scatterRows3 N R A B wf).window (ix3 e k l) (0 : Fin 3) : Int)).toNat = n.val
        rw [h0, hr]; simp
      · show ((scatterRows3 N R A B wf).start (ix3 e k l) idx (1 : Fin 3)
            + ((scatterRows3 N R A B wf).window (ix3 e k l) (1 : Fin 3) : Int)).toNat = k.val
        rw [h1]; simp
      · show ((scatterRows3 N R A B wf).start (ix3 e k l) idx (2 : Fin 3)
            + ((scatterRows3 N R A B wf).window (ix3 e k l) (2 : Fin 3) : Int)).toNat = l.val
        rw [h2]; simp
  · rename_i h
    constructor
    · intro hi; exact absurd hi (by simp)
    · rintro ⟨hr, rfl, rfl⟩
      exfalso
      apply h
      refine forall_fin3.mpr ⟨?_, ?_, ?_⟩
      · show 0 ≤ (scatterRows3 N R A B wf).start (ix3 e k l) idx (0 : Fin 3)
            + ((scatterRows3 N R A B wf).window (ix3 e k l) (0 : Fin 3) : Int)
          ∧ (scatterRows3 N R A B wf).start (ix3 e k l) idx (0 : Fin 3)
            + ((scatterRows3 N R A B wf).window (ix3 e k l) (0 : Fin 3) : Int) < (N : Int)
        rw [h0, hr]
        have := n.isLt
        constructor <;> omega
      · show 0 ≤ (scatterRows3 N R A B wf).start (ix3 e k l) idx (1 : Fin 3)
            + ((scatterRows3 N R A B wf).window (ix3 e k l) (1 : Fin 3) : Int)
          ∧ (scatterRows3 N R A B wf).start (ix3 e k l) idx (1 : Fin 3)
            + ((scatterRows3 N R A B wf).window (ix3 e k l) (1 : Fin 3) : Int) < (A : Int)
        rw [h1]
        have := k.isLt
        constructor <;> omega
      · show 0 ≤ (scatterRows3 N R A B wf).start (ix3 e k l) idx (2 : Fin 3)
            + ((scatterRows3 N R A B wf).window (ix3 e k l) (2 : Fin 3) : Int)
          ∧ (scatterRows3 N R A B wf).start (ix3 e k l) idx (2 : Fin 3)
            + ((scatterRows3 N R A B wf).window (ix3 e k l) (2 : Fin 3) : Int) < (B : Int)
        rw [h2]
        have := l.isLt
        constructor <;> omega

end ScatterRows3

/-- Over the extended reals, entry `(n, a, b)` after the scatter-add is the entry before plus the sum of `u e a b` over
    the slabs `e` whose signed number is `n`. -/
theorem scatterAddRows3_apply {N R A B w : Nat}
    (wf : ScatterDims.WF ⟨3, ![N, A, B]⟩ ⟨2, ![R, 1]⟩ ⟨3, ![R, A, B]⟩ [1, 2] [0] [0] 1)
    (x : (⟨3, ![N, A, B]⟩ : Shape).Idx → EReal) (idx : IVec ⟨2, ![R, 1]⟩ w)
    (u : (⟨3, ![R, A, B]⟩ : Shape).Idx → EReal) (n : Fin N) (a : Fin A) (b : Fin B) :
    Ideal.hostScatterAdd (scatterRows3 N R A B wf) x idx u (ix3 n a b)
      = x (ix3 n a b) + ∑ e ∈ Finset.univ.filter (fun e : Fin R => rowNo idx e = (n.val : Int)), u (ix3 e a b) := by
  unfold Ideal.hostScatterAdd
  congr 1
  rw [Finset.sum_filter, sum_idx3, Finset.sum_filter]
  refine Finset.sum_congr rfl fun e _ => ?_
  simp only [scatterRows3_resultIdx]
  by_cases h : rowNo idx e = (n.val : Int)
  · simp only [h, true_and, if_true]
    rw [Finset.sum_eq_single a, Finset.sum_eq_single b]
    · simp
    · intro l _ hl; simp [hl]
    · intro hb; exact absurd (Finset.mem_univ b) hb
    · intro k _ hk; simp [hk]
    · intro ha; exact absurd (Finset.mem_univ a) ha
  · simp [h]

/-- The same for the host operation at the ideal values, whose meaning that sum is. -/
theorem hostScatterAddRows3_apply {φ : FTy} {N R A B w : Nat}
    (wf : ScatterDims.WF ⟨3, ![N, A, B]⟩ ⟨2, ![R, 1]⟩ ⟨3, ![R, A, B]⟩ [1, 2] [0] [0] 1)
    (x : FVec Ideal ⟨3, ![N, A, B]⟩ φ) (idx : IVec ⟨2, ![R, 1]⟩ w) (u : FVec Ideal ⟨3, ![R, A, B]⟩ φ)
    (n : Fin N) (a : Fin A) (b : Fin B) :
    Host.scatterAdd (scatterRows3 N R A B wf) x idx u (ix3 n a b)
      = x (ix3 n a b) + ∑ e ∈ Finset.univ.filter (fun e : Fin R => rowNo idx e = (n.val : Int)), u (ix3 e a b) :=
  scatterAddRows3_apply wf x idx u n a b

end Idealize.ShloMosaic.RowScatter

end
-- ==== Proof.RefScatter.lean ====
/-
  The reference's two scatter-adds, read at an entry.

  The reference adds, for every edge `e` of 800000, slab `e` of a 800000 × 4 × 32 array to the slab of a 50000 × 4 × 32
  array that the edge's row number names (and likewise row `e` of a 800000 × 4 array into a 50000 × 4 array).  Its
  dimension numbers are the generic ones of slabs (rows) scatter-added at a column of row numbers, so over the extended
  reals entry `(n, a, b)` of the result is entry `(n, a, b)` of the array before plus the sum of `u e a b` over the edges
  `e` whose signed row number is `n`.
-/
import proofs.«109523_j20693152432941_1_alg».proof.ReferenceIdeal
import proofs.«109523_j20693152432941_1_alg».proof.Proof.LibRowScatter3

noncomputable section

open scoped BigOperators

namespace Cert.ReferenceIdeal.Scatter

open Idealize.ShloMosaic Idealize.ShloMosaic.ValueIdx Idealize.ShloMosaic.RowScatter

variable [Facts₀]

/-- The dimension numbers of the reference's scatter into the 50000 × 4 × 32 array are the generic ones of slabs
    scatter-added at a column of row numbers. -/
theorem rec_eq :
    scatter_S50000x4x32_S800000x1_S800000x4x32_12_0_0_1
      = scatterRows3 50000 800000 4 32 scatter_S50000x4x32_S800000x1_S800000x4x32_12_0_0_1.wf := rfl

/-- Entry `(n, a, b)` after the reference's scatter-add into the 50000 × 4 × 32 array is the entry before plus the sum
    of `u e a b` over the edges `e` whose signed row number is `n`. -/
theorem scatter3_entry (x : FVec Ideal S50000x4x32 .f32) (idx : IVec S800000x1 32) (u : FVec Ideal S800000x4x32 .f32)
    (n : Fin 50000) (a : Fin 4) (b : Fin 32) :
    Host.scatterAdd scatter_S50000x4x32_S800000x1_S800000x4x32_12_0_0_1 x idx u (ix3 n a b)
      = x (ix3 n a b)
        + ∑ e ∈ Finset.univ.filter (fun e : Fin 800000 => rowNo idx e = (n.val : Int)), u (ix3 e a b) := by
  rw [rec_eq]
  exact hostScatterAddRows3_apply _ x idx u n a b

/-- The dimension numbers of the reference's scatter into the 50000 × 4 array are the generic ones of rows
    scatter-added at a column of row numbers. -/
theorem rec2_eq :
    scatter_S50000x4_S800000x1_S800000x4_1_0_0_1
      = scatterRows 50000 800000 4 scatter_S50000x4_S800000x1_S800000x4_1_0_0_1.wf := rfl

/-- Entry `(n, c)` after the reference's scatter-add into the 50000 × 4 array is the entry before plus the sum of
    `u e c` over the edges `e` whose signed row number is `n`. -/
theorem scatter2_entry (x : FVec Ideal S50000x4 .f32) (idx : IVec S800000x1 32) (u : FVec Ideal S800000x4 .f32)
    (n : Fin 50000) (c : Fin 4) :
    Host.scatterAdd scatter_S50000x4_S800000x1_S800000x4_1_0_0_1 x idx u (ix2 n c)
      = x (ix2 n c) + ∑ e ∈ Finset.univ.filter (fun e : Fin 800000 => rowNo idx e = (n.val : Int)), u (ix2 e c) := by
  rw [rec2_eq]
  exact hostScatterAddRows_apply _ x idx u n c

end Cert.ReferenceIdeal.Scatter

end
-- ==== Proof.KerScatter.lean ====
/-
  The kernel program's two host scatter-adds, read at an entry.

  The program adds, for every edge `e` of 800000, row `e` of a 800000 × 128 array to the row of a 50000 × 128 array
  that the edge's row number names (and likewise row `e` of a 800000 × 4 array into a 50000 × 4 array).  Its dimension
  numbers are the generic ones of rows scatter-added at a column of row numbers, so over the extended reals entry
  `(n, c)` of the result is entry `(n, c)` of the array before plus the sum of `u e c` over the edges `e` whose signed row
  number is `n`.
-/
import proofs.«109523_j20693152432941_1_alg».proof.KernelIdeal
import proofs.«109523_j20693152432941_1_alg».proof.Proof.LibRowScatter

noncomputable section

open scoped BigOperators

namespace Cert.KernelIdeal.Scatter

open Idealize.ShloMosaic Idealize.ShloMosaic.ValueIdx Idealize.ShloMosaic.RowScatter

variable [Facts₀]

/-- The dimension numbers of the program's scatter into the 50000 × 128 array are the generic ones of rows
    scatter-added at a column of row numbers. -/
theorem rec_eq :
    scatter_S50000x128_S800000x1_S800000x128_1_0_0_1
      = scatterRows 50000 800000 128 scatter_S50000x128_S800000x1_S800000x128_1_0_0_1.wf := rfl

/-- Entry `(n, c)` after the program's scatter-add into the 50000 × 128 array is the entry before plus the sum of
    `u e c` over the edges `e` whose signed row number is `n`. -/
theorem scatter_entry (x : FVec Ideal S50000x128 .f32) (idx : IVec S800000x1 32) (u : FVec Ideal S800000x128 .f32)
    (n : Fin 50000) (c : Fin 128) :
    Host.scatterAdd scatter_S50000x128_S800000x1_S800000x128_1_0_0_1 x idx u (ix2 n c)
      = x (ix2 n c) + ∑ e ∈ Finset.univ.filter (fun e : Fin 800000 => rowNo idx e = (n.val : Int)), u (ix2 e c) := by
  rw [rec_eq]
  exact hostScatterAddRows_apply _ x idx u n c

/-- The dimension numbers of the program's scatter into the 50000 × 4 array are the generic ones of rows
    scatter-added at a column of row numbers. -/
theorem rec4_eq :
    scatter_S50000x4_S800000x1_S800000x4_1_0_0_1
      = scatterRows 50000 800000 4 scatter_S50000x4_S800000x1_S800000x4_1_0_0_1.wf := rfl

/-- Entry `(n, c)` after the program's scatter-add into the 50000 × 4 array is the entry before plus the sum of
    `u e c` over the edges `e` whose signed row number is `n`. -/
theorem scatter4_entry (x : FVec Ideal S50000x4 .f32) (idx : IVec S800000x1 32) (u : FVec Ideal S800000x4 .f32)
    (n : Fin 50000) (c : Fin 4) :
    Host.scatterAdd scatter_S50000x4_S800000x1_S800000x4_1_0_0_1 x idx u (ix2 n c)
      = x (ix2 n c) + ∑ e ∈ Finset.univ.filter (fun e : Fin 800000 => rowNo idx e = (n.val : Int)), u (ix2 e c) := by
  rw [rec4_eq]
  exact hostScatterAddRows_apply _ x idx u n c

end Cert.KernelIdeal.Scatter

end
-- ==== Proof.MsgLayout.lean ====
/-
  The message stage read entry by entry.

  A reshape keeps the row-major position, so splitting the 128 channels of a row into 4 heads of 32 sends channel
  32·h + d to (h, d), and merging them back sends (ch / 32, ch % 32) to ch. A broadcast along a new trailing axis
  repeats the value. With these the weighted message of an edge at (h, d) is the gathered feature at channel
  32·h + d times the normalised weight of head h; and a sum over heads against a 0/1 row that is 1 exactly at one
  head picks that head's term, so spreading the weights over the channels by the matrix that is 1 where
  ch / 32 = h gives the same message at channel ch.
-/
import proofs.«109523_j20693152432941_1_alg».proof.ReferenceIdeal
import proofs.«109523_j20693152432941_1_alg».proof.Proof.GatSpec
import Idealize.ShloMosaic.Lib.ValueIdx
import Idealize.ShloMosaic.Lib.Pipeline.Value
import Idealize.ShloMosaic.Lib.ValueLayout

noncomputable section

open Idealize.ShloMosaic Idealize.ShloMosaic.ValueIdx

namespace Cert.ReferenceIdeal.MsgLayout

open Cert.ReferenceIdeal Cert.ReferenceIdeal.Facts₀

/-- A sum over the four heads against a row that is 1 at head q and 0 elsewhere is the term of head q
    (1 and 0 are multiplicative unit and zero for every extended real, the infinities included). -/
theorem spread_pick (w : Fin 4 → EReal) (ex : Fin 4 → EReal) (q : Fin 4) (hex : ∀ h, ex h = if q = h then 1 else 0) :
    ∑ h : Fin 4, w h * ex h = w q := by
  rw [Finset.sum_eq_single q]
  · rw [hex q, if_pos rfl, mul_one]
  · intro b _ hb
    rw [hex b, if_neg (Ne.symm hb), mul_zero]
  · intro hq
    exact absurd (Finset.mem_univ q) hq

/-- Spreading the weights over the channels by the 0/1 matrix that is 1 where ch / 32 = h gives, at channel ch,
    the message of head ch / 32 at that head's channel ch % 32. -/
theorem spread_entry (gs : GatSpec.SExD.Idx → EReal) (ae de : GatSpec.SExH.Idx → EReal) (ex : GatSpec.SHxD.Idx → EReal)
    (hex : ∀ (h : Fin 4) (ch : Fin 128), ex (ix2 h ch) = if ch.val / 32 = h.val then (1 : EReal) else 0)
    (e : Fin 800000) (ch : Fin 128) :
    GatSpec.msgSpread gs ae de ex e ch
      = GatSpec.msgHead gs ae de e ⟨ch.val / 32, by omega⟩ ⟨ch.val % 32, by omega⟩ := by
  unfold GatSpec.msgSpread GatSpec.msgHead
  rw [spread_pick (fun h => GatSpec.anorm ae de e h) (fun h => ex (ix2 h ch)) ⟨ch.val / 32, by omega⟩
    (fun h => by
      rw [hex h ch]
      refine if_congr ⟨fun hh => Fin.ext hh, fun hh => congrArg Fin.val hh⟩ rfl rfl)]
  refine congrArg (fun c => gs (ix2 e c) * _) (Fin.ext ?_)
  show ch.val = 32 * (ch.val / 32) + ch.val % 32
  omega

variable [Cert.ReferenceIdeal.Facts₀]

/-- Splitting the channels into heads keeps the row-major position 128·e + 32·h + d. -/
theorem split_entry (gs : FVec Ideal S800000x128 .f32) (e : Fin 800000) (h : Fin 4) (d : Fin 32) :
    shapeCast S800000x4x32 gs shapeCasts_S800000x128_S800000x4x32 (ix3 e h d)
      = gs (ix2 e ⟨32 * h.val + d.val, by omega⟩) :=
  shapeCast_apply gs _ _ _ (by
    rw [Shape.rowMajor_val_two, Shape.rowMajor_val_three]
    show e.val * 128 + (32 * h.val + d.val) = (e.val * 4 + h.val) * 32 + d.val
    omega)

/-- The weights broadcast along a new trailing axis and then along the head's 32 channels repeat the weight of (e, h). -/
theorem weight_entry (an : FVec Ideal S800000x4 .f32) (e : Fin 800000) (h : Fin 4) (d : Fin 32) :
    broadcastInDim S800000x4x32 ![0, 1, 2] bcast_S800000x4x1_S800000x4x32_0_1_2
        (broadcastInDim S800000x4x1 ![0, 1] bcast_S800000x4_S800000x4x1_0_1 an) (ix3 e h d)
      = an (ix2 e h) := by
  refine (broadcastInDim_apply _ _ _ (ix3 e h d) (ix3 e h (0 : Fin 1)) (fun a => ?_)).trans
    (broadcastInDim_apply _ _ _ (ix3 e h (0 : Fin 1)) (ix2 e h) (fun a => ?_))
  · match a with
    | ⟨0, _⟩ => rfl
    | ⟨1, _⟩ => rfl
    | ⟨2, _⟩ => rfl
  · match a with
    | ⟨0, _⟩ => rfl
    | ⟨1, _⟩ => rfl

/-- Merging the heads back into channels keeps the row-major position 128·n + ch. -/
theorem merge_entry (A : FVec Ideal S50000x4x32 .f32) (n : Fin 50000) (ch : Fin 128) :
    shapeCast S50000x128 A shapeCasts_S50000x4x32_S50000x128 (ix2 n ch)
      = A (ix3 n ⟨ch.val / 32, by omega⟩ ⟨ch.val % 32, by omega⟩) :=
  shapeCast_apply A _ _ _ (by
    rw [Shape.rowMajor_val_two, Shape.rowMajor_val_three]
    show (n.val * 4 + ch.val / 32) * 32 + ch.val % 32 = n.val * 128 + ch.val
    omega)

/-- The normalised weight of edge e and head h: the exponential over the denominator plus the broadcast constant. -/
theorem anorm_entry (ae de : FVec Ideal S800000x4 .f32) (e : Fin 800000) (h : Fin 4) :
    Host.divf (F := Ideal) ae (addf de (broadcastInDim S800000x4 ![] bcast_S_S800000x4
        (constant (F := Ideal) S_ .f32 0x3089705F#32))) (ix2 e h)
      = GatSpec.anorm ae de e h := by
  unfold GatSpec.anorm
  show Ideal.div (ae (ix2 e h)) (de (ix2 e h) + broadcastInDim S800000x4 ![] bcast_S_S800000x4
        (constant (F := Ideal) S_ .f32 0x3089705F#32) (ix2 e h)) = _
  rw [broadcastInDim_apply _ _ _ (ix2 e h) ix0 (fun a => a.elim0)]
  rfl

/-- The weighted message of edge e at head h and channel d of that head. -/
theorem msg_entry (gs : FVec Ideal S800000x128 .f32) (ae de AN : FVec Ideal S800000x4 .f32)
    (hAN : ∀ (e : Fin 800000) (h : Fin 4), AN (ix2 e h) = GatSpec.anorm ae de e h)
    (e : Fin 800000) (h : Fin 4) (d : Fin 32) :
    mulf (shapeCast S800000x4x32 gs shapeCasts_S800000x128_S800000x4x32)
        (broadcastInDim S800000x4x32 ![0, 1, 2] bcast_S800000x4x1_S800000x4x32_0_1_2
          (broadcastInDim S800000x4x1 ![0, 1] bcast_S800000x4_S800000x4x1_0_1 AN)) (ix3 e h d)
      = GatSpec.msgHead gs ae de e h d := by
  rw [mulf_apply, split_entry, weight_entry, hAN]
  rfl

end Cert.ReferenceIdeal.MsgLayout

end
-- ==== Proof.AggEntries.lean ====
/-
  The aggregation stage read entry by entry, on both sides.

  Every node sums the weighted messages of the edges arriving at it. The reference keeps the messages as
  4 heads of 32 channels, adds slab e of the 800000 × 4 × 32 message array into the slab of a zero
  50000 × 4 × 32 array that edge e's destination names, merges heads and channels back into 128 channels and adds
  the node's own destination-side features. The kernel adds row e of a 800000 × 128 message array into the row of a
  zero 50000 × 128 array that the destination names. At node n and channel ch both are the zero entry plus the sum,
  over the edges whose destination number is n, of the message of head ch / 32 at that head's channel ch % 32
  (the reference then adds the node's own feature). The two programs lay the destinations out as a column in the
  same way, so the two sums run over the same set of edges.
-/
import proofs.«109523_j20693152432941_1_alg».proof.Proof.Gen.KernelIdeal
import proofs.«109523_j20693152432941_1_alg».proof.Proof.Gen.ReferenceIdeal
import proofs.«109523_j20693152432941_1_alg».proof.Proof.GatSpec
import proofs.«109523_j20693152432941_1_alg».proof.Proof.LibRowScatter
import proofs.«109523_j20693152432941_1_alg».proof.Proof.RefStages
import proofs.«109523_j20693152432941_1_alg».proof.Proof.KernelFoldB
import proofs.«109523_j20693152432941_1_alg».proof.Proof.RefScatter
import proofs.«109523_j20693152432941_1_alg».proof.Proof.KerScatter
import proofs.«109523_j20693152432941_1_alg».proof.Proof.MsgLayout
import Idealize.ShloMosaic.Lib.ValueIdx
import Idealize.ShloMosaic.Lib.Pipeline.Value
import Idealize.ShloMosaic.Lib.ValueLayout

noncomputable section

open Idealize.ShloMosaic Idealize.ShloMosaic.ValueIdx

namespace Cert.AggEntries

section Reference
open Cert.ReferenceIdeal Cert.ReferenceIdeal.Facts₀

/-- The reference's aggregate at node n and channel ch: the zero entry plus the sum, over the edges whose destination
    number is n, of the message of head ch / 32 at channel ch % 32 of that head, plus the node's own feature. -/
theorem ref_agg_entry (gs : FVec Ideal S800000x128 .f32) (ae de AN : FVec Ideal S800000x4 .f32)
    (hAN : ∀ (e : Fin 800000) (h : Fin 4), AN (ix2 e h) = GatSpec.anorm ae de e h)
    (dst : IVec S800000 32) (hd : FVec Ideal S50000x128 .f32) (n : Fin 50000) (ch : Fin 128) :
    Cert.ReferenceIdeal.Stages.agg (F := Ideal) (Cert.ReferenceIdeal.Stages.msg gs AN) dst hd (ix2 n ch)
      = (Ideal.ofBits .f32 0x00000000#32
          + ∑ e ∈ Finset.univ.filter (fun e : Fin 800000 =>
                Idealize.ShloMosaic.RowScatter.rowNo (Cert.ReferenceIdeal.Stages.col (F := Ideal) dst) e = (n.val : Int)),
              GatSpec.msgHead gs ae de e ⟨ch.val / 32, by omega⟩ ⟨ch.val % 32, by omega⟩)
        + hd (ix2 n ch) := by
  unfold Cert.ReferenceIdeal.Stages.agg
  rw [addf_apply, Cert.ReferenceIdeal.MsgLayout.merge_entry, Cert.ReferenceIdeal.Scatter.scatter3_entry]
  rw [broadcastInDim_apply _ _ _ (ix3 n (⟨ch.val / 32, by omega⟩ : Fin 4) (⟨ch.val % 32, by omega⟩ : Fin 32)) ix0
    (fun a => a.elim0)]
  refine congrArg (· + hd (ix2 n ch)) (congrArg₂ (· + ·) rfl (Finset.sum_congr rfl fun e _ => ?_))
  unfold Cert.ReferenceIdeal.Stages.msg
  exact Cert.ReferenceIdeal.MsgLayout.msg_entry gs ae de AN hAN e _ _

end Reference

section Kernel
open Cert.KernelIdeal Cert.KernelIdeal.Facts₀

/-- The kernel's aggregate at node n and channel ch, for a message array that holds at (e, ch) the message of head
    ch / 32 at channel ch % 32 of that head: the zero entry plus the sum of those messages over the edges whose
    destination number is n. -/
theorem ker_agg_entry (MS : FVec Ideal S800000x128 .f32) (gs : FVec Ideal S800000x128 .f32)
    (ae de : FVec Ideal S800000x4 .f32)
    (hMS : ∀ (e : Fin 800000) (ch : Fin 128),
      MS (ix2 e ch) = GatSpec.msgHead gs ae de e ⟨ch.val / 32, by omega⟩ ⟨ch.val % 32, by omega⟩)
    (dst : IVec S800000 32) (n : Fin 50000) (ch : Fin 128) :
    Cert.KernelIdeal.Stages.aggOf (F := Ideal) MS dst (ix2 n ch)
      = Ideal.ofBits .f32 0x00000000#32
          + ∑ e ∈ Finset.univ.filter (fun e : Fin 800000 =>
                Idealize.ShloMosaic.RowScatter.rowNo (Cert.KernelIdeal.Stages.col (F := Ideal) dst) e = (n.val : Int)),
              GatSpec.msgHead gs ae de e ⟨ch.val / 32, by omega⟩ ⟨ch.val % 32, by omega⟩ := by
  unfold Cert.KernelIdeal.Stages.aggOf
  rw [Cert.KernelIdeal.Scatter.scatter_entry]
  rw [broadcastInDim_apply _ _ _ (ix2 n ch) ix0 (fun a => a.elim0)]
  exact congrArg₂ (· + ·) rfl (Finset.sum_congr rfl fun e _ => hMS e ch)

end Kernel

/-- The two programs lay a vector of node numbers out as a column in the same way. -/
theorem col_eq (dst : IVec ⟨1, ![800000]⟩ 32) :
    Cert.KernelIdeal.Stages.col (F := Ideal) dst = Cert.ReferenceIdeal.Stages.col (F := Ideal) dst := rfl

end Cert.AggEntries

end
-- ==== Proof.BridgeB.lean ====
/-
  The second half up to the normalisation: weighted messages summed at their destinations.

  The kernel weights an edge's gathered source row channel by channel with (weights · a 0/1 matrix), the
  matrix having a one exactly where the channel lies in the head; since 0 · w = 0 and 1 · w = w for every
  extended real, that product is the weight of the channel's own head. The reference reshapes the row into
  heads and multiplies by the broadcast weight. Summing over the edges that share a destination — the
  scatter-add into a zero array, read at an entry as the sum over those edges — gives on both sides the same
  sum of per-head messages, whether the node's row is kept flat (kernel) or as heads and flattened afterwards
  (reference). Adding the destination projection gives the array the normalisation reads.
-/
import proofs.«109523_j20693152432941_1_alg».proof.Proof.BridgeA
import proofs.«109523_j20693152432941_1_alg».proof.Proof.Region2
import proofs.«109523_j20693152432941_1_alg».proof.Proof.SpreadMatrix
import proofs.«109523_j20693152432941_1_alg».proof.Proof.AggEntries

set_option maxRecDepth 16384

noncomputable section

namespace Cert.Bridge

open Cert.KernelIdeal Cert.KernelIdeal.Gen Cert.KernelIdeal.Stages
open Idealize.ShloMosaic Idealize.ShloMosaic.TcCoe Idealize.ShloMosaic.ValueIdx Idealize.SL.Sem

variable (m : (ℓ : Loc nD τ sig) → Buf (Elt Ideal) ℓ) (ρ : Dev nD → PrngReg) (c : Dev nD)

/-- The reference's gathered source rows of the launch arrays. -/
abbrev rGS := Cert.ReferenceIdeal.Stages.gSrc (F := Ideal)
  (Cert.ReferenceIdeal.Stages.hSrc (F := Ideal) (m ((c : Thread nD τ).loc main_arg0)) (m ((c : Thread nD τ).loc main_arg2))) (Cert.ReferenceIdeal.Stages.srcIdx (F := Ideal) (m ((c : Thread nD τ).loc main_arg1)))
/-- The reference's exponentials of the launch arrays. -/
abbrev rAE := Cert.ReferenceIdeal.Stages.attn (F := Ideal) (m ((c : Thread nD τ).loc main_arg0)) (m ((c : Thread nD τ).loc main_arg1)) (m ((c : Thread nD τ).loc main_arg2)) (m ((c : Thread nD τ).loc main_arg3)) (m ((c : Thread nD τ).loc main_arg4))
/-- The reference's destination numbers. -/
abbrev rDST := Cert.ReferenceIdeal.Stages.dstIdx (F := Ideal) (m ((c : Thread nD τ).loc main_arg1))
/-- The reference's gathered denominators. -/
abbrev rDE := Cert.ReferenceIdeal.Stages.denE (F := Ideal) (rAE m c) (rDST m c)
/-- The reference's destination projection. -/
abbrev rHD := Cert.ReferenceIdeal.Stages.hDst (F := Ideal) (m ((c : Thread nD τ).loc main_arg0)) (m ((c : Thread nD τ).loc main_arg3))

/-- What the third region leaves, entry by entry, is the per-head message of the reference's stages. -/
theorem ms_entry (e : Fin 800000) (ch : Fin 128) :
    Cert.KernelIdeal.Region2.messages (V7 m ρ) c (ix2 e ch)
      = GatSpec.msgHead (rGS m c) (rAE m c) (rDE m c) e ⟨ch.val / 32, by omega⟩ ⟨ch.val % 32, by omega⟩ := by
  show GatSpec.msgSpread (V7 m ρ c (Pipeline.arrRef spec2 0)) (V7 m ρ c (Pipeline.arrRef spec2 1))
    (V7 m ρ c (Pipeline.arrRef spec2 2)) (V7 m ρ c (Pipeline.arrRef spec2 3)) e ch = _
  rw [show V7 m ρ c (Pipeline.arrRef spec2 0) = rGS m c from gs7_eq m ρ c,
    show V7 m ρ c (Pipeline.arrRef spec2 1) = rAE m c from ae_eq m ρ c,
    show V7 m ρ c (Pipeline.arrRef spec2 2) = rDE m c from de_eq m ρ c]
  exact Cert.ReferenceIdeal.MsgLayout.spread_entry _ _ _ _
    (fun h ch' => Cert.KernelIdeal.Spread.spread_entry m ρ c h ch') e ch

/-- The array the normalisation reads — the messages summed at their destinations plus the destination
    projection — is the reference's, entry by entry. -/
theorem pre_entry (a : Fin 50000) (k : Fin 128) :
    @HAdd.hAdd EReal EReal EReal _ (W9 m ρ c (Proc.devRef .tc main_v46) (ix2 a k)) (W9 m ρ c (Proc.devRef .tc main_v4_1) (ix2 a k))
      = Cert.ReferenceIdeal.Stages.nodeOut (F := Ideal) (m ((c : Thread nD τ).loc main_arg0)) (m ((c : Thread nD τ).loc main_arg1)) (m ((c : Thread nD τ).loc main_arg2)) (m ((c : Thread nD τ).loc main_arg3)) (m ((c : Thread nD τ).loc main_arg4)) (ix2 a k) := by
  rw [W9_v46 m ρ c, W8_v43 m ρ c, Cert.KernelIdeal.Region2.messages_array (V7 m ρ) c, W8_v3 m ρ c, W7_v3 m ρ c, W4_v3 m ρ c,
    W3_v3 m ρ c, dst_eq m ρ c, W9_v4_1 m ρ c, W8_v4_1 m ρ c, W7_v4_1 m ρ c, W4_v4_1 m ρ c, W3_v4_1 m ρ c, W2_v4_1 m ρ c,
    hd_eq m ρ c]
  rw [Cert.AggEntries.ker_agg_entry (Cert.KernelIdeal.Region2.messages (V7 m ρ) c) (rGS m c) (rAE m c) (rDE m c)
    (ms_entry m ρ c) (rDST m c) a k, Cert.AggEntries.col_eq]
  exact (Cert.AggEntries.ref_agg_entry (rGS m c) (rAE m c) (rDE m c)
    (Cert.ReferenceIdeal.Stages.anorm (F := Ideal) (rAE m c) (rDE m c))
    (fun e h => Cert.ReferenceIdeal.MsgLayout.anorm_entry (rAE m c) (rDE m c) e h) (rDST m c) (rHD m c) a k).symm

end Cert.Bridge

end
-- ==== Proof.Region3.lean ====
/-
  Region 3 of the idealized kernel: the layer normalisation of the rows of the sum of two arrays.
  What the region leaves in its output array is, entry by entry, the normalisation (mean, mean squared
  deviation, reciprocal square root, scale and shift) of row a of the summed inputs at channel ch, whatever
  the buffers held when the region was entered.
-/
import proofs.«109523_j20693152432941_1_alg».proof.Proof.Gen.KernelIdeal.Frame
import proofs.«109523_j20693152432941_1_alg».proof.Proof.GatSpec
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Region3

open Idealize.ShloMosaic Idealize.ShloMosaic.TcCoe Idealize.ShloMosaic.ValueIdx Idealize.SL.Sem
open Idealize.ShloMosaic.Pipeline (Dat)
open Cert.KernelIdeal Cert.KernelIdeal.Gen

/-! ## Column forms of the layout operations, read at coordinates -/

/-- An `[a]` array cast to `[a, 1]` reads, at `(p, u)`, the operand at `p`, whatever the unit coordinate `u`. -/
theorem shapeCast_a_a1_apply {α : Type} {a : ℕ} (x : (⟨1, ![a]⟩ : Shape).Idx → α)
    (h : (⟨1, ![a]⟩ : Shape).ShapeCasts ⟨2, ![a, 1]⟩) (p : Fin a) (u : Fin 1) :
    shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- An `[a, 1]` array broadcast to `[a, b]` reads, at `(p, c)`, the operand's row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A sum over the 128 lanes of a `[2000, 128]` array, read at row `p`: the sum of the row's entries. -/
theorem laneSum_apply (src : FVec Ideal S2000x128 .f32) (h : S2000x128.Reduces [1] S2000) (hφ : FKind.Formats .f32)
    (hacc : (0x00000000#32 : BitVec 32) = 0x00000000#32) (p : Fin 2000) :
    multiReduction (F := Ideal) .add [1] S2000 src 0x00000000#32 h hφ hacc (ix1 p) = ∑ k : Fin 128, src (ix2 p k) := by
  refine (Ideal.multiReduction_add_single src 0x00000000#32 h hφ hacc (ix1 p)).trans ?_
  refine Finset.sum_congr rfl fun k _ => congrArg src ?_
  funext ax
  match ax with
  | ⟨0, _⟩ => rfl
  | ⟨1, _⟩ => rfl

/-! ## The normalisation of one row -/

/-- The layer normalisation of a row `r` of 128 entries at lane `q`: the deviation from the row's mean times the
    reciprocal square root of the mean squared deviation plus the small constant, scaled by `g` and shifted by `b`. -/
def normOfRow (r : Fin 128 → EReal) (g b : EReal) (q : Fin 128) : EReal :=
  (r q - Ideal.div (∑ k : Fin 128, r k) (Ideal.ofBits .f32 0x43000000#32))
      * Ideal.rsqrt (Ideal.div (∑ k : Fin 128, (r k - Ideal.div (∑ k : Fin 128, r k) (Ideal.ofBits .f32 0x43000000#32))
          * (r k - Ideal.div (∑ k : Fin 128, r k) (Ideal.ofBits .f32 0x43000000#32))) (Ideal.ofBits .f32 0x43000000#32)
        + Ideal.ofBits .f32 0x3727C5AC#32)
    * g + b

/-- The specification's entry is the normalisation of the array's row. -/
theorem lnorm_eq_normOfRow (s : GatSpec.SNxD.Idx → EReal) (g b : GatSpec.S1xD.Idx → EReal) (a : Fin 50000) (c : Fin 128) :
    GatSpec.lnorm s g b a c = normOfRow (fun k => s (ix2 a k)) (g (ix2 0 c)) (b (ix2 0 c)) c := rfl

/-- The reciprocal square root of a vector, read at an index. -/
theorem rsqrt_apply {s : Shape} {φ : FTy} (a : FVec Ideal s φ) (i : s.Idx) : rsqrt a i = Ideal.rsqrt (a i) := rfl

/-- The body's payload at row `p` and lane `q` of the block: the normalisation of row `p` of the two loaded blocks'
    sum, scaled and shifted by the loaded rows' lane `q`. -/
theorem pay_apply (x0 x1 : Vec Ideal S2000x128 .f32) (x2 x3 : Vec Ideal S1x128 .f32) (p : Fin 2000) (q : Fin 128) :
    k3_pay1 x0 x1 x2 x3 (ix2 p q)
      = normOfRow (fun k => x0 (ix2 p k) + x1 (ix2 p k)) (x2 (ix2 0 q)) (x3 (ix2 0 q)) q := by
  unfold k3_pay1
  simp only [shapeCast_self]
  simp only [addf_apply, mulf_apply, subf_apply, rsqrt_apply, broadcastTo_a1_ab_apply, broadcastTo_1b_ab_apply, divf_apply,
    broadcast_apply, shapeCast_a_a1_apply]
  rw [laneSum_apply, laneSum_apply]
  simp only [addf_apply, mulf_apply, subf_apply, broadcastTo_a1_ab_apply, divf_apply, broadcast_apply, shapeCast_a_a1_apply]
  rw [laneSum_apply]
  rfl

/-! ## From the blocks to the array -/

section Blocks

variable (V : (c : Dev nD) → (b : Ref sig .tc) → Buf (Elt Ideal) ((c : Thread nD τ).loc b))

theorem zero_offsets : (![0, 0] : Fin 2 → Nat) = fun _ => 0 := funext fun a => by fin_cases a <;> rfl

/-- The index maps over the 25 grid points: the two row-tiled inputs move with the output along the rows, the scale and
    the shift stay at their one block, and the output's block index along the rows is at most 24. -/
theorem index_facts : ∀ t : Fin cfg3.N,
    win3_0.index t (0 : Fin 2) = win3_4.index t (0 : Fin 2) ∧ win3_0.index t (1 : Fin 2) = 0
    ∧ win3_1.index t (0 : Fin 2) = win3_4.index t (0 : Fin 2) ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) ≤ 24 ∧ win3_4.index t (1 : Fin 2) = 0 :=
  (by decide +kernel : ∀ t : Fin grid3.N, _)

/-- Every block of rows of the output is some grid point's. -/
theorem index_onto : ∀ q0 : Fin 25, ∃ t : Fin cfg3.N, win3_4.index t = ![q0.val, 0] :=
  (by decide +kernel : ∀ q0 : Fin 25, ∃ t : Fin grid3.N, win3_4.index t = ![q0.val, 0])

/-- The array the region leaves: at `(a, ch)` the normalisation of row `a` of the two inputs' sum at channel `ch`. -/
abbrev outArr (c : Dev nD) : S50000x128.Idx → EReal := fun i =>
  GatSpec.lnorm (fun i => @HAdd.hAdd EReal EReal EReal _ (V c (Pipeline.arrRef spec3 0) i) (V c (Pipeline.arrRef spec3 1) i))
    (V c (Pipeline.arrRef spec3 2)) (V c (Pipeline.arrRef spec3 3)) (i 0) (i 1)

/-- A row-tiled input's block at point `t`, read at `(p, k)`: the array at row `p` of the output's block of rows. -/
theorem iblk0_apply (c : Dev nD) (t : Fin cfg3.N) (p : Fin 2000) (k : Fin 128) (a : Fin 50000)
    (ha : a.val = win3_4.index t (0 : Fin 2) * 2000 + p.val) :
    (iblk3 V c 0 t : Vec Ideal S2000x128 .f32) (ix2 p k)
      = (V c (Pipeline.arrRef spec3 0) : S50000x128.Idx → EReal) (ix2 a k) := by
  obtain ⟨e0, e1, e2, e3, e4, e5, e6, e7, e8, e9⟩ := index_facts t
  unfold iblk3
  rw [View.read_apply]
  show V c (Pipeline.arrRef spec3 0) _ = V c (Pipeline.arrRef spec3 0) _
  congr 1
  funext ax
  apply Fin.ext
  match ax with
  | ⟨0, _⟩ => show win3_0.index t (0 : Fin 2) * 2000 + 1 * p.val = a.val; omega
  | ⟨1, _⟩ => show win3_0.index t (1 : Fin 2) * 128 + 1 * k.val = k.val; omega

theorem iblk1_apply (c : Dev nD) (t : Fin cfg3.N) (p : Fin 2000) (k : Fin 128) (a : Fin 50000)
    (ha : a.val = win3_4.index t (0 : Fin 2) * 2000 + p.val) :
    (iblk3 V c 1 t : Vec Ideal S2000x128 .f32) (ix2 p k)
      = (V c (Pipeline.arrRef spec3 1) : S50000x128.Idx → EReal) (ix2 a k) := by
  obtain ⟨e0, e1, e2, e3, e4, e5, e6, e7, e8, e9⟩ := index_facts t
  unfold iblk3
  rw [View.read_apply]
  show V c (Pipeline.arrRef spec3 1) _ = V c (Pipeline.arrRef spec3 1) _
  congr 1
  funext ax
  apply Fin.ext
  match ax with
  | ⟨0, _⟩ => show win3_1.index t (0 : Fin 2) * 2000 + 1 * p.val = a.val; omega
  | ⟨1, _⟩ => show win3_1.index t (1 : Fin 2) * 128 + 1 * k.val = k.val; omega

/-- The scale's block at any point is the whole one-row array. -/
theorem iblk2_apply (c : Dev nD) (t : Fin cfg3.N) (k : Fin 128) :
    (iblk3 V c 2 t : Vec Ideal S1x128 .f32) (ix2 (0 : Fin 1) k)
      = (V c (Pipeline.arrRef spec3 2) : S1x128.Idx → EReal) (ix2 (0 : Fin 1) k) := by
  obtain ⟨e0, e1, e2, e3, e4, e5, e6, e7, e8, e9⟩ := index_facts t
  unfold iblk3
  rw [View.read_apply]
  show V c (Pipeline.arrRef spec3 2) _ = V c (Pipeline.arrRef spec3 2) _
  congr 1
  funext ax
  apply Fin.ext
  match ax with
  | ⟨0, _⟩ => show win3_2.index t (0 : Fin 2) * 1 + 1 * 0 = 0; omega
  | ⟨1, _⟩ => show win3_2.index t (1 : Fin 2) * 128 + 1 * k.val = k.val; omega

/-- The shift's block at any point is the whole one-row array. -/
theorem iblk3_apply (c : Dev nD) (t : Fin cfg3.N) (k : Fin 128) :
    (iblk3 V c 3 t : Vec Ideal S1x128 .f32) (ix2 (0 : Fin 1) k)
      = (V c (Pipeline.arrRef spec3 3) : S1x128.Idx → EReal) (ix2 (0 : Fin 1) k) := by
  obtain ⟨e0, e1, e2, e3, e4, e5, e6, e7, e8, e9⟩ := index_facts t
  unfold iblk3
  rw [View.read_apply]
  show V c (Pipeline.arrRef spec3 3) _ = V c (Pipeline.arrRef spec3 3) _
  congr 1
  funext ax
  apply Fin.ext
  match ax with
  | ⟨0, _⟩ => show win3_3.index t (0 : Fin 2) * 1 + 1 * 0 = 0; omega
  | ⟨1, _⟩ => show win3_3.index t (1 : Fin 2) * 128 + 1 * k.val = k.val; omega

/-- What point `t` writes back is block `t` of that array. -/
theorem flushed_eq (c : Dev nD) (t : Fin cfg3.N) :
    (dat3 (F := Ideal) V c).flushed 4 t = ((cfg3.win 4).blk t).view.read (Elt Ideal) (outArr V c) := by
  show (cfg3.win 4).cut (grid3.coords t) ((dat3 (F := Ideal) V c).after 4 t) = _
  rw [after3_4]
  unfold out3_4
  rw [View.canon_unit_zero zero_offsets]
  simp only [View.ld_unit_zero (S := S2000x128) zero_offsets, View.ld_unit_zero (S := S1x128) zero_offsets]
  obtain ⟨e0, e1, e2, e3, e4, e5, e6, e7, e8, e9⟩ := index_facts t
  funext j
  obtain ⟨p, q, rfl⟩ : ∃ (p : Fin 2000) (q : Fin 128), j = ix2 p q := ⟨j 0, j 1, eq_ix2 j⟩
  have hrow : win3_4.index t (0 : Fin 2) * 2000 + p.val < 50000 := by have := p.isLt; omega
  show k3_pay1 (iblk3 V c 0 t) (iblk3 V c 1 t) (iblk3 V c 2 t) (iblk3 V c 3 t) (ix2 p q)
    = outArr V c (((cfg3.win 4).blk t).view.emb (ix2 p q))
  have hemb : ((cfg3.win 4).blk t).view.emb (ix2 p q)
      = ix2 (⟨win3_4.index t (0 : Fin 2) * 2000 + p.val, hrow⟩ : Fin 50000) q := by
    funext a; apply Fin.ext
    match a with
    | ⟨0, _⟩ => show win3_4.index t (0 : Fin 2) * 2000 + 1 * p.val = win3_4.index t (0 : Fin 2) * 2000 + p.val; omega
    | ⟨1, _⟩ => show win3_4.index t (1 : Fin 2) * 128 + 1 * q.val = q.val; omega
  rw [hemb]
  show _ = GatSpec.lnorm _ _ _ (⟨win3_4.index t (0 : Fin 2) * 2000 + p.val, hrow⟩ : Fin 50000) q
  rw [lnorm_eq_normOfRow]
  refine (pay_apply _ _ _ _ p q).trans ?_
  refine congr (congr (congr (congrArg normOfRow (funext fun k => ?_)) ?_) ?_) rfl
  · exact congrArg₂ (· + ·) (iblk0_apply V c t p k ⟨_, hrow⟩ rfl) (iblk1_apply V c t p k ⟨_, hrow⟩ rfl)
  · exact iblk2_apply V c t q
  · exact iblk3_apply V c t q

/-- An index of the array is in point `t`'s block iff each coordinate is in the block's range on its axis. -/
theorem mem_blk (t : Fin cfg3.N) (i : S50000x128.Idx) :
    i ∈ ((cfg3.win 4).blk t).view.set ↔ ∀ a : Fin 2, win3_4.index t a * S2000x128.size a ≤ (i a).val
      ∧ (i a).val < win3_4.index t a * S2000x128.size a + S2000x128.size a := by
  show i ∈ ((View.whole main_v49).slice (win3_4.rect t)).set ↔ _
  rw [View.set_slice_whole, Rect.mem_set_unit]
  exact Iff.rfl

/-- Every index of the array is in the block of the point that holds its row: row `r` is in block `r / 2000`. -/
theorem covered (i : S50000x128.Idx) :
    ∃ t : Fin cfg3.N, (cfg3.win 4).flush t = true ∧ i ∈ ((cfg3.win 4).blk t).view.set := by
  have hi0 : (i 0).val < 50000 := (i 0).isLt
  have hi1 : (i 1).val < 128 := (i 1).isLt
  obtain ⟨t, ht⟩ := index_onto ⟨(i 0).val / 2000, by omega⟩
  have q0 : win3_4.index t (0 : Fin 2) = (i 0).val / 2000 := congrFun ht 0
  have q1 : win3_4.index t (1 : Fin 2) = 0 := congrFun ht 1
  refine ⟨t, flush3_4 t, ?_⟩
  rw [mem_blk]
  intro a
  match a with
  | ⟨0, _⟩ =>
    show win3_4.index t (0 : Fin 2) * 2000 ≤ (i 0).val ∧ (i 0).val < win3_4.index t (0 : Fin 2) * 2000 + 2000
    omega
  | ⟨1, _⟩ =>
    show win3_4.index t (1 : Fin 2) * 128 ≤ (i 1).val ∧ (i 1).val < win3_4.index t (1 : Fin 2) * 128 + 128
    omega

/-- The output array after the region, for any contents at its entry. -/
theorem final (c : Dev nD) : (dat3 (F := Ideal) V c).arrAt 4 cfg3.N = outArr V c :=
  (dat3 (F := Ideal) V c).arrAt_eq_of_cover 4 (outArr V c) (fun t _ => flushed_eq V c t) covered

/-- Entry `(a, ch)` of the output array after the region: the layer normalisation of row `a` of the two inputs' sum at
    channel `ch`, scaled and shifted by the two one-row inputs. -/
theorem out_entry (c : Dev nD) (a : Fin 50000) (ch : Fin 128) :
    (dat3 (F := Ideal) V c).arrAt 4 cfg3.N (ix2 a ch)
      = GatSpec.lnorm (fun i => @HAdd.hAdd EReal EReal EReal _ (V c (Pipeline.arrRef spec3 0) i) (V c (Pipeline.arrRef spec3 1) i))
          (V c (Pipeline.arrRef spec3 2)) (V c (Pipeline.arrRef spec3 3)) a ch := by
  rw [final V c]

end Blocks

end Cert.KernelIdeal.Region3

end
-- ==== Proof.LnCongr.lean ====
/-
  Layer normalisation of an entry reads one row only.

  The entry (a, c) of the normalised array is built from the mean and the mean squared deviation of row a of the
  input and from the scale and the shift at channel c. Two inputs that agree on row a, with scales and shifts that
  agree at channel c, therefore have the same entry (a, c).
-/
import proofs.«109523_j20693152432941_1_alg».proof.Proof.GatSpec

noncomputable section

namespace GatSpec

open Idealize.ShloMosaic Idealize.ShloMosaic.ValueIdx

/-- The mean of row a depends on row a only. -/
theorem rowMean_congr (s s' : SNxD.Idx → EReal) (a : Fin 50000)
    (hs : ∀ k : Fin 128, s (ix2 a k) = s' (ix2 a k)) : rowMean s a = rowMean s' a := by
  unfold rowMean
  have h : ∑ k : Fin 128, s (ix2 a k) = ∑ k : Fin 128, s' (ix2 a k) := Finset.sum_congr rfl fun k _ => hs k
  rw [h]

/-- The mean squared deviation of row a depends on row a only. -/
theorem rowVar_congr (s s' : SNxD.Idx → EReal) (a : Fin 50000)
    (hs : ∀ k : Fin 128, s (ix2 a k) = s' (ix2 a k)) : rowVar s a = rowVar s' a := by
  unfold rowVar
  rw [rowMean_congr s s' a hs]
  have h : ∑ k : Fin 128, (s (ix2 a k) - rowMean s' a) * (s (ix2 a k) - rowMean s' a)
      = ∑ k : Fin 128, (s' (ix2 a k) - rowMean s' a) * (s' (ix2 a k) - rowMean s' a) :=
    Finset.sum_congr rfl fun k _ => by rw [hs k]
  rw [h]

/-- The normalised entry (a, c) depends on row a of the input and on the scale and the shift at channel c only. -/
theorem lnorm_congr (s s' : SNxD.Idx → EReal) (g g' b b' : S1xD.Idx → EReal) (a : Fin 50000) (c : Fin 128)
    (hs : ∀ k : Fin 128, s (ix2 a k) = s' (ix2 a k)) (hg : g (ix2 0 c) = g' (ix2 0 c))
    (hb : b (ix2 0 c) = b' (ix2 0 c)) : lnorm s g b a c = lnorm s' g' b' a c := by
  unfold lnorm
  rw [rowMean_congr s s' a hs, rowVar_congr s s' a hs, hs c, hg, hb]

end GatSpec

end
-- ==== Proof.RowVecEntry.lean ====
/-
  A vector of 128 channels laid out as one row: the row's entry ch is the vector's entry ch.
-/
import proofs.«109523_j20693152432941_1_alg».proof.Proof.KernelFoldB
import Idealize.ShloMosaic.Lib.ValueIdx
import Idealize.ShloMosaic.Lib.ValueLayout
import Idealize.ShloMosaic.Lib.Pipeline.Value

noncomputable section

open Idealize.ShloMosaic Idealize.ShloMosaic.ValueIdx

namespace Cert.KernelIdeal.Stages

open Cert.KernelIdeal Cert.KernelIdeal.Gen

/-- A reshape that adds a leading axis of extent 1 keeps the position along the channels. -/
theorem rowVec_entry (g : FVec Ideal S128 .f32) (ch : Fin 128) :
    rowVec (F := Ideal) g (ix2 (0 : Fin 1) ch) = g (ix1 ch) := by
  unfold rowVec
  exact shapeCast_a_1a_apply g shapeCasts_S128_S1x128 0 ch

end Cert.KernelIdeal.Stages

end
-- ==== Proof.BridgeC.lean ====
/-
  The last step of the bridge: the kernel's output array is the reference's layer normalisation.

  The fourth region leaves, at row a and channel ch, the layer normalisation of the sum of the aggregated
  messages and the destination projection, scaled and shifted by the two parameter vectors laid out as rows.
  The reference's normalisation of an array S' reads the same entry of the same function. So when the summed
  array agrees with S' entry by entry, the two output arrays are equal: the normalisation of a row depends on
  the row's entries and on the scale and shift at the channel alone.
-/
import proofs.«109523_j20693152432941_1_alg».proof.Proof.KernelFoldB
import proofs.«109523_j20693152432941_1_alg».proof.Proof.Region3
import proofs.«109523_j20693152432941_1_alg».proof.Proof.RefEntries
import proofs.«109523_j20693152432941_1_alg».proof.Proof.LnCongr
import proofs.«109523_j20693152432941_1_alg».proof.Proof.RowVecEntry

noncomputable section

namespace Cert.Bridge

open Cert.KernelIdeal Cert.KernelIdeal.Gen Cert.KernelIdeal.Stages
open Idealize.ShloMosaic Idealize.ShloMosaic.TcCoe Idealize.ShloMosaic.ValueIdx Idealize.SL.Sem

variable (m : (ℓ : Loc nD τ sig) → Buf (Elt Ideal) ℓ) (ρ : Dev nD → PrngReg) (c : Dev nD)

/-- The scale as the fourth region finds it, at channel ch: the parameter vector's entry. -/
theorem scale_entry (ch : Fin 128) :
    (V9 m ρ c (Pipeline.arrRef spec3 2) : GatSpec.S1xD.Idx → EReal) (ix2 0 ch)
      = (m ((c : Thread nD τ).loc main_arg5) : FVec Ideal S128 .f32) (ix1 ch) := by
  show (W9 m ρ c (Proc.devRef .tc main_v47) : GatSpec.S1xD.Idx → EReal) (ix2 0 ch) = _
  rw [W9_v47, W8_arg5]
  exact rowVec_entry _ ch

/-- The shift likewise. -/
theorem shift_entry (ch : Fin 128) :
    (V9 m ρ c (Pipeline.arrRef spec3 3) : GatSpec.S1xD.Idx → EReal) (ix2 0 ch)
      = (m ((c : Thread nD τ).loc main_arg6) : FVec Ideal S128 .f32) (ix1 ch) := by
  show (W9 m ρ c (Proc.devRef .tc main_v48) : GatSpec.S1xD.Idx → EReal) (ix2 0 ch) = _
  rw [W9_v48, W8_arg6]
  exact rowVec_entry _ ch

/-- The kernel's output array at the end of the run is the reference's layer normalisation of any array that
    agrees, entry by entry, with the sum the fourth region normalises. -/
theorem out_eq (S' : FVec Ideal Cert.ReferenceIdeal.S50000x128 .f32)
    (hS : ∀ (a : Fin 50000) (k : Fin 128),
      @HAdd.hAdd EReal EReal EReal _ (W9 m ρ c (Proc.devRef .tc main_v46) (ix2 a k)) (W9 m ρ c (Proc.devRef .tc main_v4_1) (ix2 a k))
        = S' (ix2 a k)) :
    W10 (F := Ideal) m ρ c (Proc.devRef .tc main_v49)
      = Cert.ReferenceIdeal.Stages.lnOut (F := Ideal) S' (m ((c : Thread nD τ).loc main_arg5)) (m ((c : Thread nD τ).loc main_arg6)) := by
  rw [W10_v49]
  funext i
  obtain ⟨a, ch, rfl⟩ : ∃ (a : Fin 50000) (ch : Fin 128), i = ix2 a ch := ⟨i 0, i 1, eq_ix2 (n0 := 50000) (n1 := 128) i⟩
  refine (Region3.out_entry (V9 m ρ) c a ch).trans ?_
  refine Eq.trans ?_ (Cert.ReferenceIdeal.Entries.ln_entry S' _ _ a ch).symm
  exact GatSpec.lnorm_congr _ _ _ _ _ _ a ch (fun k => hS a k) (scale_entry m ρ c ch) (shift_entry m ρ c ch)

end Cert.Bridge

end
-- ==== Proof.BridgeD.lean ====
/-
  The kernel's result is the reference's function of the launch arrays.

  The last region normalises the rows of the pre-normalisation array; the reference normalises the rows of
  its own, which is the same array entry by entry; so the result arrays agree, the reference's being its
  layer normalisation of its node output, which is its whole output function.
-/
import proofs.«109523_j20693152432941_1_alg».proof.Proof.BridgeB
import proofs.«109523_j20693152432941_1_alg».proof.Proof.BridgeC

set_option maxRecDepth 16384

noncomputable section

namespace Cert.Bridge

open Cert.KernelIdeal Cert.KernelIdeal.Gen Cert.KernelIdeal.Stages
open Idealize.ShloMosaic Idealize.ShloMosaic.TcCoe Idealize.ShloMosaic.ValueIdx Idealize.SL.Sem

variable (m : (ℓ : Loc nD τ sig) → Buf (Elt Ideal) ℓ) (ρ : Dev nD → PrngReg) (c : Dev nD)

/-- At the end of the kernel's run its result array holds the reference's output function of the launch arrays. -/
theorem kernel_out : W10 (F := Ideal) m ρ c (Proc.devRef .tc main_v49)
    = Cert.ReferenceIdeal.Stages.refOut (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) :=
  out_eq m ρ c (Cert.ReferenceIdeal.Stages.nodeOut (F := Ideal) (m ((c : Thread nD τ).loc main_arg0)) (m ((c : Thread nD τ).loc main_arg1)) (m ((c : Thread nD τ).loc main_arg2)) (m ((c : Thread nD τ).loc main_arg3)) (m ((c : Thread nD τ).loc main_arg4))) (pre_entry m ρ c)

end Cert.Bridge

end
-- ==== Proof.lean ====
/-
  One graph-attention layer (two projections, attention logits, a softmax over the edges into each node,
  weighted message aggregation, a residual and a layer normalisation), computed by four pipelined regions
  among host gathers and scatter-adds, against the plain array program.

  The three frames: the word-level and the idealized kernel run through their ten segments (every region of
  class A), and the reference is a straight line of host operations. The idealization rewrote nothing, so
  there is nothing to preserve. Over the extended reals both programs compute the same function of the
  arguments: the two contractions inside regions are the reference's whole products entry by entry (a change
  of float format being the identity), the gathers and the softmax chain between them are the same host
  operations of equal operands, the kernel's 0/1 spreading product picks each channel's own head (0 · w = 0
  and 1 · w = w for every extended real), the scatter-add commutes with flattening a node's heads, and the
  two layer normalisations are the same mean, mean squared deviation and reciprocal square root of the same
  rows. No step needs the inputs finite.
-/
import proofs.«109523_j20693152432941_1_alg».proof.Defs
import proofs.«109523_j20693152432941_1_alg».proof.Proof.Gen.Kernel
import proofs.«109523_j20693152432941_1_alg».proof.Proof.Gen.Kernel.Skeleton
import proofs.«109523_j20693152432941_1_alg».proof.Proof.Gen.Kernel.Launch
import proofs.«109523_j20693152432941_1_alg».proof.Proof.Gen.Kernel.Points
import proofs.«109523_j20693152432941_1_alg».proof.Proof.Gen.Kernel.Frame
import proofs.«109523_j20693152432941_1_alg».proof.Proof.Gen.KernelIdeal
import proofs.«109523_j20693152432941_1_alg».proof.Proof.Gen.KernelIdeal.Skeleton
import proofs.«109523_j20693152432941_1_alg».proof.Proof.Gen.KernelIdeal.Launch
import proofs.«109523_j20693152432941_1_alg».proof.Proof.Gen.KernelIdeal.Points
import proofs.«109523_j20693152432941_1_alg».proof.Proof.Gen.KernelIdeal.Frame
import proofs.«109523_j20693152432941_1_alg».proof.Proof.Gen.ReferenceIdeal
import proofs.«109523_j20693152432941_1_alg».proof.Proof.Gen.Pre_finite_inputs
import proofs.«109523_j20693152432941_1_alg».proof.Proof.KernelRun
import proofs.«109523_j20693152432941_1_alg».proof.Proof.RefRunOut
import proofs.«109523_j20693152432941_1_alg».proof.Proof.BridgeD
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame is its run with the result dropped. -/
theorem frame_ri : Cert.frame_ReferenceIdeal := fun m ρ _ =>
  (θ_run Cert.ReferenceIdeal.defs _ _).mono (fun _ h c => (h c).2) (Cert.ReferenceIdeal.HandRun.run (F := Ideal) m ρ)

theorem preserves : Cert.preserves_Kernel_KernelIdeal := trivial

/-- Both runs end, from memories agreeing on the arguments, with the result at the reference's output function of
    the arguments. -/
theorem algebraic : Cert.algebraic_KernelIdeal_ReferenceIdeal := by
  intro m ρ m' ρ' _ hagree
  refine ⟨fun c => Cert.KernelIdeal.Gen.W10 (F := Ideal) m ρ c (Proc.devRef .tc Cert.KernelIdeal.main_v49),
    Cert.KernelIdeal.HandRun.run_out (F := Ideal) m ρ, ?_⟩
  refine (θ_run Cert.ReferenceIdeal.defs _ _).mono (fun _ h c => ⟨(h c).1.trans ?_, (h c).2⟩)
    (Cert.ReferenceIdeal.HandRun.run_out (F := Ideal) m' ρ')
  rw [(hagree c).1, (hagree c).2.1, (hagree c).2.2.1, (hagree c).2.2.2.1, (hagree c).2.2.2.2.1, (hagree c).2.2.2.2.2.1,
    (hagree c).2.2.2.2.2.2]
  exact (Cert.Bridge.kernel_out m ρ c).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
